-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v230) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x80x80 : Shape := ⟨4, ![4, 32, 80, 80]⟩
abbrev S32x32x5x5 : Shape := ⟨4, ![32, 32, 5, 5]⟩
abbrev S32 : Shape := ⟨1, ![32]⟩
abbrev S_ : Shape := ⟨0, ![]⟩

class Facts : Prop where
  bcast_S_S4x32x80x80 : S_.BroadcastsInDim S4x32x80x80 (![] : Fin 0 → Fin S4x32x80x80.rank)
  reducesTo_S4x32x80x80_S_d0_1_2_3 : S4x32x80x80.ReducesTo [0, 1, 2, 3] S_
  h_S_ : 0 < S_.numel
  bcast_S_S32x32x5x5 : S_.BroadcastsInDim S32x32x5x5 (![] : Fin 0 → Fin S32x32x5x5.rank)
  reducesTo_S32x32x5x5_S_d0_1_2_3 : S32x32x5x5.ReducesTo [0, 1, 2, 3] S_
  bcast_S_S32 : S_.BroadcastsInDim S32 (![] : Fin 0 → Fin S32.rank)
  reducesTo_S32_S_d0 : S32.ReducesTo [0] S_

variable [Facts]

def fn {F : FTy → Type} [FloatOps F] (main_arg0 : FVec F S4x32x80x80 .f32) (main_arg1 : FVec F S32x32x5x5 .f32) (main_arg2 : FVec F S32 .f32) : IVec S_ 1 :=
  let main_v0 : FVec F S4x32x80x80 .f32 := Host.absf main_arg0
  let main_cst : FVec F S_ .f32 := constant S_ .f32 0x7F800000#32
  let main_v1 : FVec F S4x32x80x80 .f32 := broadcastInDim S4x32x80x80 ![] bcast_S_S4x32x80x80 main_cst
  let main_v2 : IVec S4x32x80x80 1 := cmpf .olt main_v0 main_v1
  let main_c : IVec S_ 1 := constantI S_ 1 1#1
  let main_v3 : IVec S_ 1 := (fun x v => Host.reduce IntOp.andi x v reducesTo_S4x32x80x80_S_d0_1_2_3 h_S_) main_v2 main_c
  let main_v4 : FVec F S32x32x5x5 .f32 := Host.absf main_arg1
  let main_cst_0 : FVec F S_ .f32 := constant S_ .f32 0x7F800000#32
  let main_v5 : FVec F S32x32x5x5 .f32 := broadcastInDim S32x32x5x5 ![] bcast_S_S32x32x5x5 main_cst_0
  let main_v6 : IVec S32x32x5x5 1 := cmpf .olt main_v4 main_v5
  let main_c_1 : IVec S_ 1 := constantI S_ 1 1#1
  let main_v7 : IVec S_ 1 := (fun x v => Host.reduce IntOp.andi x v reducesTo_S32x32x5x5_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S4x32x80x80 : Shape := ⟨4, ![4, 32, 80, 80]⟩
abbrev S32x32x5x5 : Shape := ⟨4, ![32, 32, 5, 5]⟩
abbrev S32 : Shape := ⟨1, ![32]⟩
abbrev S_ : Shape := ⟨0, ![]⟩
abbrev S4x32x84x84 : Shape := ⟨4, ![4, 32, 84, 84]⟩
abbrev S32x5x5x32 : Shape := ⟨4, ![32, 5, 5, 32]⟩
abbrev S32x25x32 : Shape := ⟨3, ![32, 25, 32]⟩
abbrev S1x32 : Shape := ⟨2, ![1, 32]⟩
abbrev S1x32x84x84 : Shape := ⟨4, ![1, 32, 84, 84]⟩
abbrev S1x32x80x80 : Shape := ⟨4, ![1, 32, 80, 80]⟩
abbrev S32x80x80 : Shape := ⟨3, ![32, 80, 80]⟩
abbrev S32x84x84 : Shape := ⟨3, ![32, 84, 84]⟩
abbrev S1x84x84 : Shape := ⟨3, ![1, 84, 84]⟩
abbrev S84x84 : Shape := ⟨2, ![84, 84]⟩
abbrev S1x25x32 : Shape := ⟨3, ![1, 25, 32]⟩
abbrev S25x32 : Shape := ⟨2, ![25, 32]⟩
abbrev S80x80 : Shape := ⟨2, ![80, 80]⟩
abbrev S32x1x1 : Shape := ⟨3, ![32, 1, 1]⟩
abbrev S1x80x80 : Shape := ⟨3, ![1, 80, 80]⟩

abbrev nBuf : Space → Nat
  | .hbm => 10
  | .vmem => 7
  | .smem => 0
  | _ => 0

abbrev bufTy : (tb : Table) → Fin (tcTables nBuf tb) → BufTy
  | .hbm, ⟨0, _⟩ => ⟨S4x32x80x80, .f32⟩
  | .hbm, ⟨1, _⟩ => ⟨S32x32x5x5, .f32⟩
  | .hbm, ⟨2, _⟩ => ⟨S32, .f32⟩
  | .hbm, ⟨3, _⟩ => ⟨S_, .f32⟩
  | .hbm, ⟨4, _⟩ => ⟨S_, .f32⟩
  | .hbm, ⟨5, _⟩ => ⟨S4x32x84x84, .f32⟩
  | .hbm, ⟨6, _⟩ => ⟨S32x5x5x32, .f32⟩
  | .hbm, ⟨7, _⟩ => ⟨S32x25x32, .f32⟩
  | .hbm, ⟨8, _⟩ => ⟨S1x32, .f32⟩
  | .hbm, ⟨9, _⟩ => ⟨S4x32x80x80, .f32⟩
  | .local _ .vmem, ⟨0, _⟩ => ⟨S1x32x84x84, .f32⟩
  | .local _ .vmem, ⟨1, _⟩ => ⟨S1x32x84x84, .f32⟩
  | .local _ .vmem, ⟨2, _⟩ => ⟨S32x25x32, .f32⟩
  | .local _ .vmem, ⟨3, _⟩ => ⟨S1x32, .f32⟩
  | .local _ .vmem, ⟨4, _⟩ => ⟨S1x32x80x80, .f32⟩
  | .local _ .vmem, ⟨5, _⟩ => ⟨S1x32x80x80, .f32⟩
  | .local _ .vmem, ⟨6, _⟩ => ⟨S32x80x80, .f32⟩
  | _, _ => ⟨S4x32x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_2 : BitVec 32 := 0#32
  let c32_i32 : BitVec 32 := 32#32
  let v4 : BitVec 32 := Scalar.addi c0_i32_2 c32_i32
  let c1_i32 : BitVec 32 := 1#32
  ⟨c0_i32_2, v4, c1_i32⟩
def k0_off1 (k0_t1 : Fin k0_t1_loop.trips) : Fin 3 → Nat :=
  let c0_i32_14 : BitVec 32 := 0#32
  let c0_i32_2 : BitVec 32 := 0#32
  let c1_i32 : BitVec 32 := 1#32
  let arg6 : BitVec 32 := Scf.iv c0_i32_2 c1_i32 k0_t1
  let c1_i32_13 : BitVec 32 := 1#32
  let v14 : BitVec 32 := Scalar.muli arg6 c1_i32_13
  let v15 : BitVec 32 := Scalar.addi c0_i32_14 v14
  let v18 : Index := Scalar.indexCast v15
  let c0_18 : Index := 0#32
  let c0_19 : Index := 0#32
  ![v18.toNat, 0, 0]
def k0_off2 (k0_t1 : Fin k0_t1_loop.trips) : Fin 3 → Nat :=
  let c0_i32_14 : BitVec 32 := 0#32
  let c0_i32_2 : BitVec 32 := 0#32
  let c1_i32 : BitVec 32 := 1#32
  let arg6 : BitVec 32 := Scf.iv c0_i32_2 c1_i32 k0_t1
  let c1_i32_13 : BitVec 32 := 1#32
  let v14 : BitVec 32 := Scalar.muli arg6 c1_i32_13
  let v15 : BitVec 32 := Scalar.addi c0_i32_14 v14
  let v21 : Index := Scalar.indexCast v15
  let c0_20 : Index := 0#32
  let c0_21 : Index := 0#32
  ![v21.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x84x84 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x25x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x80x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S4x32x80x80_S4x32x84x84_000_000_220_220 : S4x32x80x80.Pads (![0, 0, 2, 2] : Fin 4 → Nat) ![0, 0, 2, 2] ![0, 0, 0, 0] S4x32x84x84
  h_S_ : 0 < S_.numel
  transposes_S32x32x5x5_S32x5x5x32_1_2_3_0 : S32x32x5x5.Transposes [1, 2, 3, 0] S32x5x5x32
  shapeCasts_S32x5x5x32_S32x25x32 : S32x5x5x32.ShapeCasts S32x25x32
  shapeCasts_S32_S1x32 : S32.ShapeCasts S1x32
  inb_S32x80x80_S32x80x80_0_0_0 : ∀ a, (![0, 0, 0] : Fin 3 → Nat) a + S32x80x80.size a ≤ S32x80x80.size a
  h_S32x80x80 : 0 < S32x80x80.numel
  shapeCasts_S32x80x80_S32x80x80 : S32x80x80.ShapeCasts S32x80x80
  inb_S1x32x84x84_S1x32x84x84_0_0_0_0 : ∀ a, (![0, 0, 0, 0] : Fin 4 → Nat) a + S1x32x84x84.size a ≤ S1x32x84x84.size a
  squeezes_S1x32x84x84_S32x84x84 : S1x32x84x84.Squeezes S32x84x84
  h_S1x84x84 : 0 < S1x84x84.numel
  shapeCasts_S1x84x84_S84x84 : S1x84x84.ShapeCasts S84x84
  h_S1x25x32 : 0 < S1x25x32.numel
  shapeCasts_S1x25x32_S25x32 : S1x25x32.ShapeCasts S25x32
  slices_S84x84_o0_0_S80x80 : S84x84.Slices ![0, 0] S80x80
  slices_S25x32_o0_0_S1x32 : S25x32.Slices ![0, 0] S1x32
  shapeCasts_S1x32_S32 : S1x32.ShapeCasts S32
  shapeCasts_S32_S32x1x1 : S32.ShapeCasts S32x1x1
  shapeCasts_S80x80_S1x80x80 : S80x80.ShapeCasts S1x80x80
  broadcasts_S32x1x1_S32x80x80 : S32x1x1.Broadcasts S32x80x80
  broadcasts_S1x80x80_S32x80x80 : S1x80x80.Broadcasts S32x80x80
  slices_S84x84_o0_1_S80x80 : S84x84.Slices ![0, 1] S80x80
  slices_S25x32_o1_0_S1x32 : S25x32.Slices ![1, 0] S1x32
  slices_S84x84_o0_2_S80x80 : S84x84.Slices ![0, 2] S80x80
  slices_S25x32_o2_0_S1x32 : S25x32.Slices ![2, 0] S1x32
  slices_S84x84_o0_3_S80x80 : S84x84.Slices ![0, 3] S80x80
  slices_S25x32_o3_0_S1x32 : S25x32.Slices ![3, 0] S1x32
  slices_S84x84_o0_4_S80x80 : S84x84.Slices ![0, 4] S80x80
  slices_S25x32_o4_0_S1x32 : S25x32.Slices ![4, 0] S1x32
  slices_S84x84_o1_0_S80x80 : S84x84.Slices ![1, 0] S80x80
  slices_S25x32_o5_0_S1x32 : S25x32.Slices ![5, 0] S1x32
  slices_S84x84_o1_1_S80x80 : S84x84.Slices ![1, 1] S80x80
  slices_S25x32_o6_0_S1x32 : S25x32.Slices ![6, 0] S1x32
  slices_S84x84_o1_2_S80x80 : S84x84.Slices ![1, 2] S80x80
  slices_S25x32_o7_0_S1x32 : S25x32.Slices ![7, 0] S1x32
  slices_S84x84_o1_3_S80x80 : S84x84.Slices ![1, 3] S80x80
  slices_S25x32_o8_0_S1x32 : S25x32.Slices ![8, 0] S1x32
  slices_S84x84_o1_4_S80x80 : S84x84.Slices ![1, 4] S80x80
  slices_S25x32_o9_0_S1x32 : S25x32.Slices ![9, 0] S1x32
  slices_S84x84_o2_0_S80x80 : S84x84.Slices ![2, 0] S80x80
  slices_S25x32_o10_0_S1x32 : S25x32.Slices ![10, 0] S1x32
  slices_S84x84_o2_1_S80x80 : S84x84.Slices ![2, 1] S80x80
  slices_S25x32_o11_0_S1x32 : S25x32.Slices ![11, 0] S1x32
  slices_S84x84_o2_2_S80x80 : S84x84.Slices ![2, 2] S80x80
  slices_S25x32_o12_0_S1x32 : S25x32.Slices ![12, 0] S1x32
  slices_S84x84_o2_3_S80x80 : S84x84.Slices ![2, 3] S80x80
  slices_S25x32_o13_0_S1x32 : S25x32.Slices ![13, 0] S1x32
  slices_S84x84_o2_4_S80x80 : S84x84.Slices ![2, 4] S80x80
  slices_S25x32_o14_0_S1x32 : S25x32.Slices ![14, 0] S1x32
  slices_S84x84_o3_0_S80x80 : S84x84.Slices ![3, 0] S80x80
  slices_S25x32_o15_0_S1x32 : S25x32.Slices ![15, 0] S1x32
  slices_S84x84_o3_1_S80x80 : S84x84.Slices ![3, 1] S80x80
  slices_S25x32_o16_0_S1x32 : S25x32.Slices ![16, 0] S1x32
  slices_S84x84_o3_2_S80x80 : S84x84.Slices ![3, 2] S80x80
  slices_S25x32_o17_0_S1x32 : S25x32.Slices ![17, 0] S1x32
  slices_S84x84_o3_3_S80x80 : S84x84.Slices ![3, 3] S80x80
  slices_S25x32_o18_0_S1x32 : S25x32.Slices ![18, 0] S1x32
  slices_S84x84_o3_4_S80x80 : S84x84.Slices ![3, 4] S80x80
  slices_S25x32_o19_0_S1x32 : S25x32.Slices ![19, 0] S1x32
  slices_S84x84_o4_0_S80x80 : S84x84.Slices ![4, 0] S80x80
  slices_S25x32_o20_0_S1x32 : S25x32.Slices ![20, 0] S1x32
  slices_S84x84_o4_1_S80x80 : S84x84.Slices ![4, 1] S80x80
  slices_S25x32_o21_0_S1x32 : S25x32.Slices ![21, 0] S1x32
  slices_S84x84_o4_2_S80x80 : S84x84.Slices ![4, 2] S80x80
  slices_S25x32_o22_0_S1x32 : S25x32.Slices ![22, 0] S1x32
  slices_S84x84_o4_3_S80x80 : S84x84.Slices ![4, 3] S80x80
  slices_S25x32_o23_0_S1x32 : S25x32.Slices ![23, 0] S1x32
  slices_S84x84_o4_4_S80x80 : S84x84.Slices ![4, 4] S80x80
  slices_S25x32_o24_0_S1x32 : S25x32.Slices ![24, 0] S1x32
  inb_S1x32_S1x32_0_0 : ∀ a, (![0, 0] : Fin 2 → Nat) a + S1x32.size a ≤ S1x32.size a
  h_S1x32 : 0 < S1x32.numel
  inb_S1x32x80x80_S1x32x80x80_0_0_0_0 : ∀ a, (![0, 0, 0, 0] : Fin 4 → Nat) a + S1x32x80x80.size a ≤ S1x32x80x80.size a
  h_S1x32x80x80 : 0 < S1x32x80x80.numel
  shapeCasts_S1x32x80x80_S32x80x80 : S1x32x80x80.ShapeCasts S32x80x80
  shapeCasts_S32x80x80_S1x32x80x80 : S32x80x80.ShapeCasts S1x32x80x80
  hrank0 : 0 < grid0.rank
  k0_t1_ok : k0_t1_loop.OK
  k0_off1_inb : ∀ k0_t1 : Fin k0_t1_loop.trips, ∀ a, (k0_off1 k0_t1) a + S1x84x84.size a ≤ S32x84x84.size a
  k0_off2_inb : ∀ k0_t1 : Fin k0_t1_loop.trips, ∀ a, (k0_off2 k0_t1) a + S1x25x32.size a ≤ S32x25x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x84x84.size a ≤ S4x32x84x84.size a
  hwx0_0 : ∀ i : grid0.Coords, EltTy.bits .f32 = 32 ∨ (Rect.block (s := S4x32x84x84) S1x32x84x84.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x25x32.size a ≤ S32x25x32.size a
  hwx0_1 : ∀ i : grid0.Coords, EltTy.bits .f32 = 32 ∨ (Rect.block (s := S32x25x32) S32x25x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x80x80.size a ≤ S4x32x80x80.size a
  hwx0_3 : ∀ i : grid0.Coords, EltTy.bits .f32 = 32 ∨ (Rect.block (s := S4x32x80x80) S1x32x80x80.size (cc0_transform_3 i) (hinb0_3 i)).WholeWords (EltTy.packing .f32)

variable [Facts₀]

abbrev win0_0 : Pipeline.Window sig grid0 :=
  Pipeline.Window.ofSpec (Memref.whole main_v0) S1x32x84x84.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x25x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x32x80x80.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x32x80x80 : Shape := ⟨4, ![4, 32, 80, 80]⟩
abbrev S32x32x5x5 : Shape := ⟨4, ![32, 32, 5, 5]⟩
abbrev S32 : Shape := ⟨1, ![32]⟩
abbrev S_ : Shape := ⟨0, ![]⟩
abbrev S4x32x84x84 : Shape := ⟨4, ![4, 32, 84, 84]⟩
abbrev S4x32x32x80x80 : Shape := ⟨5, ![4, 32, 32, 80, 80]⟩
abbrev S4x1x32x80x80 : Shape := ⟨5, ![4, 1, 32, 80, 80]⟩
abbrev S32x32x1x1 : Shape := ⟨4, ![32, 32, 1, 1]⟩
abbrev S32x32 : Shape := ⟨2, ![32, 32]⟩
abbrev S1x32x32x1x1 : Shape := ⟨5, ![1, 32, 32, 1, 1]⟩
abbrev S1x32x1x1 : Shape := ⟨4, ![1, 32, 1, 1]⟩

abbrev nBuf : Space → Nat
  | .hbm => 238
  | .vmem => 0
  | .smem => 0
  | _ => 0

abbrev hbmTy0_0 (i : Nat) : BufTy := match i % 128 with
  | 0 => ⟨S4x32x80x80, .f32⟩
  | 1 => ⟨S32x32x5x5, .f32⟩
  | 2 => ⟨S32, .f32⟩
  | 3 => ⟨S_, .f32⟩
  | 4 => ⟨S_, .f32⟩
  | 5 => ⟨S4x32x84x84, .f32⟩
  | 6 => ⟨S_, .f32⟩
  | 7 => ⟨S4x32x32x80x80, .f32⟩
  | 8 => ⟨S4x32x80x80, .f32⟩
  | 9 => ⟨S4x1x32x80x80, .f32⟩
  | 10 => ⟨S32x32x1x1, .f32⟩
  | 11 => ⟨S32x32, .f32⟩
  | 12 => ⟨S1x32x32x1x1, .f32⟩
  | 13 => ⟨S4x32x32x80x80, .f32⟩
  | 14 => ⟨S4x32x32x80x80, .f32⟩
  | 15 => ⟨S4x32x32x80x80, .f32⟩
  | 16 => ⟨S4x32x32x80x80, .f32⟩
  | 17 => ⟨S4x32x80x80, .f32⟩
  | 18 => ⟨S4x1x32x80x80, .f32⟩
  | 19 => ⟨S32x32x1x1, .f32⟩
  | 20 => ⟨S32x32, .f32⟩
  | 21 => ⟨S1x32x32x1x1, .f32⟩
  | 22 => ⟨S4x32x32x80x80, .f32⟩
  | 23 => ⟨S4x32x32x80x80, .f32⟩
  | 24 => ⟨S4x32x32x80x80, .f32⟩
  | 25 => ⟨S4x32x32x80x80, .f32⟩
  | 26 => ⟨S4x32x80x80, .f32⟩
  | 27 => ⟨S4x1x32x80x80, .f32⟩
  | 28 => ⟨S32x32x1x1, .f32⟩
  | 29 => ⟨S32x32, .f32⟩
  | 30 => ⟨S1x32x32x1x1, .f32⟩
  | 31 => ⟨S4x32x32x80x80, .f32⟩
  | 32 => ⟨S4x32x32x80x80, .f32⟩
  | 33 => ⟨S4x32x32x80x80, .f32⟩
  | 34 => ⟨S4x32x32x80x80, .f32⟩
  | 35 => ⟨S4x32x80x80, .f32⟩
  | 36 => ⟨S4x1x32x80x80, .f32⟩
  | 37 => ⟨S32x32x1x1, .f32⟩
  | 38 => ⟨S32x32, .f32⟩
  | 39 => ⟨S1x32x32x1x1, .f32⟩
  | 40 => ⟨S4x32x32x80x80, .f32⟩
  | 41 => ⟨S4x32x32x80x80, .f32⟩
  | 42 => ⟨S4x32x32x80x80, .f32⟩
  | 43 => ⟨S4x32x32x80x80, .f32⟩
  | 44 => ⟨S4x32x80x80, .f32⟩
  | 45 => ⟨S4x1x32x80x80, .f32⟩
  | 46 => ⟨S32x32x1x1, .f32⟩
  | 47 => ⟨S32x32, .f32⟩
  | 48 => ⟨S1x32x32x1x1, .f32⟩
  | 49 => ⟨S4x32x32x80x80, .f32⟩
  | 50 => ⟨S4x32x32x80x80, .f32⟩
  | 51 => ⟨S4x32x32x80x80, .f32⟩
  | 52 => ⟨S4x32x32x80x80, .f32⟩
  | 53 => ⟨S4x32x80x80, .f32⟩
  | 54 => ⟨S4x1x32x80x80, .f32⟩
  | 55 => ⟨S32x32x1x1, .f32⟩
  | 56 => ⟨S32x32, .f32⟩
  | 57 => ⟨S1x32x32x1x1, .f32⟩
  | 58 => ⟨S4x32x32x80x80, .f32⟩
  | 59 => ⟨S4x32x32x80x80, .f32⟩
  | 60 => ⟨S4x32x32x80x80, .f32⟩
  | 61 => ⟨S4x32x32x80x80, .f32⟩
  | 62 => ⟨S4x32x80x80, .f32⟩
  | 63 => ⟨S4x1x32x80x80, .f32⟩
  | 64 => ⟨S32x32x1x1, .f32⟩
  | 65 => ⟨S32x32, .f32⟩
  | 66 => ⟨S1x32x32x1x1, .f32⟩
  | 67 => ⟨S4x32x32x80x80, .f32⟩
  | 68 => ⟨S4x32x32x80x80, .f32⟩
  | 69 => ⟨S4x32x32x80x80, .f32⟩
  | 70 => ⟨S4x32x32x80x80, .f32⟩
  | 71 => ⟨S4x32x80x80, .f32⟩
  | 72 => ⟨S4x1x32x80x80, .f32⟩
  | 73 => ⟨S32x32x1x1, .f32⟩
  | 74 => ⟨S32x32, .f32⟩
  | 75 => ⟨S1x32x32x1x1, .f32⟩
  | 76 => ⟨S4x32x32x80x80, .f32⟩
  | 77 => ⟨S4x32x32x80x80, .f32⟩
  | 78 => ⟨S4x32x32x80x80, .f32⟩
  | 79 => ⟨S4x32x32x80x80, .f32⟩
  | 80 => ⟨S4x32x80x80, .f32⟩
  | 81 => ⟨S4x1x32x80x80, .f32⟩
  | 82 => ⟨S32x32x1x1, .f32⟩
  | 83 => ⟨S32x32, .f32⟩
  | 84 => ⟨S1x32x32x1x1, .f32⟩
  | 85 => ⟨S4x32x32x80x80, .f32⟩
  | 86 => ⟨S4x32x32x80x80, .f32⟩
  | 87 => ⟨S4x32x32x80x80, .f32⟩
  | 88 => ⟨S4x32x32x80x80, .f32⟩
  | 89 => ⟨S4x32x80x80, .f32⟩
  | 90 => ⟨S4x1x32x80x80, .f32⟩
  | 91 => ⟨S32x32x1x1, .f32⟩
  | 92 => ⟨S32x32, .f32⟩
  | 93 => ⟨S1x32x32x1x1, .f32⟩
  | 94 => ⟨S4x32x32x80x80, .f32⟩
  | 95 => ⟨S4x32x32x80x80, .f32⟩
  | 96 => ⟨S4x32x32x80x80, .f32⟩
  | 97 => ⟨S4x32x32x80x80, .f32⟩
  | 98 => ⟨S4x32x80x80, .f32⟩
  | 99 => ⟨S4x1x32x80x80, .f32⟩
  | 100 => ⟨S32x32x1x1, .f32⟩
  | 101 => ⟨S32x32, .f32⟩
  | 102 => ⟨S1x32x32x1x1, .f32⟩
  | 103 => ⟨S4x32x32x80x80, .f32⟩
  | 104 => ⟨S4x32x32x80x80, .f32⟩
  | 105 => ⟨S4x32x32x80x80, .f32⟩
  | 106 => ⟨S4x32x32x80x80, .f32⟩
  | 107 => ⟨S4x32x80x80, .f32⟩
  | 108 => ⟨S4x1x32x80x80, .f32⟩
  | 109 => ⟨S32x32x1x1, .f32⟩
  | 110 => ⟨S32x32, .f32⟩
  | 111 => ⟨S1x32x32x1x1, .f32⟩
  | 112 => ⟨S4x32x32x80x80, .f32⟩
  | 113 => ⟨S4x32x32x80x80, .f32⟩
  | 114 => ⟨S4x32x32x80x80, .f32⟩
  | 115 => ⟨S4x32x32x80x80, .f32⟩
  | 116 => ⟨S4x32x80x80, .f32⟩
  | 117 => ⟨S4x1x32x80x80, .f32⟩
  | 118 => ⟨S32x32x1x1, .f32⟩
  | 119 => ⟨S32x32, .f32⟩
  | 120 => ⟨S1x32x32x1x1, .f32⟩
  | 121 => ⟨S4x32x32x80x80, .f32⟩
  | 122 => ⟨S4x32x32x80x80, .f32⟩
  | 123 => ⟨S4x32x32x80x80, .f32⟩
  | 124 => ⟨S4x32x32x80x80, .f32⟩
  | 125 => ⟨S4x32x80x80, .f32⟩
  | 126 => ⟨S4x1x32x80x80, .f32⟩
  | 127 => ⟨S32x32x1x1, .f32⟩
  | _ => ⟨S4x32x80x80, .f32⟩

abbrev hbmTy0_1 (i : Nat) : BufTy := match i % 128 with
  | 0 => ⟨S32x32, .f32⟩
  | 1 => ⟨S1x32x32x1x1, .f32⟩
  | 2 => ⟨S4x32x32x80x80, .f32⟩
  | 3 => ⟨S4x32x32x80x80, .f32⟩
  | 4 => ⟨S4x32x32x80x80, .f32⟩
  | 5 => ⟨S4x32x32x80x80, .f32⟩
  | 6 => ⟨S4x32x80x80, .f32⟩
  | 7 => ⟨S4x1x32x80x80, .f32⟩
  | 8 => ⟨S32x32x1x1, .f32⟩
  | 9 => ⟨S32x32, .f32⟩
  | 10 => ⟨S1x32x32x1x1, .f32⟩
  | 11 => ⟨S4x32x32x80x80, .f32⟩
  | 12 => ⟨S4x32x32x80x80, .f32⟩
  | 13 => ⟨S4x32x32x80x80, .f32⟩
  | 14 => ⟨S4x32x32x80x80, .f32⟩
  | 15 => ⟨S4x32x80x80, .f32⟩
  | 16 => ⟨S4x1x32x80x80, .f32⟩
  | 17 => ⟨S32x32x1x1, .f32⟩
  | 18 => ⟨S32x32, .f32⟩
  | 19 => ⟨S1x32x32x1x1, .f32⟩
  | 20 => ⟨S4x32x32x80x80, .f32⟩
  | 21 => ⟨S4x32x32x80x80, .f32⟩
  | 22 => ⟨S4x32x32x80x80, .f32⟩
  | 23 => ⟨S4x32x32x80x80, .f32⟩
  | 24 => ⟨S4x32x80x80, .f32⟩
  | 25 => ⟨S4x1x32x80x80, .f32⟩
  | 26 => ⟨S32x32x1x1, .f32⟩
  | 27 => ⟨S32x32, .f32⟩
  | 28 => ⟨S1x32x32x1x1, .f32⟩
  | 29 => ⟨S4x32x32x80x80, .f32⟩
  | 30 => ⟨S4x32x32x80x80, .f32⟩
  | 31 => ⟨S4x32x32x80x80, .f32⟩
  | 32 => ⟨S4x32x32x80x80, .f32⟩
  | 33 => ⟨S4x32x80x80, .f32⟩
  | 34 => ⟨S4x1x32x80x80, .f32⟩
  | 35 => ⟨S32x32x1x1, .f32⟩
  | 36 => ⟨S32x32, .f32⟩
  | 37 => ⟨S1x32x32x1x1, .f32⟩
  | 38 => ⟨S4x32x32x80x80, .f32⟩
  | 39 => ⟨S4x32x32x80x80, .f32⟩
  | 40 => ⟨S4x32x32x80x80, .f32⟩
  | 41 => ⟨S4x32x32x80x80, .f32⟩
  | 42 => ⟨S4x32x80x80, .f32⟩
  | 43 => ⟨S4x1x32x80x80, .f32⟩
  | 44 => ⟨S32x32x1x1, .f32⟩
  | 45 => ⟨S32x32, .f32⟩
  | 46 => ⟨S1x32x32x1x1, .f32⟩
  | 47 => ⟨S4x32x32x80x80, .f32⟩
  | 48 => ⟨S4x32x32x80x80, .f32⟩
  | 49 => ⟨S4x32x32x80x80, .f32⟩
  | 50 => ⟨S4x32x32x80x80, .f32⟩
  | 51 => ⟨S4x32x80x80, .f32⟩
  | 52 => ⟨S4x1x32x80x80, .f32⟩
  | 53 => ⟨S32x32x1x1, .f32⟩
  | 54 => ⟨S32x32, .f32⟩
  | 55 => ⟨S1x32x32x1x1, .f32⟩
  | 56 => ⟨S4x32x32x80x80, .f32⟩
  | 57 => ⟨S4x32x32x80x80, .f32⟩
  | 58 => ⟨S4x32x32x80x80, .f32⟩
  | 59 => ⟨S4x32x32x80x80, .f32⟩
  | 60 => ⟨S4x32x80x80, .f32⟩
  | 61 => ⟨S4x1x32x80x80, .f32⟩
  | 62 => ⟨S32x32x1x1, .f32⟩
  | 63 => ⟨S32x32, .f32⟩
  | 64 => ⟨S1x32x32x1x1, .f32⟩
  | 65 => ⟨S4x32x32x80x80, .f32⟩
  | 66 => ⟨S4x32x32x80x80, .f32⟩
  | 67 => ⟨S4x32x32x80x80, .f32⟩
  | 68 => ⟨S4x32x32x80x80, .f32⟩
  | 69 => ⟨S4x32x80x80, .f32⟩
  | 70 => ⟨S4x1x32x80x80, .f32⟩
  | 71 => ⟨S32x32x1x1, .f32⟩
  | 72 => ⟨S32x32, .f32⟩
  | 73 => ⟨S1x32x32x1x1, .f32⟩
  | 74 => ⟨S4x32x32x80x80, .f32⟩
  | 75 => ⟨S4x32x32x80x80, .f32⟩
  | 76 => ⟨S4x32x32x80x80, .f32⟩
  | 77 => ⟨S4x32x32x80x80, .f32⟩
  | 78 => ⟨S4x32x80x80, .f32⟩
  | 79 => ⟨S4x1x32x80x80, .f32⟩
  | 80 => ⟨S32x32x1x1, .f32⟩
  | 81 => ⟨S32x32, .f32⟩
  | 82 => ⟨S1x32x32x1x1, .f32⟩
  | 83 => ⟨S4x32x32x80x80, .f32⟩
  | 84 => ⟨S4x32x32x80x80, .f32⟩
  | 85 => ⟨S4x32x32x80x80, .f32⟩
  | 86 => ⟨S4x32x32x80x80, .f32⟩
  | 87 => ⟨S4x32x80x80, .f32⟩
  | 88 => ⟨S4x1x32x80x80, .f32⟩
  | 89 => ⟨S32x32x1x1, .f32⟩
  | 90 => ⟨S32x32, .f32⟩
  | 91 => ⟨S1x32x32x1x1, .f32⟩
  | 92 => ⟨S4x32x32x80x80, .f32⟩
  | 93 => ⟨S4x32x32x80x80, .f32⟩
  | 94 => ⟨S4x32x32x80x80, .f32⟩
  | 95 => ⟨S4x32x32x80x80, .f32⟩
  | 96 => ⟨S4x32x80x80, .f32⟩
  | 97 => ⟨S4x1x32x80x80, .f32⟩
  | 98 => ⟨S32x32x1x1, .f32⟩
  | 99 => ⟨S32x32, .f32⟩
  | 100 => ⟨S1x32x32x1x1, .f32⟩
  | 101 => ⟨S4x32x32x80x80, .f32⟩
  | 102 => ⟨S4x32x32x80x80, .f32⟩
  | 103 => ⟨S4x32x32x80x80, .f32⟩
  | 104 => ⟨S4x32x32x80x80, .f32⟩
  | 105 => ⟨S_, .f32⟩
  | 106 => ⟨S4x32x80x80, .f32⟩
  | 107 => ⟨S1x32x1x1, .f32⟩
  | 108 => ⟨S4x32x80x80, .f32⟩
  | 109 => ⟨S4x32x80x80, .f32⟩
  | _ => ⟨S4x32x80x80, .f32⟩

abbrev hbmTy (i : Nat) : BufTy := match i / 128 with
  | 0 => hbmTy0_0 i
  | 1 => hbmTy0_1 i
  | _ => ⟨S4x32x80x80, .f32⟩

abbrev bufTy : (tb : Table) → Fin (tcTables nBuf tb) → BufTy
  | .hbm, ⟨i, _⟩ => hbmTy i
  | _, _ => ⟨S4x32x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_cst_1 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩

abbrev nD : Nat := 1
abbrev τ : Topo := Topo.v7x

variable {F : FTy → Type} [FloatOps F]

class Facts₀ : Prop where
  pads_S4x32x80x80_S4x32x84x84_000_000_220_220 : S4x32x80x80.Pads (![0, 0, 2, 2] : Fin 4 → Nat) ![0, 0, 2, 2] ![0, 0, 0, 0] S4x32x84x84
  h_S_ : 0 < S_.numel
  bcast_S_S4x32x32x80x80 : S_.BroadcastsInDim S4x32x32x80x80 (![] : Fin 0 → Fin S4x32x32x80x80.rank)
  slices_S4x32x84x84_S4x32x80x80_0_0_0_0 : S4x32x84x84.Slices ![0, 0, 0, 0] S4x32x80x80
  bcast_S4x32x80x80_S4x1x32x80x80_0_2_3_4 : S4x32x80x80.BroadcastsInDim S4x1x32x80x80 (![0, 2, 3, 4] : Fin 4 → Fin S4x1x32x80x80.rank)
  slices_S32x32x5x5_S32x32x1x1_0_0_0_0 : S32x32x5x5.Slices ![0, 0, 0, 0] S32x32x1x1
  shapeCasts_S32x32x1x1_S32x32 : S32x32x1x1.ShapeCasts S32x32
  bcast_S32x32_S1x32x32x1x1_1_2 : S32x32.BroadcastsInDim S1x32x32x1x1 (![1, 2] : Fin 2 → Fin S1x32x32x1x1.rank)
  bcast_S4x1x32x80x80_S4x32x32x80x80_0_1_2_3_4 : S4x1x32x80x80.BroadcastsInDim S4x32x32x80x80 (![0, 1, 2, 3, 4] : Fin 5 → Fin S4x32x32x80x80.rank)
  bcast_S1x32x32x1x1_S4x32x32x80x80_0_1_2_3_4 : S1x32x32x1x1.BroadcastsInDim S4x32x32x80x80 (![0, 1, 2, 3, 4] : Fin 5 → Fin S4x32x32x80x80.rank)
  slices_S4x32x84x84_S4x32x80x80_0_0_0_1 : S4x32x84x84.Slices ![0, 0, 0, 1] S4x32x80x80
  slices_S32x32x5x5_S32x32x1x1_0_0_0_1 : S32x32x5x5.Slices ![0, 0, 0, 1] S32x32x1x1
  slices_S4x32x84x84_S4x32x80x80_0_0_0_2 : S4x32x84x84.Slices ![0, 0, 0, 2] S4x32x80x80
  slices_S32x32x5x5_S32x32x1x1_0_0_0_2 : S32x32x5x5.Slices ![0, 0, 0, 2] S32x32x1x1
  slices_S4x32x84x84_S4x32x80x80_0_0_0_3 : S4x32x84x84.Slices ![0, 0, 0, 3] S4x32x80x80
  slices_S32x32x5x5_S32x32x1x1_0_0_0_3 : S32x32x5x5.Slices ![0, 0, 0, 3] S32x32x1x1
  slices_S4x32x84x84_S4x32x80x80_0_0_0_4 : S4x32x84x84.Slices ![0, 0, 0, 4] S4x32x80x80
  slices_S32x32x5x5_S32x32x1x1_0_0_0_4 : S32x32x5x5.Slices ![0, 0, 0, 4] S32x32x1x1
  slices_S4x32x84x84_S4x32x80x80_0_0_1_0 : S4x32x84x84.Slices ![0, 0, 1, 0] S4x32x80x80
  slices_S32x32x5x5_S32x32x1x1_0_0_1_0 : S32x32x5x5.Slices ![0, 0, 1, 0] S32x32x1x1
  slices_S4x32x84x84_S4x32x80x80_0_0_1_1 : S4x32x84x84.Slices ![0, 0, 1, 1] S4x32x80x80
  slices_S32x32x5x5_S32x32x1x1_0_0_1_1 : S32x32x5x5.Slices ![0, 0, 1, 1] S32x32x1x1
  slices_S4x32x84x84_S4x32x80x80_0_0_1_2 : S4x32x84x84.Slices ![0, 0, 1, 2] S4x32x80x80
  slices_S32x32x5x5_S32x32x1x1_0_0_1_2 : S32x32x5x5.Slices ![0, 0, 1, 2] S32x32x1x1
  slices_S4x32x84x84_S4x32x80x80_0_0_1_3 : S4x32x84x84.Slices ![0, 0, 1, 3] S4x32x80x80
  slices_S32x32x5x5_S32x32x1x1_0_0_1_3 : S32x32x5x5.Slices ![0, 0, 1, 3] S32x32x1x1
  slices_S4x32x84x84_S4x32x80x80_0_0_1_4 : S4x32x84x84.Slices ![0, 0, 1, 4] S4x32x80x80
  slices_S32x32x5x5_S32x32x1x1_0_0_1_4 : S32x32x5x5.Slices ![0, 0, 1, 4] S32x32x1x1
  slices_S4x32x84x84_S4x32x80x80_0_0_2_0 : S4x32x84x84.Slices ![0, 0, 2, 0] S4x32x80x80
  slices_S32x32x5x5_S32x32x1x1_0_0_2_0 : S32x32x5x5.Slices ![0, 0, 2, 0] S32x32x1x1
  slices_S4x32x84x84_S4x32x80x80_0_0_2_1 : S4x32x84x84.Slices ![0, 0, 2, 1] S4x32x80x80
  slices_S32x32x5x5_S32x32x1x1_0_0_2_1 : S32x32x5x5.Slices ![0, 0, 2, 1] S32x32x1x1
  slices_S4x32x84x84_S4x32x80x80_0_0_2_2 : S4x32x84x84.Slices ![0, 0, 2, 2] S4x32x80x80
  slices_S32x32x5x5_S32x32x1x1_0_0_2_2 : S32x32x5x5.Slices ![0, 0, 2, 2] S32x32x1x1
  slices_S4x32x84x84_S4x32x80x80_0_0_2_3 : S4x32x84x84.Slices ![0, 0, 2, 3] S4x32x80x80
  slices_S32x32x5x5_S32x32x1x1_0_0_2_3 : S32x32x5x5.Slices ![0, 0, 2, 3] S32x32x1x1
  slices_S4x32x84x84_S4x32x80x80_0_0_2_4 : S4x32x84x84.Slices ![0, 0, 2, 4] S4x32x80x80
  slices_S32x32x5x5_S32x32x1x1_0_0_2_4 : S32x32x5x5.Slices ![0, 0, 2, 4] S32x32x1x1
  slices_S4x32x84x84_S4x32x80x80_0_0_3_0 : S4x32x84x84.Slices ![0, 0, 3, 0] S4x32x80x80
  slices_S32x32x5x5_S32x32x1x1_0_0_3_0 : S32x32x5x5.Slices ![0, 0, 3, 0] S32x32x1x1
  slices_S4x32x84x84_S4x32x80x80_0_0_3_1 : S4x32x84x84.Slices ![0, 0, 3, 1] S4x32x80x80
  slices_S32x32x5x5_S32x32x1x1_0_0_3_1 : S32x32x5x5.Slices ![0, 0, 3, 1] S32x32x1x1
  slices_S4x32x84x84_S4x32x80x80_0_0_3_2 : S4x32x84x84.Slices ![0, 0, 3, 2] S4x32x80x80
  slices_S32x32x5x5_S32x32x1x1_0_0_3_2 : S32x32x5x5.Slices ![0, 0, 3, 2] S32x32x1x1
  slices_S4x32x84x84_S4x32x80x80_0_0_3_3 : S4x32x84x84.Slices ![0, 0, 3, 3] S4x32x80x80
  slices_S32x32x5x5_S32x32x1x1_0_0_3_3 : S32x32x5x5.Slices ![0, 0, 3, 3] S32x32x1x1
  slices_S4x32x84x84_S4x32x80x80_0_0_3_4 : S4x32x84x84.Slices ![0, 0, 3, 4] S4x32x80x80
  slices_S32x32x5x5_S32x32x1x1_0_0_3_4 : S32x32x5x5.Slices ![0, 0, 3, 4] S32x32x1x1
  slices_S4x32x84x84_S4x32x80x80_0_0_4_0 : S4x32x84x84.Slices ![0, 0, 4, 0] S4x32x80x80
  slices_S32x32x5x5_S32x32x1x1_0_0_4_0 : S32x32x5x5.Slices ![0, 0, 4, 0] S32x32x1x1
  slices_S4x32x84x84_S4x32x80x80_0_0_4_1 : S4x32x84x84.Slices ![0, 0, 4, 1] S4x32x80x80
  slices_S32x32x5x5_S32x32x1x1_0_0_4_1 : S32x32x5x5.Slices ![0, 0, 4, 1] S32x32x1x1
  slices_S4x32x84x84_S4x32x80x80_0_0_4_2 : S4x32x84x84.Slices ![0, 0, 4, 2] S4x32x80x80
  slices_S32x32x5x5_S32x32x1x1_0_0_4_2 : S32x32x5x5.Slices ![0, 0, 4, 2] S32x32x1x1
  slices_S4x32x84x84_S4x32x80x80_0_0_4_3 : S4x32x84x84.Slices ![0, 0, 4, 3] S4x32x80x80
  slices_S32x32x5x5_S32x32x1x1_0_0_4_3 : S32x32x5x5.Slices ![0, 0, 4, 3] S32x32x1x1
  slices_S4x32x84x84_S4x32x80x80_0_0_4_4 : S4x32x84x84.Slices ![0, 0, 4, 4] S4x32x80x80
  slices_S32x32x5x5_S32x32x1x1_0_0_4_4 : S32x32x5x5.Slices ![0, 0, 4, 4] S32x32x1x1
  reducesTo_S4x32x32x80x80_S4x32x80x80_d2 : S4x32x32x80x80.ReducesTo [2] S4x32x80x80
  bcast_S32_S1x32x1x1_1 : S32.BroadcastsInDim S1x32x1x1 (![1] : Fin 1 → Fin S1x32x1x1.rank)
  bcast_S1x32x1x1_S4x32x80x80_0_1_2_3 : S1x32x1x1.BroadcastsInDim S4x32x80x80 (![0, 1, 2, 3] : Fin 4 → Fin S4x32x80x80.rank)

variable [Facts₀]

class Facts : Prop extends Facts₀ where

variable [Facts]
-- ==== Proof.LibSliceFull.lean ====
/-
  A memref seen through a slice that keeps every cell and then through a squeeze (unit axes dropped) is the same
  set of cells as the memref itself: the slice's rectangle contains every index, so its image is the whole image,
  and dropping unit axes only renames indices.
-/
import Idealize.ShloMosaic.Lib.Exec.Geometry

namespace Idealize.ShloMosaic.Memref

/-- A slice through a rectangle that contains every index, then squeezed, covers exactly the cells of the memref. -/
theorem set_squeeze_slice_full {sig : RefSig} {κ : Kind} {sp : Space} {s s' : Shape} {e : EltTy}
    (M : Memref sig κ sp s e) (r : Rect s) (hr : ∀ a, r.stride a = 1) (hq : r.shape.Squeezes s')
    (hfull : ∀ y : s.Idx, y ∈ r.set) : ((M.slice r hr).squeeze s' hq).view.set = M.view.set := by
  rw [Memref.set_view_squeeze]
  show (M.view.slice r).set = M.view.set
  rw [View.set_slice]
  unfold View.set
  congr 1
  ext y
  simp only [Finset.mem_univ, iff_true]
  exact hfull y

end Idealize.ShloMosaic.Memref
-- ==== Proof.BitsBody.lean ====
/-
  The body of the max-plus convolution kernel at one grid point, as a separation-logic triple, and the frame run
  built on it.

  At a grid point the body zero-fills its running-sum scratch, then for each of the 32 input channels reads that
  channel's padded 84 x 84 plane and its 25 x 32 weight table, forms the running maximum over the 25 taps of
  (weight + shifted plane) and adds it into the scratch; finally it writes scratch + bias into the output block.
  The triple says: holding the three input blocks at their contents and the output block and the scratch at
  anything, the body runs to the end without fault, leaves the inputs as they were, and leaves in the output block
  the pieces its one whole-block store wrote (the run itself determines them). The channel loop is taken through
  its invariant: before channel k the scratch holds the pieces of the channels before k.
-/
import proofs.«130638_j10230612099335_2_alg».proof.Proof.Gen.Kernel.Frame
import proofs.«130638_j10230612099335_2_alg».proof.Proof.Gen.Kernel.Skeleton
import proofs.«130638_j10230612099335_2_alg».proof.Proof.Gen.Kernel.Loops
import proofs.«130638_j10230612099335_2_alg».proof.Proof.LibSliceFull
import Idealize.ShloMosaic.Lib.Pipeline.Value
import Idealize.ShloMosaic.Lib.Tactic

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The input block seen channel by channel: its unit leading axis dropped. -/
abbrev chanView (arg1 : Memref sig .tc .vmem S1x32x84x84 .f32) : Memref sig .tc .vmem S32x84x84 .f32 :=
  (arg1.slice (Rect.unit (s := S1x32x84x84) ![0, 0, 0, 0] S1x32x84x84.size inb_S1x32x84x84_S1x32x84x84_0_0_0_0) (fun _ => rfl)).squeeze S32x84x84 squeezes_S1x32x84x84_S32x84x84

/-- Seen channel by channel the block covers the same cells. -/
theorem set_chanView (arg1 : Memref sig .tc .vmem S1x32x84x84 .f32) : (chanView arg1).view.set = arg1.view.set :=
  Memref.set_squeeze_slice_full arg1 _ _ _ (View.mem_set_unit_zero (funext fun a => by fin_cases a <;> rfl) _)

/-- Holding the block is holding it channel by channel. -/
theorem chan_pts (c : Dev nD) (arg1 : Memref sig .tc .vmem S1x32x84x84 .f32) (f : BufTy.Contents (Elt F) arg1.view.ty) :
    (View.loc c.tc arg1.view ↦[arg1.view.set]{fullShare} f : sProp 𝕄)
      = (View.loc c.tc (chanView arg1).view ↦[(chanView arg1).view.set]{fullShare} f) := by
  rw [set_chanView]

set_option maxHeartbeats 1000000 in
/-- The pieces the body's stores leave in the output block, with the proof that the body runs: inputs kept,
    output block overwritten by those pieces, scratch left at some contents. -/
noncomputable def kernelRun (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (x0 : Vec F S1x32x84x84 .f32) (x1 : Vec F S32x25x32 .f32) (x2 : Vec F S1x32 .f32) :
    { L : List (View.Piece (Elt F) S1x32x80x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)
                ∗ (∃ d, owns (c : Thread nD τ) arg5 fullShare d)) -∗ K ⟨⟩))
          ⊢ wp frame (wpE (defs₀ (F := F)) Variants.none c none) E (cc0__semiconv_kernel i arg1 harg1 arg2 harg2 arg3 harg3 arg4 harg4 arg5 harg5) K } := by
  have hcanon0 : (arg1.slice (Rect.unit (s := S1x32x84x84) ![0, 0, 0, 0] S1x32x84x84.size inb_S1x32x84x84_S1x32x84x84_0_0_0_0) (fun _ => rfl)).squeeze S32x84x84 squeezes_S1x32x84x84_S32x84x84 = chanView arg1 := rfl
  refine ⟨?_, fun E K => ?run⟩
  case run =>
    simp only [cc0__semiconv_kernel_eq_skeleton]; unfold cc0__semiconv_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    ihave H0v := (Entails.of_eq (chan_pts c arg1 _)) $$ H0
    sl_exec
    sl_step
    ihave H0b := (Entails.of_eq (chan_pts c arg1 _).symm) $$ H0v
    iapply Hk
    isplitl [H0b]
    · iexists _; isplitr; · ipureintro; exact harg1.read_unread _
      iexact H0b
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexists _; isplitr
    swap; · iexact H4
    ipureintro; rfl

/-! ## The staging memrefs at a point, and what the run leaves in the output block -/

abbrev ms0_0 (t : Fin cfg0.N) : Memref sig .tc .vmem S1x32x84x84 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x25x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x80x80 .f32 := win0_3.stage (cfg0.slots t 3)
abbrev hs0_3 (t : Fin cfg0.N) : (ms0_3 t).IsWhole := hstage0_3 ((cfg0.slots t 3).cast nbuf0_3)
/-- The running-sum scratch: a whole buffer of the kernel's own. -/
abbrev scM : Memref sig .tc .vmem S32x80x80 .f32 := Memref.whole cc0_scratch0
/-- A fixed view of the output block's shape, through which the pieces are read back. -/
abbrev VO : View sig .tc .vmem S1x32x80x80 .f32 := (Memref.whole cc0_stg3_0 : Memref sig .tc .vmem S1x32x80x80 .f32).view

/-- The run's pieces cover the output block: the body's one store is of the whole block. -/
theorem cover (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (x0 : Vec F S1x32x84x84 .f32) (x1 : Vec F S32x25x32 .f32) (x2 : Vec F S1x32 .f32) (y : S1x32x80x80.Idx) :
    ∃ pc ∈ (kernelRun c i arg1 harg1 arg2 harg2 arg3 harg3 arg4 harg4 arg5 harg5 x0 x1 x2).1, y ∈ pc.1.set :=
  View.cover_of_tiledL (kernelRun c i arg1 harg1 arg2 harg2 arg3 harg3 arg4 harg4 arg5 harg5 x0 x1 x2).1 S1x32x80x80.size (by sl_kernel_rfl) y

/-- What the body leaves in the output block: its pieces read back. -/
def outBlock (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (x0 : Vec F S1x32x84x84 .f32) (x1 : Vec F S32x25x32 .f32) (x2 : Vec F S1x32 .f32) : Vec F S1x32x80x80 .f32 :=
  VO.read (Elt F) (VO.writes (Elt F) VO.junk (kernelRun c i arg1 harg1 arg2 harg2 arg3 harg3 arg4 harg4 arg5 harg5 x0 x1 x2).1)

variable (m : (ℓ : Loc nD τ sig) → Buf (Elt F) ℓ) (ρ : Dev nD → PrngReg)

/-- The output block after the body at point t: the run's contents at the point's memrefs and input blocks. -/
def outsAt (c : Dev nD) (t : Fin cfg0.N) : Vec F S1x32x80x80 .f32 :=
  outBlock c (grid0.coords t) (ms0_0 t) (hs0_0 t) (ms0_1 t) (hs0_1 t) (ms0_2 t) (hs0_2 t) (ms0_3 t) (hs0_3 t) scM (Memref.isWhole_whole _)
    (iblk m c 0 t) (iblk m c 1 t) (iblk m c 2 t)

/-! ## The proof data of the pipeline -/

/-- The arrays as the region finds them; after the body each input block as it was and the output block at what the
    run leaves; the invariant is the scratch at any contents and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

/-- Each input's staging buffer holds its block when the body runs, fetched at this point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant with the scratch as a memref owned at some contents. -/
theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks, the scratch comes out of the invariant and goes
    back into it, and the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt
  unfold outBlock
  iintro ⟨⟨HS, HR⟩, Ho, ⟨%d0, H0⟩, ⟨%d1, H1⟩, ⟨%d2, H2⟩, ⟨%d3, H3⟩⟩
  iapply ((kernelRun c (grid0.coords t) _ _ _ _ _ _ _ _ scM (Memref.isWhole_whole _) (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR]
  · isplitl [HS]; · iexact HS
    iexact HR
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program ends, without a fault, with every
    array of the pipeline at what the proof data says and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program ends, faults nowhere, and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealBody.lean ====
/-
  The body of the max-plus convolution kernel at one grid point, as a separation-logic triple, and the frame run
  built on it.

  At a grid point the body zero-fills its running-sum scratch, then for each of the 32 input channels reads that
  channel's padded 84 x 84 plane and its 25 x 32 weight table, forms the running maximum over the 25 taps of
  (weight + shifted plane) and adds it into the scratch; finally it writes scratch + bias into the output block.
  The triple says: holding the three input blocks at their contents and the output block and the scratch at
  anything, the body runs to the end without fault, leaves the inputs as they were, and leaves in the output block
  the pieces its one whole-block store wrote (the run itself determines them). The channel loop is taken through
  its invariant: before channel k the scratch holds the pieces of the channels before k.
-/
import proofs.«130638_j10230612099335_2_alg».proof.Proof.Gen.KernelIdeal.Frame
import proofs.«130638_j10230612099335_2_alg».proof.Proof.Gen.KernelIdeal.Skeleton
import proofs.«130638_j10230612099335_2_alg».proof.Proof.Gen.KernelIdeal.Loops
import proofs.«130638_j10230612099335_2_alg».proof.Proof.LibSliceFull
import Idealize.ShloMosaic.Lib.Pipeline.Value
import Idealize.ShloMosaic.Lib.Tactic

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The input block seen channel by channel: its unit leading axis dropped. -/
abbrev chanView (arg1 : Memref sig .tc .vmem S1x32x84x84 .f32) : Memref sig .tc .vmem S32x84x84 .f32 :=
  (arg1.slice (Rect.unit (s := S1x32x84x84) ![0, 0, 0, 0] S1x32x84x84.size inb_S1x32x84x84_S1x32x84x84_0_0_0_0) (fun _ => rfl)).squeeze S32x84x84 squeezes_S1x32x84x84_S32x84x84

/-- Seen channel by channel the block covers the same cells. -/
theorem set_chanView (arg1 : Memref sig .tc .vmem S1x32x84x84 .f32) : (chanView arg1).view.set = arg1.view.set :=
  Memref.set_squeeze_slice_full arg1 _ _ _ (View.mem_set_unit_zero (funext fun a => by fin_cases a <;> rfl) _)

/-- Holding the block is holding it channel by channel. -/
theorem chan_pts (c : Dev nD) (arg1 : Memref sig .tc .vmem S1x32x84x84 .f32) (f : BufTy.Contents (Elt F) arg1.view.ty) :
    (View.loc c.tc arg1.view ↦[arg1.view.set]{fullShare} f : sProp 𝕄)
      = (View.loc c.tc (chanView arg1).view ↦[(chanView arg1).view.set]{fullShare} f) := by
  rw [set_chanView]

set_option maxHeartbeats 1000000 in
/-- The pieces the body's stores leave in the output block, with the proof that the body runs: inputs kept,
    output block overwritten by those pieces, scratch left at some contents. -/
noncomputable def kernelRun (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (x0 : Vec F S1x32x84x84 .f32) (x1 : Vec F S32x25x32 .f32) (x2 : Vec F S1x32 .f32) :
    { L : List (View.Piece (Elt F) S1x32x80x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L)
                ∗ (∃ d, owns (c : Thread nD τ) arg5 fullShare d)) -∗ K ⟨⟩))
          ⊢ wp frame (wpE (defs₀ (F := F)) Variants.none c none) E (cc0__semiconv_kernel i arg1 harg1 arg2 harg2 arg3 harg3 arg4 harg4 arg5 harg5) K } := by
  have hcanon0 : (arg1.slice (Rect.unit (s := S1x32x84x84) ![0, 0, 0, 0] S1x32x84x84.size inb_S1x32x84x84_S1x32x84x84_0_0_0_0) (fun _ => rfl)).squeeze S32x84x84 squeezes_S1x32x84x84_S32x84x84 = chanView arg1 := rfl
  refine ⟨?_, fun E K => ?run⟩
  case run =>
    simp only [cc0__semiconv_kernel_eq_skeleton]; unfold cc0__semiconv_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    ihave H0v := (Entails.of_eq (chan_pts c arg1 _)) $$ H0
    sl_exec
    sl_step
    ihave H0b := (Entails.of_eq (chan_pts c arg1 _).symm) $$ H0v
    iapply Hk
    isplitl [H0b]
    · iexists _; isplitr; · ipureintro; exact harg1.read_unread _
      iexact H0b
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexists _; isplitr
    swap; · iexact H4
    ipureintro; rfl

/-! ## The staging memrefs at a point, and what the run leaves in the output block -/

abbrev ms0_0 (t : Fin cfg0.N) : Memref sig .tc .vmem S1x32x84x84 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x25x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x80x80 .f32 := win0_3.stage (cfg0.slots t 3)
abbrev hs0_3 (t : Fin cfg0.N) : (ms0_3 t).IsWhole := hstage0_3 ((cfg0.slots t 3).cast nbuf0_3)
/-- The running-sum scratch: a whole buffer of the kernel's own. -/
abbrev scM : Memref sig .tc .vmem S32x80x80 .f32 := Memref.whole cc0_scratch0
/-- A fixed view of the output block's shape, through which the pieces are read back. -/
abbrev VO : View sig .tc .vmem S1x32x80x80 .f32 := (Memref.whole cc0_stg3_0 : Memref sig .tc .vmem S1x32x80x80 .f32).view

/-- The run's pieces cover the output block: the body's one store is of the whole block. -/
theorem cover (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (x0 : Vec F S1x32x84x84 .f32) (x1 : Vec F S32x25x32 .f32) (x2 : Vec F S1x32 .f32) (y : S1x32x80x80.Idx) :
    ∃ pc ∈ (kernelRun c i arg1 harg1 arg2 harg2 arg3 harg3 arg4 harg4 arg5 harg5 x0 x1 x2).1, y ∈ pc.1.set :=
  View.cover_of_tiledL (kernelRun c i arg1 harg1 arg2 harg2 arg3 harg3 arg4 harg4 arg5 harg5 x0 x1 x2).1 S1x32x80x80.size (by sl_kernel_rfl) y

/-- What the body leaves in the output block: its pieces read back. -/
def outBlock (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (x0 : Vec F S1x32x84x84 .f32) (x1 : Vec F S32x25x32 .f32) (x2 : Vec F S1x32 .f32) : Vec F S1x32x80x80 .f32 :=
  VO.read (Elt F) (VO.writes (Elt F) VO.junk (kernelRun c i arg1 harg1 arg2 harg2 arg3 harg3 arg4 harg4 arg5 harg5 x0 x1 x2).1)

variable (m : (ℓ : Loc nD τ sig) → Buf (Elt F) ℓ) (ρ : Dev nD → PrngReg)

/-- The output block after the body at point t: the run's contents at the point's memrefs and input blocks. -/
def outsAt (c : Dev nD) (t : Fin cfg0.N) : Vec F S1x32x80x80 .f32 :=
  outBlock c (grid0.coords t) (ms0_0 t) (hs0_0 t) (ms0_1 t) (hs0_1 t) (ms0_2 t) (hs0_2 t) (ms0_3 t) (hs0_3 t) scM (Memref.isWhole_whole _)
    (iblk m c 0 t) (iblk m c 1 t) (iblk m c 2 t)

/-! ## The proof data of the pipeline -/

/-- The arrays as the region finds them; after the body each input block as it was and the output block at what the
    run leaves; the invariant is the scratch at any contents and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]

/-- Each input's staging buffer holds its block when the body runs, fetched at this point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant with the scratch as a memref owned at some contents. -/
theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks, the scratch comes out of the invariant and goes
    back into it, and the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt
  unfold outBlock
  iintro ⟨⟨HS, HR⟩, Ho, ⟨%d0, H0⟩, ⟨%d1, H1⟩, ⟨%d2, H2⟩, ⟨%d3, H3⟩⟩
  iapply ((kernelRun c (grid0.coords t) _ _ _ _ _ _ _ _ scM (Memref.isWhole_whole _) (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR]
  · isplitl [HS]; · iexact HS
    iexact HR
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program ends, without a fault, with every
    array of the pipeline at what the proof data says and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program ends, faults nowhere, and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Layouts.lean ====
/-
  Layout operations of the max-plus convolution read at an index given by coordinates.

  The kernel turns a weight row [1, n] into a column block [n, 1, 1] and spreads it over an [n, a, b] block (every
  (row, column) position of channel c gets the weight of channel c); it turns a shifted plane [a, b] into [1, a, b]
  and spreads it over the channels (every channel gets the same plane); and it cuts an [a, b] window out of a padded
  plane at an offset (m, n), and one row out of the weight table. Each lemma says which single entry of the operand
  an entry of the result is.
-/
import Idealize.ShloMosaic.Lib.ValueIdx
import Idealize.ShloMosaic.Lib.ValueLayout
import Idealize.ShloMosaic.Lib.Pipeline.Value

namespace Cert.MaxPlus

open Idealize.ShloMosaic Idealize.ShloMosaic.ValueIdx

variable {α : Type}

/-- A vector [n] cast to a column block [n, 1, 1] keeps entry c at (c, 0, 0). -/
theorem cast_vec_col {n : ℕ} (x : (⟨1, ![n]⟩ : Shape).Idx → α) (h : (⟨1, ![n]⟩ : Shape).ShapeCasts ⟨3, ![n, 1, 1]⟩)
    (c : Fin n) (u v : Fin 1) : shapeCast ⟨3, ![n, 1, 1]⟩ x h (ix3 c u v) = x (ix1 c) :=
  shapeCast_apply x h _ _ (by
    have hu : u.val = 0 := by omega
    have hv : v.val = 0 := by omega
    rw [Shape.rowMajor_val_one, Shape.rowMajor_val_three]
    show c.val = (c.val * 1 + u.val) * 1 + v.val
    rw [hu, hv]; omega)

/-- A column block [n, 1, 1] spread over [n, a, b]: entry (c, i, j) is the column's entry c. -/
theorem spread_col {n a b : ℕ} (x : (⟨3, ![n, 1, 1]⟩ : Shape).Idx → α)
    (h : (⟨3, ![n, 1, 1]⟩ : Shape).Broadcasts ⟨3, ![n, a, b]⟩) (c : Fin n) (i : Fin a) (j : Fin b) :
    broadcastTo ⟨3, ![n, a, b]⟩ x h (ix3 c i j) = x (ix3 c 0 0) :=
  broadcastTo_apply x h _ _ (fun d => match d with
    | ⟨0, _⟩ => by
        show c.val = if n = 1 then 0 else c.val
        by_cases hn : n = 1
        · rw [if_pos hn]; have := c.isLt; omega
        · rw [if_neg hn]
    | ⟨1, _⟩ => by show (0 : ℕ) = if (1 : ℕ) = 1 then 0 else i.val; rw [if_pos rfl]
    | ⟨2, _⟩ => by show (0 : ℕ) = if (1 : ℕ) = 1 then 0 else j.val; rw [if_pos rfl])

/-- A plane [1, a, b] spread over [n, a, b]: entry (c, i, j) is the plane's entry (i, j), for every channel c. -/
theorem spread_plane {n a b : ℕ} (x : (⟨3, ![1, a, b]⟩ : Shape).Idx → α)
    (h : (⟨3, ![1, a, b]⟩ : Shape).Broadcasts ⟨3, ![n, a, b]⟩) (c : Fin n) (i : Fin a) (j : Fin b) :
    broadcastTo ⟨3, ![n, a, b]⟩ x h (ix3 c i j) = x (ix3 0 i j) :=
  broadcastTo_apply x h _ _ (fun d => match d with
    | ⟨0, _⟩ => by show (0 : ℕ) = if (1 : ℕ) = 1 then 0 else c.val; rw [if_pos rfl]
    | ⟨1, _⟩ => by
        show i.val = if a = 1 then 0 else i.val
        by_cases hn : a = 1
        · rw [if_pos hn]; have := i.isLt; omega
        · rw [if_neg hn]
    | ⟨2, _⟩ => by
        show j.val = if b = 1 then 0 else j.val
        by_cases hn : b = 1
        · rw [if_pos hn]; have := j.isLt; omega
        · rw [if_neg hn])

/-- An [a, b] window cut out of a larger plane at offset (m, n): entry (i, j) is the plane's entry (m + i, n + j). -/
theorem window_apply {A B a b : ℕ} (m n : ℕ) (x : (⟨2, ![A, B]⟩ : Shape).Idx → α)
    (h : (⟨2, ![A, B]⟩ : Shape).Slices ![m, n] ⟨2, ![a, b]⟩) (i : Fin a) (j : Fin b) (hi : m + i.val < A) (hj : n + j.val < B) :
    extractStridedSlice ⟨2, ![a, b]⟩ ![m, n] x h (ix2 i j) = x (ix2 ⟨m + i.val, hi⟩ ⟨n + j.val, hj⟩) :=
  extractStridedSlice_apply _ x h _ _ (fun d => match d with
    | ⟨0, _⟩ => rfl
    | ⟨1, _⟩ => rfl)

end Cert.MaxPlus
-- ==== Proof.TripValue.lean ====
/-
  One channel's step of the max-plus convolution, read at one output entry.

  For one input channel the kernel holds the channel's padded plane P (84 x 84) and its weight table W (25 x 32:
  tap j = 5 m + n, output channel c). A tap contributes W(j, c) + P(m + h, n + w) at the output entry (c, h, w); the
  step takes the running maximum of the 25 taps, starting from minus infinity, in the order j = 0, ..., 24, and adds
  it to what the running-sum buffer held. The lemmas below say exactly that, entry by entry, on the extended reals.
-/
import proofs.«130638_j10230612099335_2_alg».proof.Proof.Gen.KernelIdeal.Skeleton
import proofs.«130638_j10230612099335_2_alg».proof.Proof.Layouts
import Idealize.ShloMosaic.Lib.ValueIdx
import Idealize.ShloMosaic.Lib.ValueLayout
import Idealize.ShloMosaic.Lib.Pipeline.Value

set_option maxRecDepth 16384

noncomputable section

namespace Cert.MaxPlus.Trip

open Cert.KernelIdeal Cert.KernelIdeal.Gen Cert.MaxPlus
open Idealize.ShloMosaic Idealize.ShloMosaic.ValueIdx

/-- One tap at the entry (c, h, w): the weight of tap j for output channel c plus the plane at (m + h, n + w). -/
theorem tap_apply (j m n : ℕ) (hj : j + 1 ≤ 25) (hm : m + 80 ≤ 84) (hn : n + 80 ≤ 84)
    (v20 : FVec Ideal S84x84 .f32) (v23 : FVec Ideal S25x32 .f32)
    (hs1 : S25x32.Slices ![j, 0] S1x32) (h1 : S1x32.ShapeCasts S32) (h2 : S32.ShapeCasts S32x1x1)
    (h3 : S32x1x1.Broadcasts S32x80x80)
    (hs2 : S84x84.Slices ![m, n] S80x80) (h4 : S80x80.ShapeCasts S1x80x80) (h5 : S1x80x80.Broadcasts S32x80x80)
    (co : Fin 32) (h w : Fin 80) :
    addf (broadcastTo S32x80x80 (shapeCast S32x1x1 (shapeCast S32 (extractStridedSlice S1x32 ![j, 0] v23 hs1) h1) h2) h3)
         (broadcastTo S32x80x80 (shapeCast S1x80x80 (extractStridedSlice S80x80 ![m, n] v20 hs2) h4) h5) (ix3 co h w)
      = v23 (ix2 ⟨j, by omega⟩ co) + v20 (ix2 ⟨m + h.val, by omega⟩ ⟨n + w.val, by omega⟩) := by
  rw [addf_apply, spread_col, cast_vec_col, shapeCast_1a_a_apply, spread_plane, shapeCast_ab_1ab_apply,
    window_apply j 0 v23 hs1 (0 : Fin 1) co (by simp; omega) (by simp), window_apply m n v20 hs2 h w (by omega) (by omega)]
  refine congrArg₂ (· + ·) (congrArg v23 ?_) rfl
  funext d
  match d with
  | ⟨0, _⟩ => exact Fin.ext (by simp)
  | ⟨1, _⟩ => exact Fin.ext (by simp)

/-- What one channel's step stores into the running-sum buffer, for any float instance: the kernel's own operations on
    the channel's plane v19, the channel's weight table v22 and the buffer's contents v250. -/
def stepVal {F : FTy → Type} [FloatOps F] (v19 : Vec F S1x84x84 .f32) (v22 : Vec F S1x25x32 .f32) (v250 : Vec F S32x80x80 .f32) :
    FVec F S32x80x80 .f32 :=
  k0_pay2 (k0_pay14 (k0_pay4 v19) (k0_pay5 v22) (k0_pay11 (k0_pay4 v19) (k0_pay5 v22) (k0_pay9 (k0_pay4 v19) (k0_pay5 v22) (k0_pay6 v19 v22) (k0_pay7 v19) (k0_pay8 v22)) (k0_pay10 (k0_pay4 v19) (k0_pay5 v22))) (k0_pay12 (k0_pay5 v22)) (k0_pay13 (k0_pay4 v19))) (k0_pay15 (k0_pay4 v19)) (k0_pay16 (k0_pay5 v22)) v250

/-- The value one channel's step stores into the running-sum buffer, at the entry (c, h, w): what the buffer held
    there plus the running maximum over the 25 taps, from minus infinity, in the order the kernel takes them. -/
theorem step_apply (v19 : Vec Ideal S1x84x84 .f32) (v22 : Vec Ideal S1x25x32 .f32) (v250 : Vec Ideal S32x80x80 .f32)
    (co : Fin 32) (h w : Fin 80) :
    stepVal v19 v22 v250 (ix3 co h w)
      = v250 (ix3 co h w) +
        max (max (max (max (max (max (max (max (max (max (max (max (max (max (max (max (max (max (max (max (max (max (max (max (max ((Scalar.ofBits .f32 0xFF800000#32 : Ideal .f32))
        (k0_pay5 v22 (ix2 ⟨0, by omega⟩ co) + k0_pay4 v19 (ix2 ⟨0 + h.val, by omega⟩ ⟨0 + w.val, by omega⟩)))
        (k0_pay5 v22 (ix2 ⟨1, by omega⟩ co) + k0_pay4 v19 (ix2 ⟨0 + h.val, by omega⟩ ⟨1 + w.val, by omega⟩)))
        (k0_pay5 v22 (ix2 ⟨2, by omega⟩ co) + k0_pay4 v19 (ix2 ⟨0 + h.val, by omega⟩ ⟨2 + w.val, by omega⟩)))
        (k0_pay5 v22 (ix2 ⟨3, by omega⟩ co) + k0_pay4 v19 (ix2 ⟨0 + h.val, by omega⟩ ⟨3 + w.val, by omega⟩)))
        (k0_pay5 v22 (ix2 ⟨4, by omega⟩ co) + k0_pay4 v19 (ix2 ⟨0 + h.val, by omega⟩ ⟨4 + w.val, by omega⟩)))
        (k0_pay5 v22 (ix2 ⟨5, by omega⟩ co) + k0_pay4 v19 (ix2 ⟨1 + h.val, by omega⟩ ⟨0 + w.val, by omega⟩)))
        (k0_pay5 v22 (ix2 ⟨6, by omega⟩ co) + k0_pay4 v19 (ix2 ⟨1 + h.val, by omega⟩ ⟨1 + w.val, by omega⟩)))
        (k0_pay5 v22 (ix2 ⟨7, by omega⟩ co) + k0_pay4 v19 (ix2 ⟨1 + h.val, by omega⟩ ⟨2 + w.val, by omega⟩)))
        (k0_pay5 v22 (ix2 ⟨8, by omega⟩ co) + k0_pay4 v19 (ix2 ⟨1 + h.val, by omega⟩ ⟨3 + w.val, by omega⟩)))
        (k0_pay5 v22 (ix2 ⟨9, by omega⟩ co) + k0_pay4 v19 (ix2 ⟨1 + h.val, by omega⟩ ⟨4 + w.val, by omega⟩)))
        (k0_pay5 v22 (ix2 ⟨10, by omega⟩ co) + k0_pay4 v19 (ix2 ⟨2 + h.val, by omega⟩ ⟨0 + w.val, by omega⟩)))
        (k0_pay5 v22 (ix2 ⟨11, by omega⟩ co) + k0_pay4 v19 (ix2 ⟨2 + h.val, by omega⟩ ⟨1 + w.val, by omega⟩)))
        (k0_pay5 v22 (ix2 ⟨12, by omega⟩ co) + k0_pay4 v19 (ix2 ⟨2 + h.val, by omega⟩ ⟨2 + w.val, by omega⟩)))
        (k0_pay5 v22 (ix2 ⟨13, by omega⟩ co) + k0_pay4 v19 (ix2 ⟨2 + h.val, by omega⟩ ⟨3 + w.val, by omega⟩)))
        (k0_pay5 v22 (ix2 ⟨14, by omega⟩ co) + k0_pay4 v19 (ix2 ⟨2 + h.val, by omega⟩ ⟨4 + w.val, by omega⟩)))
        (k0_pay5 v22 (ix2 ⟨15, by omega⟩ co) + k0_pay4 v19 (ix2 ⟨3 + h.val, by omega⟩ ⟨0 + w.val, by omega⟩)))
        (k0_pay5 v22 (ix2 ⟨16, by omega⟩ co) + k0_pay4 v19 (ix2 ⟨3 + h.val, by omega⟩ ⟨1 + w.val, by omega⟩)))
        (k0_pay5 v22 (ix2 ⟨17, by omega⟩ co) + k0_pay4 v19 (ix2 ⟨3 + h.val, by omega⟩ ⟨2 + w.val, by omega⟩)))
        (k0_pay5 v22 (ix2 ⟨18, by omega⟩ co) + k0_pay4 v19 (ix2 ⟨3 + h.val, by omega⟩ ⟨3 + w.val, by omega⟩)))
        (k0_pay5 v22 (ix2 ⟨19, by omega⟩ co) + k0_pay4 v19 (ix2 ⟨3 + h.val, by omega⟩ ⟨4 + w.val, by omega⟩)))
        (k0_pay5 v22 (ix2 ⟨20, by omega⟩ co) + k0_pay4 v19 (ix2 ⟨4 + h.val, by omega⟩ ⟨0 + w.val, by omega⟩)))
        (k0_pay5 v22 (ix2 ⟨21, by omega⟩ co) + k0_pay4 v19 (ix2 ⟨4 + h.val, by omega⟩ ⟨1 + w.val, by omega⟩)))
        (k0_pay5 v22 (ix2 ⟨22, by omega⟩ co) + k0_pay4 v19 (ix2 ⟨4 + h.val, by omega⟩ ⟨2 + w.val, by omega⟩)))
        (k0_pay5 v22 (ix2 ⟨23, by omega⟩ co) + k0_pay4 v19 (ix2 ⟨4 + h.val, by omega⟩ ⟨3 + w.val, by omega⟩)))
        (k0_pay5 v22 (ix2 ⟨24, by omega⟩ co) + k0_pay4 v19 (ix2 ⟨4 + h.val, by omega⟩ ⟨4 + w.val, by omega⟩)) := by
  unfold stepVal k0_pay2 k0_pay14 k0_pay11 k0_pay9 k0_pay6 k0_pay7 k0_pay8 k0_pay10 k0_pay12 k0_pay13 k0_pay15 k0_pay16
  dsimp only
  rw [shapeCast_self, addf_apply]
  simp only [maximumf_apply]
  rw [tap_apply 0 0 0 (by omega) (by omega) (by omega),
    tap_apply 1 0 1 (by omega) (by omega) (by omega),
    tap_apply 2 0 2 (by omega) (by omega) (by omega),
    tap_apply 3 0 3 (by omega) (by omega) (by omega),
    tap_apply 4 0 4 (by omega) (by omega) (by omega),
    tap_apply 5 1 0 (by omega) (by omega) (by omega),
    tap_apply 6 1 1 (by omega) (by omega) (by omega),
    tap_apply 7 1 2 (by omega) (by omega) (by omega),
    tap_apply 8 1 3 (by omega) (by omega) (by omega),
    tap_apply 9 1 4 (by omega) (by omega) (by omega),
    tap_apply 10 2 0 (by omega) (by omega) (by omega),
    tap_apply 11 2 1 (by omega) (by omega) (by omega),
    tap_apply 12 2 2 (by omega) (by omega) (by omega),
    tap_apply 13 2 3 (by omega) (by omega) (by omega),
    tap_apply 14 2 4 (by omega) (by omega) (by omega),
    tap_apply 15 3 0 (by omega) (by omega) (by omega),
    tap_apply 16 3 1 (by omega) (by omega) (by omega),
    tap_apply 17 3 2 (by omega) (by omega) (by omega),
    tap_apply 18 3 3 (by omega) (by omega) (by omega),
    tap_apply 19 3 4 (by omega) (by omega) (by omega),
    tap_apply 20 4 0 (by omega) (by omega) (by omega),
    tap_apply 21 4 1 (by omega) (by omega) (by omega),
    tap_apply 22 4 2 (by omega) (by omega) (by omega),
    tap_apply 23 4 3 (by omega) (by omega) (by omega),
    tap_apply 24 4 4 (by omega) (by omega) (by omega)]
  rfl

end Cert.MaxPlus.Trip

end
-- ==== Proof.MaxPlus.lean ====
/-
  The arithmetic of the max-plus convolution on the extended reals, free of any program.

  tapMax z T is the running maximum of the 25 tap values T m n (m, n < 5) started from z, the taps taken in
  row-major order. runSum z T k is a sum built one term at a time from z; it is z plus the plain sum of the terms,
  because addition on the extended reals is associative (no finiteness is needed).
-/
import Idealize.ShloMosaic.PureOps.Ideal

open scoped BigOperators

noncomputable section

namespace Cert.MaxPlus

/-- The running maximum of the 25 tap values, from z, taps in row-major order. -/
def tapMax (z : EReal) (T : Fin 5 → Fin 5 → EReal) : EReal :=
  max (max (max (max (max (max (max (max (max (max (max (max (max (max (max (max (max (max (max (max (max (max (max (max (max (z) (T 0 0)) (T 0 1)) (T 0 2)) (T 0 3)) (T 0 4)) (T 1 0)) (T 1 1)) (T 1 2)) (T 1 3)) (T 1 4)) (T 2 0)) (T 2 1)) (T 2 2)) (T 2 3)) (T 2 4)) (T 3 0)) (T 3 1)) (T 3 2)) (T 3 3)) (T 3 4)) (T 4 0)) (T 4 1)) (T 4 2)) (T 4 3)) (T 4 4)

/-- A sum built one term at a time, from z. -/
def runSum (z : EReal) (T : ℕ → EReal) : ℕ → EReal
  | 0 => z
  | k + 1 => runSum z T k + T k

/-- Built one term at a time from z, a sum is z plus the sum of its terms. -/
theorem runSum_eq (z : EReal) (T : ℕ → EReal) (n : ℕ) : runSum z T n = z + ∑ k : Fin n, T k.val := by
  induction n with
  | zero => simp [runSum]
  | succ n ih => rw [runSum, ih, Fin.sum_univ_castSucc, add_assoc]; rfl

end Cert.MaxPlus

end
-- ==== Proof.BlockValue.lean ====
/-
  What the kernel's body leaves in its output block, read back: first for any float instance, as the kernel's own
  operations applied channel after channel (the pieces the run found, opened), then entry by entry on the extended
  reals.
-/
import proofs.«130638_j10230612099335_2_alg».proof.Proof.IdealBody
import proofs.«130638_j10230612099335_2_alg».proof.Proof.TripValue
import proofs.«130638_j10230612099335_2_alg».proof.Proof.MaxPlus
import proofs.«130638_j10230612099335_2_alg».proof.Proof.Layouts
import Idealize.ShloMosaic.Lib.ValueIdx
import Idealize.ShloMosaic.Lib.ValueLayout
import Idealize.ShloMosaic.Lib.StableHlo.Run

set_option maxRecDepth 16384

noncomputable section

namespace Cert.KernelIdeal.Body

open Cert.KernelIdeal Cert.KernelIdeal.Gen Cert.MaxPlus.Trip

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-! ## What the run's pieces are, for any float instance

The run finds its pieces by itself; here they are read back. One channel's step stores, through the whole-buffer
rectangle, a value `stepVal` of the channel's plane, the channel's weight table and what the running-sum buffer
held; so after k channels the buffer holds `accAt k`: the zero fill for k = 0, and `stepVal` of channel k over
`accAt k` for k + 1. The output block ends at the epilogue's value of `accAt 32` and the bias row. -/

/-- The padded plane of channel k, as the loop loads it through the channel view. -/
def chanLoad (mv : Memref sig .tc .vmem S32x84x84 .f32) (X : BufTy.Contents (Elt F) mv.view.ty) (k : Fin k0_t1_loop.trips) :
    Vec F S1x84x84 .f32 :=
  View.readAt (Elt F) mv.view (Rect.unit (s := S32x84x84) (k0_off1 k) S1x84x84.size (k0_off1_inb k)).toLoadRect X

/-- The weight table of channel k, as the loop loads it. -/
def wLoad (arg2 : Memref sig .tc .vmem S32x25x32 .f32) (X : BufTy.Contents (Elt F) arg2.view.ty) (k : Fin k0_t1_loop.trips) :
    Vec F S1x25x32 .f32 :=
  View.readAt (Elt F) arg2.view (Rect.unit (s := S32x25x32) (k0_off2 k) S1x25x32.size (k0_off2_inb k)).toLoadRect X

/-- One channel's pieces: a single store of `stepVal` through the whole-buffer rectangle. -/
theorem tripL_eq (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (mv : Memref sig .tc .vmem S32x84x84 .f32) (hmv : (arg1.slice (Rect.unit (s := S1x32x84x84) ![0, 0, 0, 0] S1x32x84x84.size inb_S1x32x84x84_S1x32x84x84_0_0_0_0) (fun _ => rfl)).squeeze S32x84x84 squeezes_S1x32x84x84_S32x84x84 = mv)
    (X2 : BufTy.Contents (Elt F) arg2.view.ty) (X17 : BufTy.Contents (Elt F) mv.view.ty) (k : Fin k0_t1_loop.trips) (f : BufTy.Contents (Elt F) arg5.view.ty) :
    tripL_k0_t1 (F := F) Variants.none c none i arg1 harg1 arg2 harg2 arg3 harg3 arg4 harg4 arg5 harg5 mv hmv X2 X17 k f
      = [⟨(Rect.unit (s := S32x80x80) ![0, 0, 0] S32x80x80.size inb_S32x80x80_S32x80x80_0_0_0), stepVal (chanLoad mv X17 k) (wLoad arg2 X2 k) (View.readAt (Elt F) arg5.view (Rect.unit (s := S32x80x80) ![0, 0, 0] S32x80x80.size inb_S32x80x80_S32x80x80_0_0_0).toLoadRect f)⟩] := by
  unfold tripL_k0_t1 trip_k0_t1
  dsimp only
  sl_unfold_words
  rfl

/-- The running-sum buffer after k channels. -/
def accAt (arg2 : Memref sig .tc .vmem S32x25x32 .f32) (mv : Memref sig .tc .vmem S32x84x84 .f32)
    (X2 : BufTy.Contents (Elt F) arg2.view.ty) (X17 : BufTy.Contents (Elt F) mv.view.ty) : ℕ → Vec F S32x80x80 .f32
  | 0 => k0_pay1
  | k + 1 => if h : k < k0_t1_loop.trips then stepVal (chanLoad mv X17 ⟨k, h⟩) (wLoad arg2 X2 ⟨k, h⟩) (accAt arg2 mv X2 X17 k)
      else accAt arg2 mv X2 X17 k

/-- A single store through the whole-buffer rectangle, read back, is its payload. -/
theorem read_store_whole (arg5 : Memref sig .tc .vmem S32x80x80 .f32) (g : BufTy.Contents (Elt F) arg5.view.ty)
    (w : Vec F S32x80x80 .f32) :
    arg5.view.read (Elt F) (arg5.view.writes (Elt F) g [⟨(Rect.unit (s := S32x80x80) ![0, 0, 0] S32x80x80.size inb_S32x80x80_S32x80x80_0_0_0), w⟩]) = w := by
  rw [View.read_writes_eq_canon _ _ _ (fun y => ⟨⟨(Rect.unit (s := S32x80x80) ![0, 0, 0] S32x80x80.size inb_S32x80x80_S32x80x80_0_0_0), w⟩, List.mem_singleton_self _, View.mem_set_unit_zero (funext fun a => by fin_cases a <;> rfl) inb_S32x80x80_S32x80x80_0_0_0 y⟩)]
  exact View.canon_unit_zero (funext fun a => by fin_cases a <;> rfl) _ _

/-- A load through the whole-buffer rectangle reads the buffer. -/
theorem load_whole (arg5 : Memref sig .tc .vmem S32x80x80 .f32) (g : BufTy.Contents (Elt F) arg5.view.ty) :
    View.readAt (Elt F) arg5.view (Rect.unit (s := S32x80x80) ![0, 0, 0] S32x80x80.size inb_S32x80x80_S32x80x80_0_0_0).toLoadRect g = arg5.view.read (Elt F) g := by
  rw [View.readAt_eq_ld]
  exact View.ld_unit_zero (funext fun a => by fin_cases a <;> rfl) _ _

/-- After k channels the buffer reads `accAt k`. -/
theorem read_pb (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (mv : Memref sig .tc .vmem S32x84x84 .f32) (hmv : (arg1.slice (Rect.unit (s := S1x32x84x84) ![0, 0, 0, 0] S1x32x84x84.size inb_S1x32x84x84_S1x32x84x84_0_0_0_0) (fun _ => rfl)).squeeze S32x84x84 squeezes_S1x32x84x84_S32x84x84 = mv)
    (X2 : BufTy.Contents (Elt F) arg2.view.ty) (X17 : BufTy.Contents (Elt F) mv.view.ty) (g : BufTy.Contents (Elt F) arg5.view.ty) :
    ∀ k : ℕ, k ≤ k0_t1_loop.trips →
      arg5.view.read (Elt F) (arg5.view.writes (Elt F) (arg5.view.writes (Elt F) g [⟨(Rect.unit (s := S32x80x80) ![0, 0, 0] S32x80x80.size inb_S32x80x80_S32x80x80_0_0_0), k0_pay1⟩])
        (pb_k0_t1 (F := F) Variants.none c none i arg1 harg1 arg2 harg2 arg3 harg3 arg4 harg4 arg5 harg5 mv hmv X2 X17 (arg5.view.writes (Elt F) g [⟨(Rect.unit (s := S32x80x80) ![0, 0, 0] S32x80x80.size inb_S32x80x80_S32x80x80_0_0_0), k0_pay1⟩]) k)) = accAt arg2 mv X2 X17 k
  | 0, _ => by
      rw [pb_k0_t1, View.writes_nil]
      exact read_store_whole arg5 g _
  | k + 1, hk => by
      have hk' : k < k0_t1_loop.trips := hk
      have ih := read_pb c i arg1 harg1 arg2 harg2 arg3 harg3 arg4 harg4 arg5 harg5 mv hmv X2 X17 g k (Nat.le_of_lt hk')
      rw [show k + 1 = (⟨k, hk'⟩ : Fin k0_t1_loop.trips).val + 1 from rfl, pb_k0_t1_succ, tripL_eq, View.writes_append,
        read_store_whole, load_whole]
      show stepVal _ _ (arg5.view.read (Elt F) _) = _
      rw [show ((⟨k, hk'⟩ : Fin k0_t1_loop.trips).val) = k from rfl, ih, accAt, dif_pos hk']

/-- What the body leaves in the output block: the epilogue's value (buffer plus bias row, recast to the block's
    shape) of the running-sum buffer after all the channels and of the bias block. -/
theorem outBlock_eq (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (x0 : Vec F S1x32x84x84 .f32) (x1 : Vec F S32x25x32 .f32) (x2 : Vec F S1x32 .f32) :
    outBlock c i arg1 harg1 arg2 harg2 arg3 harg3 arg4 harg4 arg5 harg5 x0 x1 x2
      = k0_pay3 (accAt arg2 (chanView arg1) (harg2.unread x1) (harg1.unread x0) k0_t1_loop.trips) x2 := by
  unfold outBlock kernelRun
  dsimp only
  unfold kernelRun.sl.v5
  sl_unfold_words
  rw [View.read_writes_eq_canon _ _ _ (fun y => ⟨_, List.mem_singleton_self _, View.mem_set_unit_zero (funext fun a => by fin_cases a <;> rfl) inb_S1x32x80x80_S1x32x80x80_0_0_0_0 y⟩)]
  refine (View.canon_unit_zero (funext fun a => by fin_cases a <;> rfl) _ _).trans ?_
  congr 1
  · rw [load_whole, View.writes_append]
    exact read_pb c i arg1 harg1 arg2 harg2 arg3 harg3 arg4 harg4 arg5 harg5 (chanView arg1) _ (harg2.unread x1) (harg1.unread x0) arg5.view.junk _ (Nat.le_refl _)
  · rw [View.readAt_eq_ld, harg3.read_unread]
    exact View.ld_unit_zero (funext fun a => by fin_cases a <;> rfl) _ _

/-! ## The block at an entry, on the extended reals -/

section AtIdeal

open Idealize.ShloMosaic.ValueIdx Cert.MaxPlus Cert.MaxPlus.Trip

/-- One channel's step at an entry, with the 25 taps gathered: the buffer's entry plus the tap maximum. -/
theorem stepVal_apply (v19 : Vec Ideal S1x84x84 .f32) (v22 : Vec Ideal S1x25x32 .f32) (v250 : Vec Ideal S32x80x80 .f32)
    (co : Fin 32) (h w : Fin 80) :
    stepVal v19 v22 v250 (ix3 co h w) = v250 (ix3 co h w) + tapMax (Scalar.ofBits .f32 0xFF800000#32 : Ideal .f32) (fun m n => k0_pay5 v22 (ix2 ⟨5 * m.val + n.val, by omega⟩ co) + k0_pay4 v19 (ix2 ⟨m.val + h.val, by omega⟩ ⟨n.val + w.val, by omega⟩)) := by
  rw [step_apply]
  rfl

/-- The zero fill at an entry. -/
theorem zero_apply (j : S32x80x80.Idx) : (k0_pay1 (F := Ideal)) j = (Scalar.ofBits .f32 0x00000000#32 : Ideal .f32) := by
  unfold k0_pay1
  rw [shapeCast_self]
  rfl

/-- The epilogue at an entry: the buffer's entry plus the bias of the output channel. -/
theorem epilogue_apply (v5 : Vec Ideal S32x80x80 .f32) (v6 : Vec Ideal S1x32 .f32) (co : Fin 32) (h w : Fin 80) :
    k0_pay3 v5 v6 (ix4 (0 : Fin 1) co h w) = v5 (ix3 co h w) + v6 (ix2 (0 : Fin 1) co) := by
  unfold k0_pay3
  rw [shapeCast_abc_1abc_apply, addf_apply, spread_col, cast_vec_col, shapeCast_1a_a_apply]

/-- The plane the loop loads for channel k is channel k of the input block. -/
theorem plane_apply (arg1 : Memref sig .tc .vmem S1x32x84x84 .f32) (harg1 : arg1.IsWhole) (x0 : Vec Ideal S1x32x84x84 .f32)
    (k : Fin k0_t1_loop.trips) (hk : k.val < 32) (a b : Fin 84) :
    k0_pay4 (chanLoad (F := Ideal) (chanView arg1) (harg1.unread x0) k) (ix2 a b) = x0 (ix4 (0 : Fin 1) ⟨k.val, hk⟩ a b) := by
  unfold k0_pay4 chanLoad
  rw [shapeCast_1ab_ab_apply, View.readAt_eq_ld]
  have e : (chanView arg1).view.read (Elt Ideal) (harg1.unread x0)
      = shapeCast S32x84x84 x0 (by decide : S1x32x84x84.ShapeCasts S32x84x84) := by
    show shapeCast S32x84x84 (arg1.view.readAt (Elt Ideal) _ (harg1.unread x0)) _ = _
    rw [View.readAt_eq_ld, harg1.read_unread]
    exact congrArg (fun y => shapeCast S32x84x84 y _) (View.ld_unit_zero (funext fun a => by fin_cases a <;> rfl) _ _)
  rw [e]
  show shapeCast S32x84x84 x0 _ ((Rect.unit (s := S32x84x84) (k0_off1 k) S1x84x84.size (k0_off1_inb k)).idx (ix3 (0 : Fin 1) a b)) = _
  rw [show (Rect.unit (s := S32x84x84) (k0_off1 k) S1x84x84.size (k0_off1_inb k)).idx (ix3 (0 : Fin 1) a b)
      = ix3 (⟨k.val, hk⟩ : Fin 32) a b from funext fun d => Fin.ext (by
        show (k0_off1 k) d + 1 * ((ix3 (0 : Fin 1) a b) d).val = _
        rw [k0_off1_eq]
        match d with
        | ⟨0, _⟩ => show k.val + 1 * 0 = k.val; omega
        | ⟨1, _⟩ => show 0 + 1 * a.val = a.val; omega
        | ⟨2, _⟩ => show 0 + 1 * b.val = b.val; omega)]
  exact shapeCast_1abc_abc_apply x0 _ _ a b

/-- The weight table the loop loads for channel k is row block k of the weight block. -/
theorem weights_apply (arg2 : Memref sig .tc .vmem S32x25x32 .f32) (harg2 : arg2.IsWhole) (x1 : Vec Ideal S32x25x32 .f32)
    (k : Fin k0_t1_loop.trips) (hk : k.val < 32) (j : Fin 25) (co : Fin 32) :
    k0_pay5 (wLoad (F := Ideal) arg2 (harg2.unread x1) k) (ix2 j co) = x1 (ix3 ⟨k.val, hk⟩ j co) := by
  unfold k0_pay5 wLoad
  rw [shapeCast_1ab_ab_apply, View.readAt_eq_ld, harg2.read_unread]
  show x1 ((Rect.unit (s := S32x25x32) (k0_off2 k) S1x25x32.size (k0_off2_inb k)).idx (ix3 (0 : Fin 1) j co)) = _
  refine congrArg x1 (funext fun d => Fin.ext ?_)
  show (k0_off2 k) d + 1 * ((ix3 (0 : Fin 1) j co) d).val = _
  rw [k0_off2_eq]
  match d with
  | ⟨0, _⟩ => show k.val + 1 * 0 = k.val; omega
  | ⟨1, _⟩ => show 0 + 1 * j.val = j.val; omega
  | ⟨2, _⟩ => show 0 + 1 * co.val = co.val; omega

end AtIdeal

section AtIdeal2

open Idealize.ShloMosaic.ValueIdx Cert.MaxPlus Cert.MaxPlus.Trip

theorem trips_eq : k0_t1_loop.trips = 32 := by decide

/-- The tap maximum of input channel k at the output entry (co, h, w), over the input block x0 (one batch element,
    padded) and the weight block x1 (input channel, tap, output channel); zero past the last channel. -/
def chanTap (x0 : Vec Ideal S1x32x84x84 .f32) (x1 : Vec Ideal S32x25x32 .f32) (co : Fin 32) (h w : Fin 80) (k : ℕ) : EReal :=
  if hk : k < 32 then
    tapMax (Scalar.ofBits .f32 0xFF800000#32 : Ideal .f32) (fun m n =>
      x1 (ix3 (⟨k, hk⟩ : Fin 32) (⟨5 * m.val + n.val, by omega⟩ : Fin 25) co)
        + x0 (ix4 (0 : Fin 1) (⟨k, hk⟩ : Fin 32) (⟨m.val + h.val, by omega⟩ : Fin 84) (⟨n.val + w.val, by omega⟩ : Fin 84)))
  else 0

/-- After k channels an entry of the running-sum buffer is zero plus the tap maxima of the channels before k, added
    one at a time. -/
theorem accAt_apply (arg1 : Memref sig .tc .vmem S1x32x84x84 .f32) (harg1 : arg1.IsWhole)
    (arg2 : Memref sig .tc .vmem S32x25x32 .f32) (harg2 : arg2.IsWhole)
    (x0 : Vec Ideal S1x32x84x84 .f32) (x1 : Vec Ideal S32x25x32 .f32) (co : Fin 32) (h w : Fin 80) :
    ∀ k : ℕ, k ≤ k0_t1_loop.trips →
      accAt (F := Ideal) arg2 (chanView arg1) (harg2.unread x1) (harg1.unread x0) k (ix3 co h w)
        = runSum (Scalar.ofBits .f32 0x00000000#32 : Ideal .f32) (chanTap x0 x1 co h w) k
  | 0, _ => by rw [accAt, zero_apply]; rfl
  | k + 1, hk => by
      have hk' : k < k0_t1_loop.trips := hk
      have hk32 : k < 32 := trips_eq ▸ hk'
      rw [accAt, dif_pos hk', stepVal_apply, accAt_apply arg1 harg1 arg2 harg2 x0 x1 co h w k (Nat.le_of_lt hk'), runSum]
      refine congrArg (_ + ·) ?_
      unfold chanTap
      rw [dif_pos hk32]
      refine congrArg (tapMax _) (funext fun m => funext fun n => ?_)
      rw [weights_apply arg2 harg2 x1 ⟨k, hk'⟩ hk32, plane_apply arg1 harg1 x0 ⟨k, hk'⟩ hk32]

/-- An entry of the output block: zero plus the sum over the input channels of the tap maxima, plus the bias. -/
theorem block_apply (c : Dev nD) (i : grid0.Coords)
    (arg1 : Memref sig .tc .vmem S1x32x84x84 .f32) (harg1 : arg1.IsWhole)
    (arg2 : Memref sig .tc .vmem S32x25x32 .f32) (harg2 : arg2.IsWhole)
    (arg3 : Memref sig .tc .vmem S1x32 .f32) (harg3 : arg3.IsWhole)
    (arg4 : Memref sig .tc .vmem S1x32x80x80 .f32) (harg4 : arg4.IsWhole)
    (arg5 : Memref sig .tc .vmem S32x80x80 .f32) (harg5 : arg5.IsWhole)
    (x0 : Vec Ideal S1x32x84x84 .f32) (x1 : Vec Ideal S32x25x32 .f32) (x2 : Vec Ideal S1x32 .f32) (co : Fin 32) (h w : Fin 80) :
    outBlock (F := Ideal) c i arg1 harg1 arg2 harg2 arg3 harg3 arg4 harg4 arg5 harg5 x0 x1 x2 (ix4 (0 : Fin 1) co h w)
      = ((Scalar.ofBits .f32 0x00000000#32 : Ideal .f32) + ∑ k : Fin 32, chanTap x0 x1 co h w k.val) + x2 (ix2 (0 : Fin 1) co) := by
  rw [outBlock_eq, epilogue_apply, accAt_apply arg1 harg1 arg2 harg2 x0 x1 co h w _ (Nat.le_refl _), trips_eq, runSum_eq]

end AtIdeal2

/-! ## The arrays the region finds, and the blocks cut out of them -/

section Arrays

open Idealize.ShloMosaic.ValueIdx Cert.MaxPlus Cert.MaxPlus.Trip

variable (m : (ℓ : Loc nD τ sig) → Buf (Elt Ideal) ℓ)

/-- The input padded with minus infinity by two rows and two columns on each side. -/
def padded (x : S4x32x80x80.Idx → EReal) : S4x32x84x84.Idx → EReal :=
  pad S4x32x84x84 ![0, 0, 2, 2] ![0, 0, 2, 2] ![0, 0, 0, 0] x (id (constant (F := Ideal) S_ .f32 0xFF800000#32))
    pads_S4x32x80x80_S4x32x84x84_000_000_220_220 h_S_

/-- The region finds the padded input, -/
theorem V_v0 (c : Dev nD) : (V m c main_v0 : S4x32x84x84.Idx → EReal) = padded (m ((c : Thread nD τ).loc main_arg0)) := by
  dsimp only [Gen.V]
  simp only [hostOps0, hostOps0_1, hostOps0_2, List.flatten_cons, List.flatten_nil, List.append_nil, List.cons_append, List.nil_append]
  after_results
  rfl

/-- the weights with the input channel in front and the taps flattened, -/
theorem V_v2 (c : Dev nD) : (V m c main_v2 : S32x25x32.Idx → EReal)
    = shapeCast S32x25x32 (transpose S32x5x5x32 [1, 2, 3, 0] (m ((c : Thread nD τ).loc main_arg1)) transposes_S32x32x5x5_S32x5x5x32_1_2_3_0)
        shapeCasts_S32x5x5x32_S32x25x32 := by
  dsimp only [Gen.V]
  simp only [hostOps0, hostOps0_1, hostOps0_2, List.flatten_cons, List.flatten_nil, List.append_nil, List.cons_append, List.nil_append]
  after_results
  rfl

/-- and the bias as one row. -/
theorem V_v3 (c : Dev nD) : (V m c main_v3 : S1x32.Idx → EReal)
    = shapeCast S1x32 (m ((c : Thread nD τ).loc main_arg2)) shapeCasts_S32_S1x32 := by
  dsimp only [Gen.V]
  simp only [hostOps0, hostOps0_1, hostOps0_2, List.flatten_cons, List.flatten_nil, List.append_nil, List.cons_append, List.nil_append]
  after_results
  rfl

/-- The windows' index maps over the four grid points: the input and output blocks move with the batch index, the
    weight and bias blocks stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem t_lt (t : Fin cfg0.N) : t.val < 4 := N_0 ▸ t.isLt

/-- The input block at point t is batch element t of the padded input. -/
theorem iblk0_apply (c : Dev nD) (t : Fin cfg0.N) (k : Fin 32) (a b : Fin 84) :
    iblk m c 0 t (ix4 (0 : Fin 1) k a b) = padded (m ((c : Thread nD τ).loc main_arg0)) (ix4 (⟨t.val, t_lt t⟩ : Fin 4) k a b) := by
  rw [← V_v0]
  obtain ⟨e0, e1, e2, e3, -⟩ := idx_facts t
  show V m c main_v0 (((cfg0.win 0).blk t).view.emb (ix4 (0 : Fin 1) k a b)) = _
  refine congrArg (V m c main_v0) (funext fun d => Fin.ext ?_)
  match d with
  | ⟨0, _⟩ => show win0_0.index t (0 : Fin 4) * 1 + 1 * 0 = t.val; omega
  | ⟨1, _⟩ => show win0_0.index t (1 : Fin 4) * 32 + 1 * k.val = k.val; omega
  | ⟨2, _⟩ => show win0_0.index t (2 : Fin 4) * 84 + 1 * a.val = a.val; omega
  | ⟨3, _⟩ => show win0_0.index t (3 : Fin 4) * 84 + 1 * b.val = b.val; omega

/-- The weight block is the whole rearranged weight array: entry (k, 5 m + n, co) is weight (co, k, m, n). -/
theorem iblk1_apply (c : Dev nD) (t : Fin cfg0.N) (k co : Fin 32) (mm nn : Fin 5) :
    iblk m c 1 t (ix3 k (⟨5 * mm.val + nn.val, by omega⟩ : Fin 25) co)
      = m ((c : Thread nD τ).loc main_arg1) (ix4 co k mm nn) := by
  obtain ⟨-, -, -, -, e0, e1, e2, -⟩ := idx_facts t
  have e : iblk m c 1 t (ix3 k (⟨5 * mm.val + nn.val, by omega⟩ : Fin 25) co)
      = V m c main_v2 (ix3 k (⟨5 * mm.val + nn.val, by omega⟩ : Fin 25) co) := by
    show V m c main_v2 (((cfg0.win 1).blk t).view.emb (ix3 k (⟨5 * mm.val + nn.val, by omega⟩ : Fin 25) co)) = _
    refine congrArg (V m c main_v2) (funext fun d => Fin.ext ?_)
    match d with
    | ⟨0, _⟩ => show win0_1.index t (0 : Fin 3) * 32 + 1 * k.val = k.val; omega
    | ⟨1, _⟩ => show win0_1.index t (1 : Fin 3) * 25 + 1 * (5 * mm.val + nn.val) = 5 * mm.val + nn.val; omega
    | ⟨2, _⟩ => show win0_1.index t (2 : Fin 3) * 32 + 1 * co.val = co.val; omega
  rw [e, V_v2]
  rw [shapeCast_apply _ _ _ (ix4 k mm nn co) (by
    rw [Shape.rowMajor_val_four, Shape.rowMajor_val_three]
    show ((k.val * 5 + mm.val) * 5 + nn.val) * 32 + co.val = (k.val * 25 + (5 * mm.val + nn.val)) * 32 + co.val
    ring)]
  exact transpose_apply _ _ _ _ (ix4 co k mm nn) (fun d => match d with
    | ⟨0, _⟩ => rfl
    | ⟨1, _⟩ => rfl
    | ⟨2, _⟩ => rfl
    | ⟨3, _⟩ => rfl)

/-- The bias block is the bias as one row. -/
theorem iblk2_apply (c : Dev nD) (t : Fin cfg0.N) (co : Fin 32) :
    iblk m c 2 t (ix2 (0 : Fin 1) co) = m ((c : Thread nD τ).loc main_arg2) (ix1 co) := by
  obtain ⟨-, -, -, -, -, -, -, e0, e1, -⟩ := idx_facts t
  have e : iblk m c 2 t (ix2 (0 : Fin 1) co) = V m c main_v3 (ix2 (0 : Fin 1) co) := by
    show V m c main_v3 (((cfg0.win 2).blk t).view.emb (ix2 (0 : Fin 1) co)) = _
    refine congrArg (V m c main_v3) (funext fun d => Fin.ext ?_)
    match d with
    | ⟨0, _⟩ => show win0_2.index t (0 : Fin 2) * 1 + 1 * 0 = 0; omega
    | ⟨1, _⟩ => show win0_2.index t (1 : Fin 2) * 32 + 1 * co.val = co.val; omega
  rw [e, V_v3]
  exact shapeCast_a_1a_apply _ _ _ co

end Arrays

end Cert.KernelIdeal.Body

end
-- ==== Proof.RefTerm.lean ====
/-
  The reference's result as one term of its arguments, stage by stage, and that term read at an entry.

  xpad is the input padded with minus infinity; tapTerm m n spreads the (m, n)-shifted window of the padded input and
  the (m, n) slice of the weights over the index (batch, output channel, input channel, row, column) and adds them;
  maxAll folds the 25 taps into a running maximum from minus infinity; resTerm sums over the input channel from zero
  and adds the bias of the output channel. At an entry: the tap is weight(co, ci, m, n) + xp(b, ci, m + h, n + v).
-/
import proofs.«130638_j10230612099335_2_alg».proof.Proof.Gen.ReferenceIdeal
import proofs.«130638_j10230612099335_2_alg».proof.Proof.MaxPlus
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.HandRun

open Cert.ReferenceIdeal Cert.ReferenceIdeal.Gen Idealize.ShloMosaic Idealize.ShloMosaic.ValueIdx

variable {F : FTy → Type} [FloatOps F]

/-- The input padded with minus infinity by two rows and two columns on each side. -/
def xpad (x0 : S4x32x80x80.Idx → Elt F .f32) : S4x32x84x84.Idx → Elt F .f32 :=
  pad S4x32x84x84 ![0, 0, 2, 2] ![0, 0, 2, 2] ![0, 0, 0, 0] x0 (id (constant S_ .f32 0xFF800000#32))
    pads_S4x32x80x80_S4x32x84x84_000_000_220_220 h_S_

/-- One tap, over the index (batch, output channel, input channel, row, column). -/
def tapTerm (m n : ℕ) (hs1 : S4x32x84x84.Slices ![0, 0, m, n] S4x32x80x80) (hs2 : S32x32x5x5.Slices ![0, 0, m, n] S32x32x1x1)
    (xp : S4x32x84x84.Idx → Elt F .f32) (w : S32x32x5x5.Idx → Elt F .f32) : S4x32x32x80x80.Idx → Elt F .f32 :=
  addf
    (broadcastInDim S4x32x32x80x80 ![0, 1, 2, 3, 4] bcast_S4x1x32x80x80_S4x32x32x80x80_0_1_2_3_4
      (broadcastInDim S4x1x32x80x80 ![0, 2, 3, 4] bcast_S4x32x80x80_S4x1x32x80x80_0_2_3_4
        (extractStridedSlice S4x32x80x80 ![0, 0, m, n] xp hs1)))
    (broadcastInDim S4x32x32x80x80 ![0, 1, 2, 3, 4] bcast_S1x32x32x1x1_S4x32x32x80x80_0_1_2_3_4
      (broadcastInDim S1x32x32x1x1 ![1, 2] bcast_S32x32_S1x32x32x1x1_1_2
        (shapeCast S32x32 (extractStridedSlice S32x32x1x1 ![0, 0, m, n] w hs2) shapeCasts_S32x32x1x1_S32x32)))

/-- The running maximum over the 25 taps, from minus infinity. -/
def maxAll (xp : S4x32x84x84.Idx → Elt F .f32) (w : S32x32x5x5.Idx → Elt F .f32) : S4x32x32x80x80.Idx → Elt F .f32 :=
  maximumf (maximumf (maximumf (maximumf (maximumf (maximumf (maximumf (maximumf (maximumf (maximumf (maximumf (maximumf (maximumf (maximumf (maximumf (maximumf (maximumf (maximumf (maximumf (maximumf (maximumf (maximumf (maximumf (maximumf (maximumf ((broadcastInDim S4x32x32x80x80 ![] bcast_S_S4x32x32x80x80 (constant S_ .f32 0xFF800000#32)))
    (tapTerm 0 0 slices_S4x32x84x84_S4x32x80x80_0_0_0_0 slices_S32x32x5x5_S32x32x1x1_0_0_0_0 xp w))
    (tapTerm 0 1 slices_S4x32x84x84_S4x32x80x80_0_0_0_1 slices_S32x32x5x5_S32x32x1x1_0_0_0_1 xp w))
    (tapTerm 0 2 slices_S4x32x84x84_S4x32x80x80_0_0_0_2 slices_S32x32x5x5_S32x32x1x1_0_0_0_2 xp w))
    (tapTerm 0 3 slices_S4x32x84x84_S4x32x80x80_0_0_0_3 slices_S32x32x5x5_S32x32x1x1_0_0_0_3 xp w))
    (tapTerm 0 4 slices_S4x32x84x84_S4x32x80x80_0_0_0_4 slices_S32x32x5x5_S32x32x1x1_0_0_0_4 xp w))
    (tapTerm 1 0 slices_S4x32x84x84_S4x32x80x80_0_0_1_0 slices_S32x32x5x5_S32x32x1x1_0_0_1_0 xp w))
    (tapTerm 1 1 slices_S4x32x84x84_S4x32x80x80_0_0_1_1 slices_S32x32x5x5_S32x32x1x1_0_0_1_1 xp w))
    (tapTerm 1 2 slices_S4x32x84x84_S4x32x80x80_0_0_1_2 slices_S32x32x5x5_S32x32x1x1_0_0_1_2 xp w))
    (tapTerm 1 3 slices_S4x32x84x84_S4x32x80x80_0_0_1_3 slices_S32x32x5x5_S32x32x1x1_0_0_1_3 xp w))
    (tapTerm 1 4 slices_S4x32x84x84_S4x32x80x80_0_0_1_4 slices_S32x32x5x5_S32x32x1x1_0_0_1_4 xp w))
    (tapTerm 2 0 slices_S4x32x84x84_S4x32x80x80_0_0_2_0 slices_S32x32x5x5_S32x32x1x1_0_0_2_0 xp w))
    (tapTerm 2 1 slices_S4x32x84x84_S4x32x80x80_0_0_2_1 slices_S32x32x5x5_S32x32x1x1_0_0_2_1 xp w))
    (tapTerm 2 2 slices_S4x32x84x84_S4x32x80x80_0_0_2_2 slices_S32x32x5x5_S32x32x1x1_0_0_2_2 xp w))
    (tapTerm 2 3 slices_S4x32x84x84_S4x32x80x80_0_0_2_3 slices_S32x32x5x5_S32x32x1x1_0_0_2_3 xp w))
    (tapTerm 2 4 slices_S4x32x84x84_S4x32x80x80_0_0_2_4 slices_S32x32x5x5_S32x32x1x1_0_0_2_4 xp w))
    (tapTerm 3 0 slices_S4x32x84x84_S4x32x80x80_0_0_3_0 slices_S32x32x5x5_S32x32x1x1_0_0_3_0 xp w))
    (tapTerm 3 1 slices_S4x32x84x84_S4x32x80x80_0_0_3_1 slices_S32x32x5x5_S32x32x1x1_0_0_3_1 xp w))
    (tapTerm 3 2 slices_S4x32x84x84_S4x32x80x80_0_0_3_2 slices_S32x32x5x5_S32x32x1x1_0_0_3_2 xp w))
    (tapTerm 3 3 slices_S4x32x84x84_S4x32x80x80_0_0_3_3 slices_S32x32x5x5_S32x32x1x1_0_0_3_3 xp w))
    (tapTerm 3 4 slices_S4x32x84x84_S4x32x80x80_0_0_3_4 slices_S32x32x5x5_S32x32x1x1_0_0_3_4 xp w))
    (tapTerm 4 0 slices_S4x32x84x84_S4x32x80x80_0_0_4_0 slices_S32x32x5x5_S32x32x1x1_0_0_4_0 xp w))
    (tapTerm 4 1 slices_S4x32x84x84_S4x32x80x80_0_0_4_1 slices_S32x32x5x5_S32x32x1x1_0_0_4_1 xp w))
    (tapTerm 4 2 slices_S4x32x84x84_S4x32x80x80_0_0_4_2 slices_S32x32x5x5_S32x32x1x1_0_0_4_2 xp w))
    (tapTerm 4 3 slices_S4x32x84x84_S4x32x80x80_0_0_4_3 slices_S32x32x5x5_S32x32x1x1_0_0_4_3 xp w))
    (tapTerm 4 4 slices_S4x32x84x84_S4x32x80x80_0_0_4_4 slices_S32x32x5x5_S32x32x1x1_0_0_4_4 xp w)

/-- The reference's result: the sum over the input channel, from zero, of the tap maxima, plus the bias. -/
def resTerm (x0 : S4x32x80x80.Idx → Elt F .f32) (w : S32x32x5x5.Idx → Elt F .f32) (bias : S32.Idx → Elt F .f32) :
    S4x32x80x80.Idx → Elt F .f32 :=
  addf (Host.reduceAdd (maxAll (xpad x0) w) (constant S_ .f32 0x00000000#32) reducesTo_S4x32x32x80x80_S4x32x80x80_d2 h_S_)
    (broadcastInDim S4x32x80x80 ![0, 1, 2, 3] bcast_S1x32x1x1_S4x32x80x80_0_1_2_3
      (broadcastInDim S1x32x1x1 ![1] bcast_S32_S1x32x1x1_1 bias))

/-! ## At an entry, on the extended reals -/

/-- One tap at (b, co, ci, h, v): weight(co, ci, m, n) + xp(b, ci, m + h, n + v). -/
theorem tapTerm_apply (m n : ℕ) (hm : m + 80 ≤ 84) (hn : n + 80 ≤ 84)
    (hs1 : S4x32x84x84.Slices ![0, 0, m, n] S4x32x80x80) (hs2 : S32x32x5x5.Slices ![0, 0, m, n] S32x32x1x1)
    (xp : S4x32x84x84.Idx → EReal) (w : S32x32x5x5.Idx → EReal) (b : Fin 4) (co ci : Fin 32) (h v : Fin 80) :
    tapTerm (F := Ideal) m n hs1 hs2 xp w (ix5 b co ci h v)
      = w (ix4 co ci ⟨m, by omega⟩ ⟨n, by omega⟩) + xp (ix4 b ci ⟨m + h.val, by omega⟩ ⟨n + v.val, by omega⟩) := by
  unfold tapTerm
  rw [addf_apply, add_comm]
  refine congrArg₂ (· + ·) ?_ ?_
  · rw [broadcastInDim_apply _ _ _ _ (ix5 (0 : Fin 1) co ci (0 : Fin 1) (0 : Fin 1)) (fun a => match a with
        | ⟨0, _⟩ => by show (0 : ℕ) = if (1 : ℕ) = 1 then 0 else b.val; rw [if_pos rfl]
        | ⟨1, _⟩ => by show co.val = if (32 : ℕ) = 1 then 0 else co.val; rw [if_neg (by decide)]
        | ⟨2, _⟩ => by show ci.val = if (32 : ℕ) = 1 then 0 else ci.val; rw [if_neg (by decide)]
        | ⟨3, _⟩ => by show (0 : ℕ) = if (1 : ℕ) = 1 then 0 else h.val; rw [if_pos rfl]
        | ⟨4, _⟩ => by show (0 : ℕ) = if (1 : ℕ) = 1 then 0 else v.val; rw [if_pos rfl]),
      broadcastInDim_apply _ _ _ _ (ix2 co ci) (fun a => match a with
        | ⟨0, _⟩ => by show co.val = if (32 : ℕ) = 1 then 0 else co.val; rw [if_neg (by decide)]
        | ⟨1, _⟩ => by show ci.val = if (32 : ℕ) = 1 then 0 else ci.val; rw [if_neg (by decide)]),
      shapeCast_apply _ _ _ (ix4 co ci (0 : Fin 1) (0 : Fin 1)) (by
        rw [Shape.rowMajor_val_four, Shape.rowMajor_val_two]
        show ((co.val * 32 + ci.val) * 1 + 0) * 1 + 0 = co.val * 32 + ci.val
        omega),
      extractStridedSlice_apply _ _ _ _ (ix4 co ci (⟨m, by omega⟩ : Fin 5) (⟨n, by omega⟩ : Fin 5)) (fun a => match a with
        | ⟨0, _⟩ => by show co.val = 0 + co.val; omega
        | ⟨1, _⟩ => by show ci.val = 0 + ci.val; omega
        | ⟨2, _⟩ => by show m = m + 0; omega
        | ⟨3, _⟩ => by show n = n + 0; omega)]
  · rw [broadcastInDim_apply _ _ _ _ (ix5 b (0 : Fin 1) ci h v) (fun a => match a with
        | ⟨0, _⟩ => by show b.val = if (4 : ℕ) = 1 then 0 else b.val; rw [if_neg (by decide)]
        | ⟨1, _⟩ => by show (0 : ℕ) = if (1 : ℕ) = 1 then 0 else co.val; rw [if_pos rfl]
        | ⟨2, _⟩ => by show ci.val = if (32 : ℕ) = 1 then 0 else ci.val; rw [if_neg (by decide)]
        | ⟨3, _⟩ => by show h.val = if (80 : ℕ) = 1 then 0 else h.val; rw [if_neg (by decide)]
        | ⟨4, _⟩ => by show v.val = if (80 : ℕ) = 1 then 0 else v.val; rw [if_neg (by decide)]),
      broadcastInDim_apply _ _ _ _ (ix4 b ci h v) (fun a => match a with
        | ⟨0, _⟩ => by show b.val = if (4 : ℕ) = 1 then 0 else b.val; rw [if_neg (by decide)]
        | ⟨1, _⟩ => by show ci.val = if (32 : ℕ) = 1 then 0 else ci.val; rw [if_neg (by decide)]
        | ⟨2, _⟩ => by show h.val = if (80 : ℕ) = 1 then 0 else h.val; rw [if_neg (by decide)]
        | ⟨3, _⟩ => by show v.val = if (80 : ℕ) = 1 then 0 else v.val; rw [if_neg (by decide)]),
      extractStridedSlice_apply _ _ _ _ (ix4 b ci (⟨m + h.val, by omega⟩ : Fin 84) (⟨n + v.val, by omega⟩ : Fin 84)) (fun a => match a with
        | ⟨0, _⟩ => by show b.val = 0 + b.val; omega
        | ⟨1, _⟩ => by show ci.val = 0 + ci.val; omega
        | ⟨2, _⟩ => rfl
        | ⟨3, _⟩ => rfl)]

/-- The running maximum at (b, co, ci, h, v), taps gathered. -/
theorem maxAll_apply (xp : S4x32x84x84.Idx → EReal) (w : S32x32x5x5.Idx → EReal) (b : Fin 4) (co ci : Fin 32) (h v : Fin 80) :
    maxAll (F := Ideal) xp w (ix5 b co ci h v)
      = Cert.MaxPlus.tapMax (Ideal.ofBits .f32 0xFF800000#32 : EReal) (fun m n =>
          w (ix4 co ci m n) + xp (ix4 b ci (⟨m.val + h.val, by omega⟩ : Fin 84) (⟨n.val + v.val, by omega⟩ : Fin 84))) := by
  unfold maxAll
  simp only [maximumf_apply]
  rw [tapTerm_apply 0 0 (by omega) (by omega),
    tapTerm_apply 0 1 (by omega) (by omega),
    tapTerm_apply 0 2 (by omega) (by omega),
    tapTerm_apply 0 3 (by omega) (by omega),
    tapTerm_apply 0 4 (by omega) (by omega),
    tapTerm_apply 1 0 (by omega) (by omega),
    tapTerm_apply 1 1 (by omega) (by omega),
    tapTerm_apply 1 2 (by omega) (by omega),
    tapTerm_apply 1 3 (by omega) (by omega),
    tapTerm_apply 1 4 (by omega) (by omega),
    tapTerm_apply 2 0 (by omega) (by omega),
    tapTerm_apply 2 1 (by omega) (by omega),
    tapTerm_apply 2 2 (by omega) (by omega),
    tapTerm_apply 2 3 (by omega) (by omega),
    tapTerm_apply 2 4 (by omega) (by omega),
    tapTerm_apply 3 0 (by omega) (by omega),
    tapTerm_apply 3 1 (by omega) (by omega),
    tapTerm_apply 3 2 (by omega) (by omega),
    tapTerm_apply 3 3 (by omega) (by omega),
    tapTerm_apply 3 4 (by omega) (by omega),
    tapTerm_apply 4 0 (by omega) (by omega),
    tapTerm_apply 4 1 (by omega) (by omega),
    tapTerm_apply 4 2 (by omega) (by omega),
    tapTerm_apply 4 3 (by omega) (by omega),
    tapTerm_apply 4 4 (by omega) (by omega)]
  rfl

/-- The reference's result at (b, co, h, v). -/
theorem resTerm_apply (x0 : S4x32x80x80.Idx → EReal) (w : S32x32x5x5.Idx → EReal) (bias : S32.Idx → EReal)
    (b : Fin 4) (co : Fin 32) (h v : Fin 80) :
    resTerm (F := Ideal) x0 w bias (ix4 b co h v)
      = ((Ideal.ofBits .f32 0x00000000#32 : EReal) + ∑ ci : Fin 32, maxAll (F := Ideal) (xpad x0) w (ix5 b co ci h v)) + bias (ix1 co) := by
  unfold resTerm
  rw [addf_apply]
  refine congrArg₂ (· + ·) ?_ ?_
  · simp only [Host.reduceAdd, Ideal.hostReduceAdd_def]
    rw [Ideal.hostReduceAdd_single reducesTo_S4x32x32x80x80_S4x32x80x80_d2 (by decide)]
    refine congrArg₂ (· + ·) rfl (Finset.sum_congr rfl fun ci _ => congrArg _ (funext fun a => Fin.ext ?_))
    match a with
    | ⟨0, _⟩ => rfl
    | ⟨1, _⟩ => rfl
    | ⟨2, _⟩ => rfl
    | ⟨3, _⟩ => rfl
    | ⟨4, _⟩ => rfl
  · rw [broadcastInDim_apply _ _ _ _ (ix4 (0 : Fin 1) co (0 : Fin 1) (0 : Fin 1)) (fun a => match a with
        | ⟨0, _⟩ => by show (0 : ℕ) = if (1 : ℕ) = 1 then 0 else b.val; rw [if_pos rfl]
        | ⟨1, _⟩ => by show co.val = if (32 : ℕ) = 1 then 0 else co.val; rw [if_neg (by decide)]
        | ⟨2, _⟩ => by show (0 : ℕ) = if (1 : ℕ) = 1 then 0 else h.val; rw [if_pos rfl]
        | ⟨3, _⟩ => by show (0 : ℕ) = if (1 : ℕ) = 1 then 0 else v.val; rw [if_pos rfl]),
      broadcastInDim_apply _ _ _ _ (ix1 co) (fun a => match a with
        | ⟨0, _⟩ => by show co.val = if (32 : ℕ) = 1 then 0 else co.val; rw [if_neg (by decide)])]

end Cert.ReferenceIdeal.HandRun

end
-- ==== Proof.Final.lean ====
/-
  The kernel's output array is the reference's function of the arguments.

  At grid point t the body writes back, as block t of the output, the running sums over the input channels of the
  tap maxima of batch element t, plus the bias. Entry by entry this is the reference's composed term at
  (t, co, h, w): the kernel's weight entry (k, 5 m + n, co) is the reference's weight (co, k, m, n), the kernel's
  plane entry is the same entry of the same padded input, both tap maxima run over the taps in the same order from
  minus infinity, and the channel sum built one term at a time from zero is zero plus the sum (addition on the
  extended reals is associative and commutative; no finiteness is used). The four blocks tile the output array.
-/
import proofs.«130638_j10230612099335_2_alg».proof.Proof.BlockValue
import proofs.«130638_j10230612099335_2_alg».proof.Proof.RefTerm

set_option maxRecDepth 16384

noncomputable section

namespace Cert.KernelIdeal.Body

open Cert.KernelIdeal Cert.KernelIdeal.Gen Cert.MaxPlus Cert.MaxPlus.Trip

open Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- What the output array ends holding: the reference's composed term of the three arguments. -/
def G (c : Dev nD) : S4x32x80x80.Idx → EReal :=
  Cert.ReferenceIdeal.HandRun.resTerm (F := Ideal) (m ((c : Thread nD τ).loc main_arg0)) (m ((c : Thread nD τ).loc main_arg1))
    (m ((c : Thread nD τ).loc main_arg2))

/-- An entry of the block point t leaves is the entry (t, co, h, w) of the reference's term. -/
theorem outsAt_apply (c : Dev nD) (t : Fin cfg0.N) (j : S1x32x80x80.Idx) :
    outsAt m c t j = G m c (ix4 (⟨t.val, t_lt t⟩ : Fin 4) (j 1) (j 2) (j 3)) := by
  obtain ⟨u, co, h, w, rfl⟩ : ∃ (u : Fin 1) (co : Fin 32) (h w : Fin 80), j = ix4 u co h w := ⟨j 0, j 1, j 2, j 3, eq_ix4 j⟩
  obtain rfl : u = 0 := Subsingleton.elim _ _
  show outsAt m c t (ix4 (0 : Fin 1) co h w) = G m c (ix4 (⟨t.val, t_lt t⟩ : Fin 4) co h w)
  unfold outsAt G
  rw [block_apply, Cert.ReferenceIdeal.HandRun.resTerm_apply, iblk2_apply]
  refine congrArg₂ (· + ·) (congrArg₂ (· + ·) rfl (Finset.sum_congr rfl fun k _ => ?_)) rfl
  rw [Cert.ReferenceIdeal.HandRun.maxAll_apply]
  unfold chanTap
  rw [dif_pos k.isLt]
  refine congrArg₂ tapMax rfl (funext fun mm => funext fun nn => ?_)
  rw [iblk1_apply, iblk0_apply]
  rfl

/-- What point t writes back is block t of the reference's term. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext j
  show outsAt m c t j = G m c (((cfg0.win 3).blk t).view.emb j)
  rw [outsAt_apply]
  obtain ⟨-, -, -, -, -, -, -, -, -, e0, e1, e2, e3⟩ := idx_facts t
  refine congrArg (G m c) (funext fun d => Fin.ext ?_)
  match d with
  | ⟨0, _⟩ => show t.val = win0_3.index t (0 : Fin 4) * 1 + 1 * (j 0).val; have hj : (j 0).val < 1 := (j 0).isLt; omega
  | ⟨1, _⟩ => show (j 1).val = win0_3.index t (1 : Fin 4) * 32 + 1 * (j 1).val; omega
  | ⟨2, _⟩ => show (j 2).val = win0_3.index t (2 : Fin 4) * 80 + 1 * (j 2).val; omega
  | ⟨3, _⟩ => show (j 3).val = win0_3.index t (3 : Fin 4) * 80 + 1 * (j 3).val; omega

/-- An index of the output array is in point t's block iff each coordinate is in the block's range on its axis. -/
theorem mem_blk (t : Fin cfg0.N) (i : S4x32x80x80.Idx) :
    i ∈ ((cfg0.win 3).blk t).view.set ↔ ∀ a : Fin 4, win0_3.index t a * S1x32x80x80.size a ≤ (i a).val
      ∧ (i a).val < win0_3.index t a * S1x32x80x80.size a + S1x32x80x80.size a := by
  show i ∈ ((View.whole main_v4).slice (win0_3.rect t)).set ↔ _
  rw [View.set_slice_whole, Rect.mem_set_unit]
  exact Iff.rfl

/-- Every index of the output array lies in the block of the point of its batch coordinate. -/
theorem covered (i : S4x32x80x80.Idx) :
    ∃ t : Fin cfg0.N, (cfg0.win 3).flush t = true ∧ i ∈ ((cfg0.win 3).blk t).view.set := by
  have hi0 : (i 0).val < 4 := (i 0).isLt
  refine ⟨⟨(i 0).val, by rw [show cfg0.N = 4 from N_0]; exact hi0⟩, flush0_3 _, ?_⟩
  rw [mem_blk]
  obtain ⟨-, -, -, -, -, -, -, -, -, e0, e1, e2, e3⟩ := idx_facts ⟨(i 0).val, by rw [show cfg0.N = 4 from N_0]; exact hi0⟩
  intro a
  match a with
  | ⟨0, _⟩ => show win0_3.index _ (0 : Fin 4) * 1 ≤ (i 0).val ∧ (i 0).val < win0_3.index _ (0 : Fin 4) * 1 + 1; have e0' : win0_3.index (⟨(i 0).val, by rw [show cfg0.N = 4 from N_0]; exact hi0⟩ : Fin cfg0.N) (0 : Fin 4) = (i 0).val := e0; omega
  | ⟨1, _⟩ => show win0_3.index _ (1 : Fin 4) * 32 ≤ (i 1).val ∧ (i 1).val < win0_3.index _ (1 : Fin 4) * 32 + 32; have h1 : (i 1).val < 32 := (i 1).isLt; omega
  | ⟨2, _⟩ => show win0_3.index _ (2 : Fin 4) * 80 ≤ (i 2).val ∧ (i 2).val < win0_3.index _ (2 : Fin 4) * 80 + 80; have h2 : (i 2).val < 80 := (i 2).isLt; omega
  | ⟨3, _⟩ => show win0_3.index _ (3 : Fin 4) * 80 ≤ (i 3).val ∧ (i 3).val < win0_3.index _ (3 : Fin 4) * 80 + 80; have h3 : (i 3).val < 80 := (i 3).isLt; omega

/-- The output array after the run is the reference's term. -/
theorem final (c : Dev nD) : (dats m 0 c).arrAt 3 cfg0.N = G m c :=
  (dats m 0 c).arrAt_eq_of_cover 3 (G m c) (fun t _ => flushed_eq m c t) covered

/-- The kernel's run with its result named: the output array ends at the reference's term of the arguments, the
    arguments unchanged. -/
theorem value_run : θ_run defs (onTc (τ := τ) (main (F := Ideal))) ⟨m, fun _ => 0, ρ⟩ fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Body

end
-- ==== Proof.RefOps.lean ====
/-
  The reference program as the list of its 235 host operations, in four stretches, and its run up to "every buffer
  holds the fold of the operations' results over the launch contents".

  The reference pads x with minus infinity; for each of the 25 taps it slices the padded input and the weights,
  spreads both over the index (batch, output channel, input channel, row, column), adds them and folds the result
  into a running maximum; it then sums over the input channel and adds the bias. The lists below are the program's
  operations in order (the padding function's two operations stand in its call's place), cut where the printed
  program is cut.
-/
import proofs.«130638_j10230612099335_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations of statements 1–60 of the program, in order. -/
abbrev ops0 : List (HloOp τ sig (Elt F)) :=
  [ nullary main_cst (constant S_ .f32 0xFF800000#32),
    TRef.unary (TRef.of (T := ⟨S_, .f32⟩) main_cst) (TRef.of (T := ⟨S_, .f32⟩) main_call0_v0) id,
    TRef.binary (TRef.of (T := ⟨S4x32x80x80, .f32⟩) main_arg0) (TRef.of (T := ⟨S_, .f32⟩) main_call0_v0) (TRef.of (T := ⟨S4x32x84x84, .f32⟩) main_v0) (fun x v => pad S4x32x84x84 ![0, 0, 2, 2] ![0, 0, 2, 2] ![0, 0, 0, 0] x v pads_S4x32x80x80_S4x32x84x84_000_000_220_220 h_S_),
    nullary main_cst_0 (constant S_ .f32 0xFF800000#32),
    unary main_cst_0 main_v1 (broadcastInDim S4x32x32x80x80 ![] bcast_S_S4x32x32x80x80 : (⟨S_, .f32⟩ : BufTy).Contents (Elt F) → (⟨S4x32x32x80x80, .f32⟩ : BufTy).Contents (Elt F)),
    unary main_v0 main_v2 ((extractStridedSlice S4x32x80x80 ![0, 0, 0, 0] · slices_S4x32x84x84_S4x32x80x80_0_0_0_0) : (⟨S4x32x84x84, .f32⟩ : BufTy).Contents (Elt F) → (⟨S4x32x80x80, .f32⟩ : BufTy).Contents (Elt F)),
    unary main_v2 main_v3 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v4 ((extractStridedSlice S32x32x1x1 ![0, 0, 0, 0] · slices_S32x32x5x5_S32x32x1x1_0_0_0_0) : (⟨S32x32x5x5, .f32⟩ : BufTy).Contents (Elt F) → (⟨S32x32x1x1, .f32⟩ : BufTy).Contents (Elt F)),
    reshape main_v4 main_v5 rfl shapeCasts_S32x32x1x1_S32x32,
    unary main_v5 main_v6 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v3 main_v7 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v6 main_v8 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v7 main_v8 main_v9 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v1 main_v9 main_v10 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v11 ((extractStridedSlice S4x32x80x80 ![0, 0, 0, 1] · slices_S4x32x84x84_S4x32x80x80_0_0_0_1) : (⟨S4x32x84x84, .f32⟩ : BufTy).Contents (Elt F) → (⟨S4x32x80x80, .f32⟩ : BufTy).Contents (Elt F)),
    unary main_v11 main_v12 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v13 ((extractStridedSlice S32x32x1x1 ![0, 0, 0, 1] · slices_S32x32x5x5_S32x32x1x1_0_0_0_1) : (⟨S32x32x5x5, .f32⟩ : BufTy).Contents (Elt F) → (⟨S32x32x1x1, .f32⟩ : BufTy).Contents (Elt F)),
    reshape main_v13 main_v14 rfl shapeCasts_S32x32x1x1_S32x32,
    unary main_v14 main_v15 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v12 main_v16 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v15 main_v17 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v16 main_v17 main_v18 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v10 main_v18 main_v19 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v20 ((extractStridedSlice S4x32x80x80 ![0, 0, 0, 2] · slices_S4x32x84x84_S4x32x80x80_0_0_0_2) : (⟨S4x32x84x84, .f32⟩ : BufTy).Contents (Elt F) → (⟨S4x32x80x80, .f32⟩ : BufTy).Contents (Elt F)),
    unary main_v20 main_v21 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v22 ((extractStridedSlice S32x32x1x1 ![0, 0, 0, 2] · slices_S32x32x5x5_S32x32x1x1_0_0_0_2) : (⟨S32x32x5x5, .f32⟩ : BufTy).Contents (Elt F) → (⟨S32x32x1x1, .f32⟩ : BufTy).Contents (Elt F)),
    reshape main_v22 main_v23 rfl shapeCasts_S32x32x1x1_S32x32,
    unary main_v23 main_v24 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v21 main_v25 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v24 main_v26 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v25 main_v26 main_v27 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v19 main_v27 main_v28 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v29 ((extractStridedSlice S4x32x80x80 ![0, 0, 0, 3] · slices_S4x32x84x84_S4x32x80x80_0_0_0_3) : (⟨S4x32x84x84, .f32⟩ : BufTy).Contents (Elt F) → (⟨S4x32x80x80, .f32⟩ : BufTy).Contents (Elt F)),
    unary main_v29 main_v30 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v31 ((extractStridedSlice S32x32x1x1 ![0, 0, 0, 3] · slices_S32x32x5x5_S32x32x1x1_0_0_0_3) : (⟨S32x32x5x5, .f32⟩ : BufTy).Contents (Elt F) → (⟨S32x32x1x1, .f32⟩ : BufTy).Contents (Elt F)),
    reshape main_v31 main_v32 rfl shapeCasts_S32x32x1x1_S32x32,
    unary main_v32 main_v33 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v30 main_v34 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v33 main_v35 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v34 main_v35 main_v36 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v28 main_v36 main_v37 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v38 ((extractStridedSlice S4x32x80x80 ![0, 0, 0, 4] · slices_S4x32x84x84_S4x32x80x80_0_0_0_4) : (⟨S4x32x84x84, .f32⟩ : BufTy).Contents (Elt F) → (⟨S4x32x80x80, .f32⟩ : BufTy).Contents (Elt F)),
    unary main_v38 main_v39 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v40 ((extractStridedSlice S32x32x1x1 ![0, 0, 0, 4] · slices_S32x32x5x5_S32x32x1x1_0_0_0_4) : (⟨S32x32x5x5, .f32⟩ : BufTy).Contents (Elt F) → (⟨S32x32x1x1, .f32⟩ : BufTy).Contents (Elt F)),
    reshape main_v40 main_v41 rfl shapeCasts_S32x32x1x1_S32x32,
    unary main_v41 main_v42 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v39 main_v43 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v42 main_v44 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v43 main_v44 main_v45 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v37 main_v45 main_v46 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v47 ((extractStridedSlice S4x32x80x80 ![0, 0, 1, 0] · slices_S4x32x84x84_S4x32x80x80_0_0_1_0) : (⟨S4x32x84x84, .f32⟩ : BufTy).Contents (Elt F) → (⟨S4x32x80x80, .f32⟩ : BufTy).Contents (Elt F)),
    unary main_v47 main_v48 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v49 ((extractStridedSlice S32x32x1x1 ![0, 0, 1, 0] · slices_S32x32x5x5_S32x32x1x1_0_0_1_0) : (⟨S32x32x5x5, .f32⟩ : BufTy).Contents (Elt F) → (⟨S32x32x1x1, .f32⟩ : BufTy).Contents (Elt F)),
    reshape main_v49 main_v50 rfl shapeCasts_S32x32x1x1_S32x32,
    unary main_v50 main_v51 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v48 main_v52 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v51 main_v53 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v52 main_v53 main_v54 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v46 main_v54 main_v55 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v56 ((extractStridedSlice S4x32x80x80 ![0, 0, 1, 1] · slices_S4x32x84x84_S4x32x80x80_0_0_1_1) : (⟨S4x32x84x84, .f32⟩ : BufTy).Contents (Elt F) → (⟨S4x32x80x80, .f32⟩ : BufTy).Contents (Elt F)),
    unary main_v56 main_v57 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)) ]

set_option maxRecDepth 8192 in
set_option maxHeartbeats 4000000 in
theorem part0_eq (d : Dev nD) : main_part0 (F := F) d = seq ops0 := rfl
set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub ..⟩
set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations of statements 61–120 of the program, in order. -/
abbrev ops1 : List (HloOp τ sig (Elt F)) :=
  [ unary main_arg1 main_v58 ((extractStridedSlice S32x32x1x1 ![0, 0, 1, 1] · slices_S32x32x5x5_S32x32x1x1_0_0_1_1) : (⟨S32x32x5x5, .f32⟩ : BufTy).Contents (Elt F) → (⟨S32x32x1x1, .f32⟩ : BufTy).Contents (Elt F)),
    reshape main_v58 main_v59 rfl shapeCasts_S32x32x1x1_S32x32,
    unary main_v59 main_v60 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v57 main_v61 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v60 main_v62 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v61 main_v62 main_v63 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v55 main_v63 main_v64 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v65 ((extractStridedSlice S4x32x80x80 ![0, 0, 1, 2] · slices_S4x32x84x84_S4x32x80x80_0_0_1_2) : (⟨S4x32x84x84, .f32⟩ : BufTy).Contents (Elt F) → (⟨S4x32x80x80, .f32⟩ : BufTy).Contents (Elt F)),
    unary main_v65 main_v66 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v67 ((extractStridedSlice S32x32x1x1 ![0, 0, 1, 2] · slices_S32x32x5x5_S32x32x1x1_0_0_1_2) : (⟨S32x32x5x5, .f32⟩ : BufTy).Contents (Elt F) → (⟨S32x32x1x1, .f32⟩ : BufTy).Contents (Elt F)),
    reshape main_v67 main_v68 rfl shapeCasts_S32x32x1x1_S32x32,
    unary main_v68 main_v69 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v66 main_v70 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v69 main_v71 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v70 main_v71 main_v72 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v64 main_v72 main_v73 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v74 ((extractStridedSlice S4x32x80x80 ![0, 0, 1, 3] · slices_S4x32x84x84_S4x32x80x80_0_0_1_3) : (⟨S4x32x84x84, .f32⟩ : BufTy).Contents (Elt F) → (⟨S4x32x80x80, .f32⟩ : BufTy).Contents (Elt F)),
    unary main_v74 main_v75 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v76 ((extractStridedSlice S32x32x1x1 ![0, 0, 1, 3] · slices_S32x32x5x5_S32x32x1x1_0_0_1_3) : (⟨S32x32x5x5, .f32⟩ : BufTy).Contents (Elt F) → (⟨S32x32x1x1, .f32⟩ : BufTy).Contents (Elt F)),
    reshape main_v76 main_v77 rfl shapeCasts_S32x32x1x1_S32x32,
    unary main_v77 main_v78 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v75 main_v79 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v78 main_v80 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v79 main_v80 main_v81 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v73 main_v81 main_v82 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v83 ((extractStridedSlice S4x32x80x80 ![0, 0, 1, 4] · slices_S4x32x84x84_S4x32x80x80_0_0_1_4) : (⟨S4x32x84x84, .f32⟩ : BufTy).Contents (Elt F) → (⟨S4x32x80x80, .f32⟩ : BufTy).Contents (Elt F)),
    unary main_v83 main_v84 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v85 ((extractStridedSlice S32x32x1x1 ![0, 0, 1, 4] · slices_S32x32x5x5_S32x32x1x1_0_0_1_4) : (⟨S32x32x5x5, .f32⟩ : BufTy).Contents (Elt F) → (⟨S32x32x1x1, .f32⟩ : BufTy).Contents (Elt F)),
    reshape main_v85 main_v86 rfl shapeCasts_S32x32x1x1_S32x32,
    unary main_v86 main_v87 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v84 main_v88 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v87 main_v89 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v88 main_v89 main_v90 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v82 main_v90 main_v91 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v92 ((extractStridedSlice S4x32x80x80 ![0, 0, 2, 0] · slices_S4x32x84x84_S4x32x80x80_0_0_2_0) : (⟨S4x32x84x84, .f32⟩ : BufTy).Contents (Elt F) → (⟨S4x32x80x80, .f32⟩ : BufTy).Contents (Elt F)),
    unary main_v92 main_v93 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v94 ((extractStridedSlice S32x32x1x1 ![0, 0, 2, 0] · slices_S32x32x5x5_S32x32x1x1_0_0_2_0) : (⟨S32x32x5x5, .f32⟩ : BufTy).Contents (Elt F) → (⟨S32x32x1x1, .f32⟩ : BufTy).Contents (Elt F)),
    reshape main_v94 main_v95 rfl shapeCasts_S32x32x1x1_S32x32,
    unary main_v95 main_v96 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v93 main_v97 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v96 main_v98 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v97 main_v98 main_v99 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v91 main_v99 main_v100 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v101 ((extractStridedSlice S4x32x80x80 ![0, 0, 2, 1] · slices_S4x32x84x84_S4x32x80x80_0_0_2_1) : (⟨S4x32x84x84, .f32⟩ : BufTy).Contents (Elt F) → (⟨S4x32x80x80, .f32⟩ : BufTy).Contents (Elt F)),
    unary main_v101 main_v102 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v103 ((extractStridedSlice S32x32x1x1 ![0, 0, 2, 1] · slices_S32x32x5x5_S32x32x1x1_0_0_2_1) : (⟨S32x32x5x5, .f32⟩ : BufTy).Contents (Elt F) → (⟨S32x32x1x1, .f32⟩ : BufTy).Contents (Elt F)),
    reshape main_v103 main_v104 rfl shapeCasts_S32x32x1x1_S32x32,
    unary main_v104 main_v105 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v102 main_v106 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v105 main_v107 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v106 main_v107 main_v108 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v100 main_v108 main_v109 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v110 ((extractStridedSlice S4x32x80x80 ![0, 0, 2, 2] · slices_S4x32x84x84_S4x32x80x80_0_0_2_2) : (⟨S4x32x84x84, .f32⟩ : BufTy).Contents (Elt F) → (⟨S4x32x80x80, .f32⟩ : BufTy).Contents (Elt F)),
    unary main_v110 main_v111 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v112 ((extractStridedSlice S32x32x1x1 ![0, 0, 2, 2] · slices_S32x32x5x5_S32x32x1x1_0_0_2_2) : (⟨S32x32x5x5, .f32⟩ : BufTy).Contents (Elt F) → (⟨S32x32x1x1, .f32⟩ : BufTy).Contents (Elt F)),
    reshape main_v112 main_v113 rfl shapeCasts_S32x32x1x1_S32x32,
    unary main_v113 main_v114 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v111 main_v115 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v114 main_v116 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v115 main_v116 main_v117 (addf : (⟨S4x32x32x80x80, .f32⟩ : BufTy).Contents (Elt F) → (⟨S4x32x32x80x80, .f32⟩ : BufTy).Contents (Elt F) → (⟨S4x32x32x80x80, .f32⟩ : BufTy).Contents (Elt F)) ]

set_option maxRecDepth 8192 in
set_option maxHeartbeats 4000000 in
theorem part1_eq (d : Dev nD) : main_part1 (F := F) d = seq ops1 := rfl
set_option maxRecDepth 8192 in
theorem ops1_sub : (ops1 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub ..⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations of statements 121–180 of the program, in order. -/
abbrev ops2 : List (HloOp τ sig (Elt F)) :=
  [ binary main_v109 main_v117 main_v118 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v119 ((extractStridedSlice S4x32x80x80 ![0, 0, 2, 3] · slices_S4x32x84x84_S4x32x80x80_0_0_2_3) : (⟨S4x32x84x84, .f32⟩ : BufTy).Contents (Elt F) → (⟨S4x32x80x80, .f32⟩ : BufTy).Contents (Elt F)),
    unary main_v119 main_v120 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v121 ((extractStridedSlice S32x32x1x1 ![0, 0, 2, 3] · slices_S32x32x5x5_S32x32x1x1_0_0_2_3) : (⟨S32x32x5x5, .f32⟩ : BufTy).Contents (Elt F) → (⟨S32x32x1x1, .f32⟩ : BufTy).Contents (Elt F)),
    reshape main_v121 main_v122 rfl shapeCasts_S32x32x1x1_S32x32,
    unary main_v122 main_v123 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v120 main_v124 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v123 main_v125 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v124 main_v125 main_v126 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v118 main_v126 main_v127 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v128 ((extractStridedSlice S4x32x80x80 ![0, 0, 2, 4] · slices_S4x32x84x84_S4x32x80x80_0_0_2_4) : (⟨S4x32x84x84, .f32⟩ : BufTy).Contents (Elt F) → (⟨S4x32x80x80, .f32⟩ : BufTy).Contents (Elt F)),
    unary main_v128 main_v129 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v130 ((extractStridedSlice S32x32x1x1 ![0, 0, 2, 4] · slices_S32x32x5x5_S32x32x1x1_0_0_2_4) : (⟨S32x32x5x5, .f32⟩ : BufTy).Contents (Elt F) → (⟨S32x32x1x1, .f32⟩ : BufTy).Contents (Elt F)),
    reshape main_v130 main_v131 rfl shapeCasts_S32x32x1x1_S32x32,
    unary main_v131 main_v132 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v129 main_v133 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v132 main_v134 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v133 main_v134 main_v135 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v127 main_v135 main_v136 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v137 ((extractStridedSlice S4x32x80x80 ![0, 0, 3, 0] · slices_S4x32x84x84_S4x32x80x80_0_0_3_0) : (⟨S4x32x84x84, .f32⟩ : BufTy).Contents (Elt F) → (⟨S4x32x80x80, .f32⟩ : BufTy).Contents (Elt F)),
    unary main_v137 main_v138 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v139 ((extractStridedSlice S32x32x1x1 ![0, 0, 3, 0] · slices_S32x32x5x5_S32x32x1x1_0_0_3_0) : (⟨S32x32x5x5, .f32⟩ : BufTy).Contents (Elt F) → (⟨S32x32x1x1, .f32⟩ : BufTy).Contents (Elt F)),
    reshape main_v139 main_v140 rfl shapeCasts_S32x32x1x1_S32x32,
    unary main_v140 main_v141 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v138 main_v142 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v141 main_v143 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v142 main_v143 main_v144 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v136 main_v144 main_v145 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v146 ((extractStridedSlice S4x32x80x80 ![0, 0, 3, 1] · slices_S4x32x84x84_S4x32x80x80_0_0_3_1) : (⟨S4x32x84x84, .f32⟩ : BufTy).Contents (Elt F) → (⟨S4x32x80x80, .f32⟩ : BufTy).Contents (Elt F)),
    unary main_v146 main_v147 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v148 ((extractStridedSlice S32x32x1x1 ![0, 0, 3, 1] · slices_S32x32x5x5_S32x32x1x1_0_0_3_1) : (⟨S32x32x5x5, .f32⟩ : BufTy).Contents (Elt F) → (⟨S32x32x1x1, .f32⟩ : BufTy).Contents (Elt F)),
    reshape main_v148 main_v149 rfl shapeCasts_S32x32x1x1_S32x32,
    unary main_v149 main_v150 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v147 main_v151 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v150 main_v152 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v151 main_v152 main_v153 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v145 main_v153 main_v154 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v155 ((extractStridedSlice S4x32x80x80 ![0, 0, 3, 2] · slices_S4x32x84x84_S4x32x80x80_0_0_3_2) : (⟨S4x32x84x84, .f32⟩ : BufTy).Contents (Elt F) → (⟨S4x32x80x80, .f32⟩ : BufTy).Contents (Elt F)),
    unary main_v155 main_v156 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v157 ((extractStridedSlice S32x32x1x1 ![0, 0, 3, 2] · slices_S32x32x5x5_S32x32x1x1_0_0_3_2) : (⟨S32x32x5x5, .f32⟩ : BufTy).Contents (Elt F) → (⟨S32x32x1x1, .f32⟩ : BufTy).Contents (Elt F)),
    reshape main_v157 main_v158 rfl shapeCasts_S32x32x1x1_S32x32,
    unary main_v158 main_v159 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v156 main_v160 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v159 main_v161 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v160 main_v161 main_v162 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v154 main_v162 main_v163 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v164 ((extractStridedSlice S4x32x80x80 ![0, 0, 3, 3] · slices_S4x32x84x84_S4x32x80x80_0_0_3_3) : (⟨S4x32x84x84, .f32⟩ : BufTy).Contents (Elt F) → (⟨S4x32x80x80, .f32⟩ : BufTy).Contents (Elt F)),
    unary main_v164 main_v165 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v166 ((extractStridedSlice S32x32x1x1 ![0, 0, 3, 3] · slices_S32x32x5x5_S32x32x1x1_0_0_3_3) : (⟨S32x32x5x5, .f32⟩ : BufTy).Contents (Elt F) → (⟨S32x32x1x1, .f32⟩ : BufTy).Contents (Elt F)),
    reshape main_v166 main_v167 rfl shapeCasts_S32x32x1x1_S32x32,
    unary main_v167 main_v168 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v165 main_v169 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v168 main_v170 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v169 main_v170 main_v171 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v163 main_v171 main_v172 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v173 ((extractStridedSlice S4x32x80x80 ![0, 0, 3, 4] · slices_S4x32x84x84_S4x32x80x80_0_0_3_4) : (⟨S4x32x84x84, .f32⟩ : BufTy).Contents (Elt F) → (⟨S4x32x80x80, .f32⟩ : BufTy).Contents (Elt F)),
    unary main_v173 main_v174 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v175 ((extractStridedSlice S32x32x1x1 ![0, 0, 3, 4] · slices_S32x32x5x5_S32x32x1x1_0_0_3_4) : (⟨S32x32x5x5, .f32⟩ : BufTy).Contents (Elt F) → (⟨S32x32x1x1, .f32⟩ : BufTy).Contents (Elt F)),
    reshape main_v175 main_v176 rfl shapeCasts_S32x32x1x1_S32x32,
    unary main_v176 main_v177 (broadcastInDim S1x32x32x1x1 ![1, 2] bcast_S32x32_S1x32x32x1x1_1_2 : (⟨S32x32, .f32⟩ : BufTy).Contents (Elt F) → (⟨S1x32x32x1x1, .f32⟩ : BufTy).Contents (Elt F)) ]

set_option maxRecDepth 8192 in
set_option maxHeartbeats 4000000 in
theorem part2_eq (d : Dev nD) : main_part2 (F := F) d = seq ops2 := rfl
set_option maxRecDepth 8192 in
theorem ops2_sub : (ops2 : List (HloOp τ sig (Elt F))).Forall fun op => op.bufs ⊆ tcRefs τ sig :=
  ⟨binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub ..⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations of statements 181–235 of the program, in order. -/
abbrev ops3 : List (HloOp τ sig (Elt F)) :=
  [ unary main_v174 main_v178 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v177 main_v179 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v178 main_v179 main_v180 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v172 main_v180 main_v181 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v182 ((extractStridedSlice S4x32x80x80 ![0, 0, 4, 0] · slices_S4x32x84x84_S4x32x80x80_0_0_4_0) : (⟨S4x32x84x84, .f32⟩ : BufTy).Contents (Elt F) → (⟨S4x32x80x80, .f32⟩ : BufTy).Contents (Elt F)),
    unary main_v182 main_v183 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v184 ((extractStridedSlice S32x32x1x1 ![0, 0, 4, 0] · slices_S32x32x5x5_S32x32x1x1_0_0_4_0) : (⟨S32x32x5x5, .f32⟩ : BufTy).Contents (Elt F) → (⟨S32x32x1x1, .f32⟩ : BufTy).Contents (Elt F)),
    reshape main_v184 main_v185 rfl shapeCasts_S32x32x1x1_S32x32,
    unary main_v185 main_v186 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v183 main_v187 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v186 main_v188 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v187 main_v188 main_v189 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v181 main_v189 main_v190 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v191 ((extractStridedSlice S4x32x80x80 ![0, 0, 4, 1] · slices_S4x32x84x84_S4x32x80x80_0_0_4_1) : (⟨S4x32x84x84, .f32⟩ : BufTy).Contents (Elt F) → (⟨S4x32x80x80, .f32⟩ : BufTy).Contents (Elt F)),
    unary main_v191 main_v192 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v193 ((extractStridedSlice S32x32x1x1 ![0, 0, 4, 1] · slices_S32x32x5x5_S32x32x1x1_0_0_4_1) : (⟨S32x32x5x5, .f32⟩ : BufTy).Contents (Elt F) → (⟨S32x32x1x1, .f32⟩ : BufTy).Contents (Elt F)),
    reshape main_v193 main_v194 rfl shapeCasts_S32x32x1x1_S32x32,
    unary main_v194 main_v195 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v192 main_v196 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v195 main_v197 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v196 main_v197 main_v198 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v190 main_v198 main_v199 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v200 ((extractStridedSlice S4x32x80x80 ![0, 0, 4, 2] · slices_S4x32x84x84_S4x32x80x80_0_0_4_2) : (⟨S4x32x84x84, .f32⟩ : BufTy).Contents (Elt F) → (⟨S4x32x80x80, .f32⟩ : BufTy).Contents (Elt F)),
    unary main_v200 main_v201 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v202 ((extractStridedSlice S32x32x1x1 ![0, 0, 4, 2] · slices_S32x32x5x5_S32x32x1x1_0_0_4_2) : (⟨S32x32x5x5, .f32⟩ : BufTy).Contents (Elt F) → (⟨S32x32x1x1, .f32⟩ : BufTy).Contents (Elt F)),
    reshape main_v202 main_v203 rfl shapeCasts_S32x32x1x1_S32x32,
    unary main_v203 main_v204 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v201 main_v205 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v204 main_v206 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v205 main_v206 main_v207 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v199 main_v207 main_v208 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v209 ((extractStridedSlice S4x32x80x80 ![0, 0, 4, 3] · slices_S4x32x84x84_S4x32x80x80_0_0_4_3) : (⟨S4x32x84x84, .f32⟩ : BufTy).Contents (Elt F) → (⟨S4x32x80x80, .f32⟩ : BufTy).Contents (Elt F)),
    unary main_v209 main_v210 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v211 ((extractStridedSlice S32x32x1x1 ![0, 0, 4, 3] · slices_S32x32x5x5_S32x32x1x1_0_0_4_3) : (⟨S32x32x5x5, .f32⟩ : BufTy).Contents (Elt F) → (⟨S32x32x1x1, .f32⟩ : BufTy).Contents (Elt F)),
    reshape main_v211 main_v212 rfl shapeCasts_S32x32x1x1_S32x32,
    unary main_v212 main_v213 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v210 main_v214 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v213 main_v215 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v214 main_v215 main_v216 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v208 main_v216 main_v217 (maximumf : (⟨S4x32x32x80x80, .f32⟩ : BufTy).Contents (Elt F) → (⟨S4x32x32x80x80, .f32⟩ : BufTy).Contents (Elt F) → (⟨S4x32x32x80x80, .f32⟩ : BufTy).Contents (Elt F)),
    unary main_v0 main_v218 ((extractStridedSlice S4x32x80x80 ![0, 0, 4, 4] · slices_S4x32x84x84_S4x32x80x80_0_0_4_4) : (⟨S4x32x84x84, .f32⟩ : BufTy).Contents (Elt F) → (⟨S4x32x80x80, .f32⟩ : BufTy).Contents (Elt F)),
    unary main_v218 main_v219 (broadcastInDim S4x1x32x80x80 ![0, 2, 3, 4] bcast_S4x32x80x80_S4x1x32x80x80_0_2_3_4 : (⟨S4x32x80x80, .f32⟩ : BufTy).Contents (Elt F) → (⟨S4x1x32x80x80, .f32⟩ : BufTy).Contents (Elt F)),
    unary main_arg1 main_v220 ((extractStridedSlice S32x32x1x1 ![0, 0, 4, 4] · slices_S32x32x5x5_S32x32x1x1_0_0_4_4) : (⟨S32x32x5x5, .f32⟩ : BufTy).Contents (Elt F) → (⟨S32x32x1x1, .f32⟩ : BufTy).Contents (Elt F)),
    reshape main_v220 main_v221 rfl shapeCasts_S32x32x1x1_S32x32,
    unary main_v221 main_v222 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v219 main_v223 (broadcastInDim S4x32x32x80x80 ![0, 1, 2, 3, 4] bcast_S4x1x32x80x80_S4x32x32x80x80_0_1_2_3_4 : (⟨S4x1x32x80x80, .f32⟩ : BufTy).Contents (Elt F) → (⟨S4x32x32x80x80, .f32⟩ : BufTy).Contents (Elt F)),
    unary main_v222 main_v224 (broadcastInDim S4x32x32x80x80 ![0, 1, 2, 3, 4] bcast_S1x32x32x1x1_S4x32x32x80x80_0_1_2_3_4 : (⟨S1x32x32x1x1, .f32⟩ : BufTy).Contents (Elt F) → (⟨S4x32x32x80x80, .f32⟩ : BufTy).Contents (Elt F)),
    binary main_v223 main_v224 main_v225 (addf : (⟨S4x32x32x80x80, .f32⟩ : BufTy).Contents (Elt F) → (⟨S4x32x32x80x80, .f32⟩ : BufTy).Contents (Elt F) → (⟨S4x32x32x80x80, .f32⟩ : BufTy).Contents (Elt F)),
    binary main_v217 main_v225 main_v226 (maximumf : (⟨S4x32x32x80x80, .f32⟩ : BufTy).Contents (Elt F) → (⟨S4x32x32x80x80, .f32⟩ : BufTy).Contents (Elt F) → (⟨S4x32x32x80x80, .f32⟩ : BufTy).Contents (Elt F)),
    nullary main_cst_1 (constant S_ .f32 0x00000000#32),
    binary main_v226 main_cst_1 main_v227 ((fun x v => Host.reduceAdd x v reducesTo_S4x32x32x80x80_S4x32x80x80_d2 h_S_) : (⟨S4x32x32x80x80, .f32⟩ : BufTy).Contents (Elt F) → (⟨S_, .f32⟩ : BufTy).Contents (Elt F) → (⟨S4x32x80x80, .f32⟩ : BufTy).Contents (Elt F)),
    unary main_arg2 main_v228 (broadcastInDim S1x32x1x1 ![1] bcast_S32_S1x32x1x1_1 : (⟨S32, .f32⟩ : BufTy).Contents (Elt F) → (⟨S1x32x1x1, .f32⟩ : BufTy).Contents (Elt F)),
    unary main_v228 main_v229 (broadcastInDim S4x32x80x80 ![0, 1, 2, 3] bcast_S1x32x1x1_S4x32x80x80_0_1_2_3 : (⟨S1x32x1x1, .f32⟩ : BufTy).Contents (Elt F) → (⟨S4x32x80x80, .f32⟩ : BufTy).Contents (Elt F)),
    binary main_v227 main_v229 main_v230 (addf : (⟨S4x32x80x80, .f32⟩ : BufTy).Contents (Elt F) → (⟨S4x32x80x80, .f32⟩ : BufTy).Contents (Elt F) → (⟨S4x32x80x80, .f32⟩ : BufTy).Contents (Elt F)) ]

set_option maxRecDepth 8192 in
set_option maxHeartbeats 4000000 in
theorem part3_eq (d : Dev nD) : main_part3 (F := F) d = seq ops3 := rfl
set_option maxRecDepth 8192 in
theorem ops3_sub : (ops3 : List (HloOp τ sig (Elt F))).Forall fun op => op.bufs ⊆ tcRefs τ sig :=
  ⟨unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., unary_bufs_sub .., unary_bufs_sub .., unary_bufs_sub .., reshape_bufs_sub .., unary_bufs_sub .., unary_bufs_sub .., unary_bufs_sub .., binary_bufs_sub .., binary_bufs_sub .., nullary_bufs_sub .., binary_bufs_sub .., unary_bufs_sub .., unary_bufs_sub .., binary_bufs_sub ..⟩
set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The whole line. -/
abbrev ops : List (HloOp τ sig (Elt F)) := ops0 ++ (ops1 ++ (ops2 ++ ops3))

theorem main_eq (d : Dev nD) : main (F := F) d = seq ops := by
  unfold ops
  rw [seq_append, seq_append, seq_append, ← part0_eq d, ← part1_eq d, ← part2_eq d, ← part3_eq d]
  rfl

theorem scopedRefs_eq : (Finset.univ.filter fun b : Ref sig .tc => b.isScoped) = ∅ := by decide
theorem scopedSems_eq : (Finset.univ.filter fun sm : SemLoc sig => sm.isScoped .tc) = ∅ := by decide

theorem mem_ops {op : HloOp τ sig (Elt F)} (h : op ∈ (ops : List (HloOp τ sig (Elt F)))) :
    op ∈ (ops0 : List (HloOp τ sig (Elt F))) ∨ op ∈ (ops1 : List (HloOp τ sig (Elt F)))
      ∨ op ∈ (ops2 : List (HloOp τ sig (Elt F))) ∨ op ∈ (ops3 : List (HloOp τ sig (Elt F))) := by
  rcases List.mem_append.mp h with h | h
  · exact Or.inl h
  rcases List.mem_append.mp h with h | h
  · exact Or.inr (Or.inl h)
  rcases List.mem_append.mp h with h | h
  · exact Or.inr (Or.inr (Or.inl h))
  · exact Or.inr (Or.inr (Or.inr h))

theorem ops_sub : (ops : List (HloOp τ sig (Elt F))).Forall fun op => op.bufs ⊆ tcRefs τ sig :=
  List.forall_iff_forall_mem.mpr fun op h => by
    rcases mem_ops h with h | h | h | h
    · exact List.forall_iff_forall_mem.mp ops0_sub op h
    · exact List.forall_iff_forall_mem.mp ops1_sub op h
    · exact List.forall_iff_forall_mem.mp ops2_sub op h
    · exact List.forall_iff_forall_mem.mp ops3_sub op h

theorem ops_fresh : ∀ op ∈ (ops : List (HloOp τ sig (Elt F))), op.fresh = ∅ := fun op h => by
  rcases mem_ops h with h | h | h | h
  · exact List.forall_iff_forall_mem.mp ops0_fresh op h
  · exact List.forall_iff_forall_mem.mp ops1_fresh op h
  · exact List.forall_iff_forall_mem.mp ops2_fresh op h
  · exact List.forall_iff_forall_mem.mp ops3_fresh op h

/-- Every weakly fair execution of the reference ends, without a fault, with every buffer at the fold of the
    operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

end Cert.ReferenceIdeal.HandRun

end
-- ==== Proof.LibRunStages.lean ====
/-
  A straight line of host operations, followed one operation at a time.

  The contents of the buffers after a line of operations is the fold of the operations' results. Instead of
  composing all the results into one term, keep a list of the references written so far, each with the contents it
  is known to hold, and extend it by one entry per operation: an operation reads its operands' contents off the
  list, writes its result reference, which is not yet on the list, and leaves every listed reference as it was.
  What a later reader needs of a buffer is then one entry of the list, and every step compares terms that are one
  operation deep.
-/
import Idealize.ShloMosaic.Lib.StableHlo.Run

namespace Idealize.ShloMosaic.RunStages

open Idealize.ShloMosaic Idealize.ShloMosaic.StableHlo

variable {τ : Topo} {sig : RefSig} {Val : EltTy → Type}

/-- A reference with the contents it is known to hold. -/
abbrev Known (sig : RefSig) (Val : EltTy → Type) : Type := (r : Ref sig .tc) × r.ty.Contents Val

/-- The valuation holds the listed contents at every listed reference; `R` lists (at least) the references. -/
def Agrees (R : List (Ref sig .tc)) (K : List (Known sig Val)) (V : Valuation τ sig Val) : Prop :=
  (∀ p ∈ K, p.1 ∈ R) ∧ ∀ p ∈ K, V (Proc.devRef .tc p.1) = p.2

/-- The contents after the line satisfy `Q`. -/
def Ends (ops : List (HloOp τ sig Val)) (V : Valuation τ sig Val) (Q : Valuation τ sig Val → Prop) : Prop :=
  Q (after ops V)

theorem ends_nil {V : Valuation τ sig Val} {Q : Valuation τ sig Val → Prop} (h : Q V) : Ends [] V Q := h

/-- One entry read off the list. -/
theorem Agrees.read {R : List (Ref sig .tc)} {K : List (Known sig Val)} {V : Valuation τ sig Val} (h : Agrees R K V)
    (r : Ref sig .tc) (v : r.ty.Contents Val) (hm : (⟨r, v⟩ : Known sig Val) ∈ K) : V (Proc.devRef .tc r) = v :=
  h.2 ⟨r, v⟩ hm

/-- The list of one reference at the contents the valuation has there. -/
theorem agrees_single (r : Ref sig .tc) (V : Valuation τ sig Val) :
    Agrees [r] [(⟨r, V (Proc.devRef .tc r)⟩ : Known sig Val)] V :=
  ⟨fun p hp => by rw [List.mem_singleton.mp hp]; exact List.mem_singleton.mpr rfl,
   fun p hp => by rw [List.mem_singleton.mp hp]⟩

/-- An operation that writes `y` only, a reference not yet listed, extends the list by `y` at its result. -/
theorem agrees_cons {R : List (Ref sig .tc)} {K : List (Known sig Val)} {V : Valuation τ sig Val}
    (op : HloOp τ sig Val) (y : Ref sig .tc) (vy : y.ty.Contents Val) (h : Agrees R K V)
    (hne : ∀ r : Ref sig .tc, r ≠ y → op.result V (Proc.devRef .tc r) = V (Proc.devRef .tc r))
    (hy : op.result V (Proc.devRef .tc y) = vy) (hk : y ∉ R) :
    Agrees (y :: R) ((⟨y, vy⟩ : Known sig Val) :: K) (op.result V) := by
  refine ⟨fun p hp => ?_, fun p hp => ?_⟩
  · rcases List.mem_cons.mp hp with rfl | hp'
    · exact List.mem_cons_self
    · exact List.mem_cons_of_mem _ (h.1 p hp')
  · rcases List.mem_cons.mp hp with rfl | hp'
    · exact hy
    · have hpy : p.1 ≠ y := fun e => hk (e ▸ h.1 p hp')
      exact (hne p.1 hpy).trans (h.2 p hp')

section Steps

variable {R : List (Ref sig .tc)} {K : List (Known sig Val)} {V : Valuation τ sig Val}
  {Q : Valuation τ sig Val → Prop} {ops : List (HloOp τ sig Val)}

/-- A step through an operation with no operand. -/
theorem ends_nullary {y : Ref sig .tc} {v : y.ty.Contents Val} {hy} (h : Agrees R K V)
    (vy : y.ty.Contents Val) (hv : v = vy) (hk : y ∉ R)
    (k : ∀ V' : Valuation τ sig Val, Agrees (y :: R) ((⟨y, vy⟩ : Known sig Val) :: K) V' → Ends ops V' Q) :
    Ends (nullary (τ := τ) y v hy :: ops) V Q :=
  k _ (agrees_cons _ y vy h (fun _ hr => nullary_result_ne y v hy V hr) ((nullary_result y v hy V).trans hv) hk)

/-- A step through an operation with one operand. -/
theorem ends_unary {x y : Ref sig .tc} {f : x.ty.Contents Val → y.ty.Contents Val} {hx hy} (h : Agrees R K V)
    {vx : x.ty.Contents Val} (vy : y.ty.Contents Val) (hmx : (⟨x, vx⟩ : Known sig Val) ∈ K) (hv : f vx = vy) (hk : y ∉ R)
    (k : ∀ V' : Valuation τ sig Val, Agrees (y :: R) ((⟨y, vy⟩ : Known sig Val) :: K) V' → Ends ops V' Q) :
    Ends (unary (τ := τ) x y f hx hy :: ops) V Q :=
  k _ (agrees_cons _ y vy h (fun _ hr => unary_result_ne x y f hx hy V hr)
    ((unary_result x y f hx hy V).trans (by rw [h.read x vx hmx]; exact hv)) hk)

/-- A step through an operation with two operands. -/
theorem ends_binary {a b y : Ref sig .tc} {f : a.ty.Contents Val → b.ty.Contents Val → y.ty.Contents Val} {ha hb hy}
    (h : Agrees R K V) {va : a.ty.Contents Val} {vb : b.ty.Contents Val} (vy : y.ty.Contents Val)
    (hma : (⟨a, va⟩ : Known sig Val) ∈ K) (hmb : (⟨b, vb⟩ : Known sig Val) ∈ K) (hv : f va vb = vy) (hk : y ∉ R)
    (k : ∀ V' : Valuation τ sig Val, Agrees (y :: R) ((⟨y, vy⟩ : Known sig Val) :: K) V' → Ends ops V' Q) :
    Ends (binary (τ := τ) a b y f ha hb hy :: ops) V Q :=
  k _ (agrees_cons _ y vy h (fun _ hr => binary_result_ne a b y f ha hb hy V hr)
    ((binary_result a b y f ha hb hy V).trans (by rw [h.read a va hma, h.read b vb hmb]; exact hv)) hk)

/-- A step through an operation with three operands. -/
theorem ends_ternary {c a b y : Ref sig .tc}
    {f : c.ty.Contents Val → a.ty.Contents Val → b.ty.Contents Val → y.ty.Contents Val} {hc ha hb hy}
    (h : Agrees R K V) {vc : c.ty.Contents Val} {va : a.ty.Contents Val} {vb : b.ty.Contents Val} (vy : y.ty.Contents Val)
    (hmc : (⟨c, vc⟩ : Known sig Val) ∈ K) (hma : (⟨a, va⟩ : Known sig Val) ∈ K) (hmb : (⟨b, vb⟩ : Known sig Val) ∈ K)
    (hv : f vc va vb = vy) (hk : y ∉ R)
    (k : ∀ V' : Valuation τ sig Val, Agrees (y :: R) ((⟨y, vy⟩ : Known sig Val) :: K) V' → Ends ops V' Q) :
    Ends (ternary (τ := τ) c a b y f hc ha hb hy :: ops) V Q :=
  k _ (agrees_cons _ y vy h (fun _ hr => ternary_result_ne a b c y f hc ha hb hy V hr)
    ((ternary_result c a b y f hc ha hb hy V).trans
      (by rw [h.read c vc hmc, h.read a va hma, h.read b vb hmb]; exact hv)) hk)

/-- A step through a reshape. -/
theorem ends_reshape {x y : Ref sig .tc} {he : x.ty.elt = y.ty.elt} {hn : x.ty.shape.ShapeCasts y.ty.shape} {hx hy}
    (h : Agrees R K V) {vx : x.ty.Contents Val} (vy : y.ty.Contents Val) (hmx : (⟨x, vx⟩ : Known sig Val) ∈ K)
    (hv : (fun i => he ▸ shapeCast y.ty.shape vx hn i) = vy) (hk : y ∉ R)
    (k : ∀ V' : Valuation τ sig Val, Agrees (y :: R) ((⟨y, vy⟩ : Known sig Val) :: K) V' → Ends ops V' Q) :
    Ends (reshape (τ := τ) (Val := Val) x y he hn hx hy :: ops) V Q :=
  k _ (agrees_cons _ y vy h (fun _ hr => reshape_result_ne x y he hn hx hy V hr)
    ((reshape_result x y he hn hx hy V).trans (by rw [h.read x vx hmx]; exact hv)) hk)

end Steps

/-- Finds an entry in a literal list. -/
macro "stage_mem" : tactic =>
  `(tactic| repeat (first | exact List.mem_cons_self | apply List.mem_cons_of_mem))

end Idealize.ShloMosaic.RunStages
-- ==== Proof.RefStages.lean ====
/-
  The reference's operations followed one at a time: after the whole line the result buffer holds the composed
  term of the arguments (resTerm) and the three argument buffers are as they were.

  Each step reads its operands' contents off the list of what is known so far, and adds its result; the last step's
  entry is the composed term, spelt stage by stage.
-/
import proofs.«130638_j10230612099335_2_alg».proof.Proof.RefOps
import proofs.«130638_j10230612099335_2_alg».proof.Proof.RefTerm
import proofs.«130638_j10230612099335_2_alg».proof.Proof.LibRunStages

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.RunStages

variable {F : FTy → Type} [FloatOps F]

/-- The fold over two stretches is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem ends_append {l₁ l₂ : List (HloOp τ sig (Elt F))} {V : Valuation τ sig (Elt F)} {Q : Valuation τ sig (Elt F) → Prop}
    (h : Ends l₁ V (fun V' => Ends l₂ V' Q)) : Ends (l₁ ++ l₂) V Q := by
  unfold Ends at *
  rw [after_append]
  exact h

/-- Of what is known, keep five entries. -/
theorem agrees_keep5 {R : List (Ref sig .tc)} {K : List (Known sig (Elt F))} {V : Valuation τ sig (Elt F)} (h : Agrees R K V)
    (r1 r2 r3 r4 r5 : Ref sig .tc) {v1 : r1.ty.Contents (Elt F)} {v2 : r2.ty.Contents (Elt F)} {v3 : r3.ty.Contents (Elt F)}
    {v4 : r4.ty.Contents (Elt F)} {v5 : r5.ty.Contents (Elt F)}
    (h1 : (⟨r1, v1⟩ : Known sig (Elt F)) ∈ K) (h2 : (⟨r2, v2⟩ : Known sig (Elt F)) ∈ K) (h3 : (⟨r3, v3⟩ : Known sig (Elt F)) ∈ K)
    (h4 : (⟨r4, v4⟩ : Known sig (Elt F)) ∈ K) (h5 : (⟨r5, v5⟩ : Known sig (Elt F)) ∈ K) :
    Agrees [r1, r2, r3, r4, r5] [(⟨r1, v1⟩ : Known sig (Elt F)), ⟨r2, v2⟩, ⟨r3, v3⟩, ⟨r4, v4⟩, ⟨r5, v5⟩] V := by
  refine ⟨fun p hp => ?_, fun p hp => ?_⟩
  · simp only [List.mem_cons, List.mem_singleton, List.not_mem_nil, or_false] at hp ⊢
    rcases hp with rfl | rfl | rfl | rfl | rfl <;> simp
  · simp only [List.mem_cons, List.mem_singleton, List.not_mem_nil, or_false] at hp
    rcases hp with rfl | rfl | rfl | rfl | rfl
    · exact h.2 _ h1
    · exact h.2 _ h2
    · exact h.2 _ h3
    · exact h.2 _ h4
    · exact h.2 _ h5

set_option maxHeartbeats 8000000 in
/-- After the line: the result is the composed term, the arguments unchanged. -/
theorem ends_main (V : Valuation τ sig (Elt F)) :
    Ends (ops (F := F)) V (fun V' =>
      V' (Proc.devRef .tc main_v230) = resTerm (V (Proc.devRef .tc main_arg0)) (V (Proc.devRef .tc main_arg1)) (V (Proc.devRef .tc main_arg2))
      ∧ V' (Proc.devRef .tc main_arg0) = V (Proc.devRef .tc main_arg0)
      ∧ V' (Proc.devRef .tc main_arg1) = V (Proc.devRef .tc main_arg1)
      ∧ V' (Proc.devRef .tc main_arg2) = V (Proc.devRef .tc main_arg2)) := by
  have h0 : Agrees [main_arg2, main_arg1, main_arg0]
      [(⟨main_arg2, V (Proc.devRef .tc main_arg2)⟩ : Known sig (Elt F)), ⟨main_arg1, V (Proc.devRef .tc main_arg1)⟩, ⟨main_arg0, V (Proc.devRef .tc main_arg0)⟩] V :=
    ⟨fun p hp => by
        rcases List.mem_cons.mp hp with rfl | hp
        · exact List.mem_cons_self
        rcases List.mem_cons.mp hp with rfl | hp
        · exact List.mem_cons_of_mem _ List.mem_cons_self
        rw [List.mem_singleton.mp hp]; exact List.mem_cons_of_mem _ (List.mem_cons_of_mem _ List.mem_cons_self),
     fun p hp => by
        rcases List.mem_cons.mp hp with rfl | hp
        · rfl
        rcases List.mem_cons.mp hp with rfl | hp
        · rfl
        rw [List.mem_singleton.mp hp]⟩
  unfold ops
  refine ends_append ?_
  refine ends_nullary h0 _ rfl (by decide) (fun V1 h1 => ?_)
  refine ends_unary h1 _ (by stage_mem) rfl (by decide) (fun V2 h2 => ?_)
  refine ends_binary h2 _ (by stage_mem) (by stage_mem) rfl (by decide) (fun V3 h3 => ?_)
  refine ends_nullary h3 _ rfl (by decide) (fun V4 h4 => ?_)
  refine ends_unary h4 _ (by stage_mem) rfl (by decide) (fun V5 h5 => ?_)
  have k5 := agrees_keep5 h5 main_v1 main_v0 main_arg2 main_arg1 main_arg0 (by stage_mem) (by stage_mem) (by stage_mem) (by stage_mem) (by stage_mem)
  refine ends_unary k5 _ (by stage_mem) rfl (by decide) (fun V6 h6 => ?_)
  refine ends_unary h6 _ (by stage_mem) rfl (by decide) (fun V7 h7 => ?_)
  refine ends_unary h7 _ (by stage_mem) rfl (by decide) (fun V8 h8 => ?_)
  refine ends_reshape h8 _ (by stage_mem) rfl (by decide) (fun V9 h9 => ?_)
  refine ends_unary h9 _ (by stage_mem) rfl (by decide) (fun V10 h10 => ?_)
  refine ends_unary h10 _ (by stage_mem) rfl (by decide) (fun V11 h11 => ?_)
  refine ends_unary h11 _ (by stage_mem) rfl (by decide) (fun V12 h12 => ?_)
  refine ends_binary h12 _ (by stage_mem) (by stage_mem) rfl (by decide) (fun V13 h13 => ?_)
  refine ends_binary h13 _ (by stage_mem) (by stage_mem) rfl (by decide) (fun V14 h14 => ?_)
  have k14 := agrees_keep5 h14 main_v10 main_v0 main_arg2 main_arg1 main_arg0 (by stage_mem) (by stage_mem) (by stage_mem) (by stage_mem) (by stage_mem)
  refine ends_unary k14 _ (by stage_mem) rfl (by decide) (fun V15 h15 => ?_)
  refine ends_unary h15 _ (by stage_mem) rfl (by decide) (fun V16 h16 => ?_)
  refine ends_unary h16 _ (by stage_mem) rfl (by decide) (fun V17 h17 => ?_)
  refine ends_reshape h17 _ (by stage_mem) rfl (by decide) (fun V18 h18 => ?_)
  refine ends_unary h18 _ (by stage_mem) rfl (by decide) (fun V19 h19 => ?_)
  refine ends_unary h19 _ (by stage_mem) rfl (by decide) (fun V20 h20 => ?_)
  refine ends_unary h20 _ (by stage_mem) rfl (by decide) (fun V21 h21 => ?_)
  refine ends_binary h21 _ (by stage_mem) (by stage_mem) rfl (by decide) (fun V22 h22 => ?_)
  refine ends_binary h22 _ (by stage_mem) (by stage_mem) rfl (by decide) (fun V23 h23 => ?_)
  have k23 := agrees_keep5 h23 main_v19 main_v0 main_arg2 main_arg1 main_arg0 (by stage_mem) (by stage_mem) (by stage_mem) (by stage_mem) (by stage_mem)
  refine ends_unary k23 _ (by stage_mem) rfl (by decide) (fun V24 h24 => ?_)
  refine ends_unary h24 _ (by stage_mem) rfl (by decide) (fun V25 h25 => ?_)
  refine ends_unary h25 _ (by stage_mem) rfl (by decide) (fun V26 h26 => ?_)
  refine ends_reshape h26 _ (by stage_mem) rfl (by decide) (fun V27 h27 => ?_)
  refine ends_unary h27 _ (by stage_mem) rfl (by decide) (fun V28 h28 => ?_)
  refine ends_unary h28 _ (by stage_mem) rfl (by decide) (fun V29 h29 => ?_)
  refine ends_unary h29 _ (by stage_mem) rfl (by decide) (fun V30 h30 => ?_)
  refine ends_binary h30 _ (by stage_mem) (by stage_mem) rfl (by decide) (fun V31 h31 => ?_)
  refine ends_binary h31 _ (by stage_mem) (by stage_mem) rfl (by decide) (fun V32 h32 => ?_)
  have k32 := agrees_keep5 h32 main_v28 main_v0 main_arg2 main_arg1 main_arg0 (by stage_mem) (by stage_mem) (by stage_mem) (by stage_mem) (by stage_mem)
  refine ends_unary k32 _ (by stage_mem) rfl (by decide) (fun V33 h33 => ?_)
  refine ends_unary h33 _ (by stage_mem) rfl (by decide) (fun V34 h34 => ?_)
  refine ends_unary h34 _ (by stage_mem) rfl (by decide) (fun V35 h35 => ?_)
  refine ends_reshape h35 _ (by stage_mem) rfl (by decide) (fun V36 h36 => ?_)
  refine ends_unary h36 _ (by stage_mem) rfl (by decide) (fun V37 h37 => ?_)
  refine ends_unary h37 _ (by stage_mem) rfl (by decide) (fun V38 h38 => ?_)
  refine ends_unary h38 _ (by stage_mem) rfl (by decide) (fun V39 h39 => ?_)
  refine ends_binary h39 _ (by stage_mem) (by stage_mem) rfl (by decide) (fun V40 h40 => ?_)
  refine ends_binary h40 _ (by stage_mem) (by stage_mem) rfl (by decide) (fun V41 h41 => ?_)
  have k41 := agrees_keep5 h41 main_v37 main_v0 main_arg2 main_arg1 main_arg0 (by stage_mem) (by stage_mem) (by stage_mem) (by stage_mem) (by stage_mem)
  refine ends_unary k41 _ (by stage_mem) rfl (by decide) (fun V42 h42 => ?_)
  refine ends_unary h42 _ (by stage_mem) rfl (by decide) (fun V43 h43 => ?_)
  refine ends_unary h43 _ (by stage_mem) rfl (by decide) (fun V44 h44 => ?_)
  refine ends_reshape h44 _ (by stage_mem) rfl (by decide) (fun V45 h45 => ?_)
  refine ends_unary h45 _ (by stage_mem) rfl (by decide) (fun V46 h46 => ?_)
  refine ends_unary h46 _ (by stage_mem) rfl (by decide) (fun V47 h47 => ?_)
  refine ends_unary h47 _ (by stage_mem) rfl (by decide) (fun V48 h48 => ?_)
  refine ends_binary h48 _ (by stage_mem) (by stage_mem) rfl (by decide) (fun V49 h49 => ?_)
  refine ends_binary h49 _ (by stage_mem) (by stage_mem) rfl (by decide) (fun V50 h50 => ?_)
  have k50 := agrees_keep5 h50 main_v46 main_v0 main_arg2 main_arg1 main_arg0 (by stage_mem) (by stage_mem) (by stage_mem) (by stage_mem) (by stage_mem)
  refine ends_unary k50 _ (by stage_mem) rfl (by decide) (fun V51 h51 => ?_)
  refine ends_unary h51 _ (by stage_mem) rfl (by decide) (fun V52 h52 => ?_)
  refine ends_unary h52 _ (by stage_mem) rfl (by decide) (fun V53 h53 => ?_)
  refine ends_reshape h53 _ (by stage_mem) rfl (by decide) (fun V54 h54 => ?_)
  refine ends_unary h54 _ (by stage_mem) rfl (by decide) (fun V55 h55 => ?_)
  refine ends_unary h55 _ (by stage_mem) rfl (by decide) (fun V56 h56 => ?_)
  refine ends_unary h56 _ (by stage_mem) rfl (by decide) (fun V57 h57 => ?_)
  refine ends_binary h57 _ (by stage_mem) (by stage_mem) rfl (by decide) (fun V58 h58 => ?_)
  refine ends_binary h58 _ (by stage_mem) (by stage_mem) rfl (by decide) (fun V59 h59 => ?_)
  have k59 := agrees_keep5 h59 main_v55 main_v0 main_arg2 main_arg1 main_arg0 (by stage_mem) (by stage_mem) (by stage_mem) (by stage_mem) (by stage_mem)
  refine ends_unary k59 _ (by stage_mem) rfl (by decide) (fun V60 h60 => ?_)
  refine ends_unary h60 _ (by stage_mem) rfl (by decide) (fun V61 h61 => ?_)
  refine ends_nil ?_
  refine ends_append ?_
  refine ends_unary h61 _ (by stage_mem) rfl (by decide) (fun V62 h62 => ?_)
  refine ends_reshape h62 _ (by stage_mem) rfl (by decide) (fun V63 h63 => ?_)
  refine ends_unary h63 _ (by stage_mem) rfl (by decide) (fun V64 h64 => ?_)
  refine ends_unary h64 _ (by stage_mem) rfl (by decide) (fun V65 h65 => ?_)
  refine ends_unary h65 _ (by stage_mem) rfl (by decide) (fun V66 h66 => ?_)
  refine ends_binary h66 _ (by stage_mem) (by stage_mem) rfl (by decide) (fun V67 h67 => ?_)
  refine ends_binary h67 _ (by stage_mem) (by stage_mem) rfl (by decide) (fun V68 h68 => ?_)
  have k68 := agrees_keep5 h68 main_v64 main_v0 main_arg2 main_arg1 main_arg0 (by stage_mem) (by stage_mem) (by stage_mem) (by stage_mem) (by stage_mem)
  refine ends_unary k68 _ (by stage_mem) rfl (by decide) (fun V69 h69 => ?_)
  refine ends_unary h69 _ (by stage_mem) rfl (by decide) (fun V70 h70 => ?_)
  refine ends_unary h70 _ (by stage_mem) rfl (by decide) (fun V71 h71 => ?_)
  refine ends_reshape h71 _ (by stage_mem) rfl (by decide) (fun V72 h72 => ?_)
  refine ends_unary h72 _ (by stage_mem) rfl (by decide) (fun V73 h73 => ?_)
  refine ends_unary h73 _ (by stage_mem) rfl (by decide) (fun V74 h74 => ?_)
  refine ends_unary h74 _ (by stage_mem) rfl (by decide) (fun V75 h75 => ?_)
  refine ends_binary h75 _ (by stage_mem) (by stage_mem) rfl (by decide) (fun V76 h76 => ?_)
  refine ends_binary h76 _ (by stage_mem) (by stage_mem) rfl (by decide) (fun V77 h77 => ?_)
  have k77 := agrees_keep5 h77 main_v73 main_v0 main_arg2 main_arg1 main_arg0 (by stage_mem) (by stage_mem) (by stage_mem) (by stage_mem) (by stage_mem)
  refine ends_unary k77 _ (by stage_mem) rfl (by decide) (fun V78 h78 => ?_)
  refine ends_unary h78 _ (by stage_mem) rfl (by decide) (fun V79 h79 => ?_)
  refine ends_unary h79 _ (by stage_mem) rfl (by decide) (fun V80 h80 => ?_)
  refine ends_reshape h80 _ (by stage_mem) rfl (by decide) (fun V81 h81 => ?_)
  refine ends_unary h81 _ (by stage_mem) rfl (by decide) (fun V82 h82 => ?_)
  refine ends_unary h82 _ (by stage_mem) rfl (by decide) (fun V83 h83 => ?_)
  refine ends_unary h83 _ (by stage_mem) rfl (by decide) (fun V84 h84 => ?_)
  refine ends_binary h84 _ (by stage_mem) (by stage_mem) rfl (by decide) (fun V85 h85 => ?_)
  refine ends_binary h85 _ (by stage_mem) (by stage_mem) rfl (by decide) (fun V86 h86 => ?_)
  have k86 := agrees_keep5 h86 main_v82 main_v0 main_arg2 main_arg1 main_arg0 (by stage_mem) (by stage_mem) (by stage_mem) (by stage_mem) (by stage_mem)
  refine ends_unary k86 _ (by stage_mem) rfl (by decide) (fun V87 h87 => ?_)
  refine ends_unary h87 _ (by stage_mem) rfl (by decide) (fun V88 h88 => ?_)
  refine ends_unary h88 _ (by stage_mem) rfl (by decide) (fun V89 h89 => ?_)
  refine ends_reshape h89 _ (by stage_mem) rfl (by decide) (fun V90 h90 => ?_)
  refine ends_unary h90 _ (by stage_mem) rfl (by decide) (fun V91 h91 => ?_)
  refine ends_unary h91 _ (by stage_mem) rfl (by decide) (fun V92 h92 => ?_)
  refine ends_unary h92 _ (by stage_mem) rfl (by decide) (fun V93 h93 => ?_)
  refine ends_binary h93 _ (by stage_mem) (by stage_mem) rfl (by decide) (fun V94 h94 => ?_)
  refine ends_binary h94 _ (by stage_mem) (by stage_mem) rfl (by decide) (fun V95 h95 => ?_)
  have k95 := agrees_keep5 h95 main_v91 main_v0 main_arg2 main_arg1 main_arg0 (by stage_mem) (by stage_mem) (by stage_mem) (by stage_mem) (by stage_mem)
  refine ends_unary k95 _ (by stage_mem) rfl (by decide) (fun V96 h96 => ?_)
  refine ends_unary h96 _ (by stage_mem) rfl (by decide) (fun V97 h97 => ?_)
  refine ends_unary h97 _ (by stage_mem) rfl (by decide) (fun V98 h98 => ?_)
  refine ends_reshape h98 _ (by stage_mem) rfl (by decide) (fun V99 h99 => ?_)
  refine ends_unary h99 _ (by stage_mem) rfl (by decide) (fun V100 h100 => ?_)
  refine ends_unary h100 _ (by stage_mem) rfl (by decide) (fun V101 h101 => ?_)
  refine ends_unary h101 _ (by stage_mem) rfl (by decide) (fun V102 h102 => ?_)
  refine ends_binary h102 _ (by stage_mem) (by stage_mem) rfl (by decide) (fun V103 h103 => ?_)
  refine ends_binary h103 _ (by stage_mem) (by stage_mem) rfl (by decide) (fun V104 h104 => ?_)
  have k104 := agrees_keep5 h104 main_v100 main_v0 main_arg2 main_arg1 main_arg0 (by stage_mem) (by stage_mem) (by stage_mem) (by stage_mem) (by stage_mem)
  refine ends_unary k104 _ (by stage_mem) rfl (by decide) (fun V105 h105 => ?_)
  refine ends_unary h105 _ (by stage_mem) rfl (by decide) (fun V106 h106 => ?_)
  refine ends_unary h106 _ (by stage_mem) rfl (by decide) (fun V107 h107 => ?_)
  refine ends_reshape h107 _ (by stage_mem) rfl (by decide) (fun V108 h108 => ?_)
  refine ends_unary h108 _ (by stage_mem) rfl (by decide) (fun V109 h109 => ?_)
  refine ends_unary h109 _ (by stage_mem) rfl (by decide) (fun V110 h110 => ?_)
  refine ends_unary h110 _ (by stage_mem) rfl (by decide) (fun V111 h111 => ?_)
  refine ends_binary h111 _ (by stage_mem) (by stage_mem) rfl (by decide) (fun V112 h112 => ?_)
  refine ends_binary h112 _ (by stage_mem) (by stage_mem) rfl (by decide) (fun V113 h113 => ?_)
  have k113 := agrees_keep5 h113 main_v109 main_v0 main_arg2 main_arg1 main_arg0 (by stage_mem) (by stage_mem) (by stage_mem) (by stage_mem) (by stage_mem)
  refine ends_unary k113 _ (by stage_mem) rfl (by decide) (fun V114 h114 => ?_)
  refine ends_unary h114 _ (by stage_mem) rfl (by decide) (fun V115 h115 => ?_)
  refine ends_unary h115 _ (by stage_mem) rfl (by decide) (fun V116 h116 => ?_)
  refine ends_reshape h116 _ (by stage_mem) rfl (by decide) (fun V117 h117 => ?_)
  refine ends_unary h117 _ (by stage_mem) rfl (by decide) (fun V118 h118 => ?_)
  refine ends_unary h118 _ (by stage_mem) rfl (by decide) (fun V119 h119 => ?_)
  refine ends_unary h119 _ (by stage_mem) rfl (by decide) (fun V120 h120 => ?_)
  refine ends_binary h120 _ (by stage_mem) (by stage_mem) rfl (by decide) (fun V121 h121 => ?_)
  refine ends_nil ?_
  refine ends_append ?_
  refine ends_binary h121 _ (by stage_mem) (by stage_mem) rfl (by decide) (fun V122 h122 => ?_)
  have k122 := agrees_keep5 h122 main_v118 main_v0 main_arg2 main_arg1 main_arg0 (by stage_mem) (by stage_mem) (by stage_mem) (by stage_mem) (by stage_mem)
  refine ends_unary k122 _ (by stage_mem) rfl (by decide) (fun V123 h123 => ?_)
  refine ends_unary h123 _ (by stage_mem) rfl (by decide) (fun V124 h124 => ?_)
  refine ends_unary h124 _ (by stage_mem) rfl (by decide) (fun V125 h125 => ?_)
  refine ends_reshape h125 _ (by stage_mem) rfl (by decide) (fun V126 h126 => ?_)
  refine ends_unary h126 _ (by stage_mem) rfl (by decide) (fun V127 h127 => ?_)
  refine ends_unary h127 _ (by stage_mem) rfl (by decide) (fun V128 h128 => ?_)
  refine ends_unary h128 _ (by stage_mem) rfl (by decide) (fun V129 h129 => ?_)
  refine ends_binary h129 _ (by stage_mem) (by stage_mem) rfl (by decide) (fun V130 h130 => ?_)
  refine ends_binary h130 _ (by stage_mem) (by stage_mem) rfl (by decide) (fun V131 h131 => ?_)
  have k131 := agrees_keep5 h131 main_v127 main_v0 main_arg2 main_arg1 main_arg0 (by stage_mem) (by stage_mem) (by stage_mem) (by stage_mem) (by stage_mem)
  refine ends_unary k131 _ (by stage_mem) rfl (by decide) (fun V132 h132 => ?_)
  refine ends_unary h132 _ (by stage_mem) rfl (by decide) (fun V133 h133 => ?_)
  refine ends_unary h133 _ (by stage_mem) rfl (by decide) (fun V134 h134 => ?_)
  refine ends_reshape h134 _ (by stage_mem) rfl (by decide) (fun V135 h135 => ?_)
  refine ends_unary h135 _ (by stage_mem) rfl (by decide) (fun V136 h136 => ?_)
  refine ends_unary h136 _ (by stage_mem) rfl (by decide) (fun V137 h137 => ?_)
  refine ends_unary h137 _ (by stage_mem) rfl (by decide) (fun V138 h138 => ?_)
  refine ends_binary h138 _ (by stage_mem) (by stage_mem) rfl (by decide) (fun V139 h139 => ?_)
  refine ends_binary h139 _ (by stage_mem) (by stage_mem) rfl (by decide) (fun V140 h140 => ?_)
  have k140 := agrees_keep5 h140 main_v136 main_v0 main_arg2 main_arg1 main_arg0 (by stage_mem) (by stage_mem) (by stage_mem) (by stage_mem) (by stage_mem)
  refine ends_unary k140 _ (by stage_mem) rfl (by decide) (fun V141 h141 => ?_)
  refine ends_unary h141 _ (by stage_mem) rfl (by decide) (fun V142 h142 => ?_)
  refine ends_unary h142 _ (by stage_mem) rfl (by decide) (fun V143 h143 => ?_)
  refine ends_reshape h143 _ (by stage_mem) rfl (by decide) (fun V144 h144 => ?_)
  refine ends_unary h144 _ (by stage_mem) rfl (by decide) (fun V145 h145 => ?_)
  refine ends_unary h145 _ (by stage_mem) rfl (by decide) (fun V146 h146 => ?_)
  refine ends_unary h146 _ (by stage_mem) rfl (by decide) (fun V147 h147 => ?_)
  refine ends_binary h147 _ (by stage_mem) (by stage_mem) rfl (by decide) (fun V148 h148 => ?_)
  refine ends_binary h148 _ (by stage_mem) (by stage_mem) rfl (by decide) (fun V149 h149 => ?_)
  have k149 := agrees_keep5 h149 main_v145 main_v0 main_arg2 main_arg1 main_arg0 (by stage_mem) (by stage_mem) (by stage_mem) (by stage_mem) (by stage_mem)
  refine ends_unary k149 _ (by stage_mem) rfl (by decide) (fun V150 h150 => ?_)
  refine ends_unary h150 _ (by stage_mem) rfl (by decide) (fun V151 h151 => ?_)
  refine ends_unary h151 _ (by stage_mem) rfl (by decide) (fun V152 h152 => ?_)
  refine ends_reshape h152 _ (by stage_mem) rfl (by decide) (fun V153 h153 => ?_)
  refine ends_unary h153 _ (by stage_mem) rfl (by decide) (fun V154 h154 => ?_)
  refine ends_unary h154 _ (by stage_mem) rfl (by decide) (fun V155 h155 => ?_)
  refine ends_unary h155 _ (by stage_mem) rfl (by decide) (fun V156 h156 => ?_)
  refine ends_binary h156 _ (by stage_mem) (by stage_mem) rfl (by decide) (fun V157 h157 => ?_)
  refine ends_binary h157 _ (by stage_mem) (by stage_mem) rfl (by decide) (fun V158 h158 => ?_)
  have k158 := agrees_keep5 h158 main_v154 main_v0 main_arg2 main_arg1 main_arg0 (by stage_mem) (by stage_mem) (by stage_mem) (by stage_mem) (by stage_mem)
  refine ends_unary k158 _ (by stage_mem) rfl (by decide) (fun V159 h159 => ?_)
  refine ends_unary h159 _ (by stage_mem) rfl (by decide) (fun V160 h160 => ?_)
  refine ends_unary h160 _ (by stage_mem) rfl (by decide) (fun V161 h161 => ?_)
  refine ends_reshape h161 _ (by stage_mem) rfl (by decide) (fun V162 h162 => ?_)
  refine ends_unary h162 _ (by stage_mem) rfl (by decide) (fun V163 h163 => ?_)
  refine ends_unary h163 _ (by stage_mem) rfl (by decide) (fun V164 h164 => ?_)
  refine ends_unary h164 _ (by stage_mem) rfl (by decide) (fun V165 h165 => ?_)
  refine ends_binary h165 _ (by stage_mem) (by stage_mem) rfl (by decide) (fun V166 h166 => ?_)
  refine ends_binary h166 _ (by stage_mem) (by stage_mem) rfl (by decide) (fun V167 h167 => ?_)
  have k167 := agrees_keep5 h167 main_v163 main_v0 main_arg2 main_arg1 main_arg0 (by stage_mem) (by stage_mem) (by stage_mem) (by stage_mem) (by stage_mem)
  refine ends_unary k167 _ (by stage_mem) rfl (by decide) (fun V168 h168 => ?_)
  refine ends_unary h168 _ (by stage_mem) rfl (by decide) (fun V169 h169 => ?_)
  refine ends_unary h169 _ (by stage_mem) rfl (by decide) (fun V170 h170 => ?_)
  refine ends_reshape h170 _ (by stage_mem) rfl (by decide) (fun V171 h171 => ?_)
  refine ends_unary h171 _ (by stage_mem) rfl (by decide) (fun V172 h172 => ?_)
  refine ends_unary h172 _ (by stage_mem) rfl (by decide) (fun V173 h173 => ?_)
  refine ends_unary h173 _ (by stage_mem) rfl (by decide) (fun V174 h174 => ?_)
  refine ends_binary h174 _ (by stage_mem) (by stage_mem) rfl (by decide) (fun V175 h175 => ?_)
  refine ends_binary h175 _ (by stage_mem) (by stage_mem) rfl (by decide) (fun V176 h176 => ?_)
  have k176 := agrees_keep5 h176 main_v172 main_v0 main_arg2 main_arg1 main_arg0 (by stage_mem) (by stage_mem) (by stage_mem) (by stage_mem) (by stage_mem)
  refine ends_unary k176 _ (by stage_mem) rfl (by decide) (fun V177 h177 => ?_)
  refine ends_unary h177 _ (by stage_mem) rfl (by decide) (fun V178 h178 => ?_)
  refine ends_unary h178 _ (by stage_mem) rfl (by decide) (fun V179 h179 => ?_)
  refine ends_reshape h179 _ (by stage_mem) rfl (by decide) (fun V180 h180 => ?_)
  refine ends_unary h180 _ (by stage_mem) rfl (by decide) (fun V181 h181 => ?_)
  refine ends_nil ?_
  refine ends_unary h181 _ (by stage_mem) rfl (by decide) (fun V182 h182 => ?_)
  refine ends_unary h182 _ (by stage_mem) rfl (by decide) (fun V183 h183 => ?_)
  refine ends_binary h183 _ (by stage_mem) (by stage_mem) rfl (by decide) (fun V184 h184 => ?_)
  refine ends_binary h184 _ (by stage_mem) (by stage_mem) rfl (by decide) (fun V185 h185 => ?_)
  have k185 := agrees_keep5 h185 main_v181 main_v0 main_arg2 main_arg1 main_arg0 (by stage_mem) (by stage_mem) (by stage_mem) (by stage_mem) (by stage_mem)
  refine ends_unary k185 _ (by stage_mem) rfl (by decide) (fun V186 h186 => ?_)
  refine ends_unary h186 _ (by stage_mem) rfl (by decide) (fun V187 h187 => ?_)
  refine ends_unary h187 _ (by stage_mem) rfl (by decide) (fun V188 h188 => ?_)
  refine ends_reshape h188 _ (by stage_mem) rfl (by decide) (fun V189 h189 => ?_)
  refine ends_unary h189 _ (by stage_mem) rfl (by decide) (fun V190 h190 => ?_)
  refine ends_unary h190 _ (by stage_mem) rfl (by decide) (fun V191 h191 => ?_)
  refine ends_unary h191 _ (by stage_mem) rfl (by decide) (fun V192 h192 => ?_)
  refine ends_binary h192 _ (by stage_mem) (by stage_mem) rfl (by decide) (fun V193 h193 => ?_)
  refine ends_binary h193 _ (by stage_mem) (by stage_mem) rfl (by decide) (fun V194 h194 => ?_)
  have k194 := agrees_keep5 h194 main_v190 main_v0 main_arg2 main_arg1 main_arg0 (by stage_mem) (by stage_mem) (by stage_mem) (by stage_mem) (by stage_mem)
  refine ends_unary k194 _ (by stage_mem) rfl (by decide) (fun V195 h195 => ?_)
  refine ends_unary h195 _ (by stage_mem) rfl (by decide) (fun V196 h196 => ?_)
  refine ends_unary h196 _ (by stage_mem) rfl (by decide) (fun V197 h197 => ?_)
  refine ends_reshape h197 _ (by stage_mem) rfl (by decide) (fun V198 h198 => ?_)
  refine ends_unary h198 _ (by stage_mem) rfl (by decide) (fun V199 h199 => ?_)
  refine ends_unary h199 _ (by stage_mem) rfl (by decide) (fun V200 h200 => ?_)
  refine ends_unary h200 _ (by stage_mem) rfl (by decide) (fun V201 h201 => ?_)
  refine ends_binary h201 _ (by stage_mem) (by stage_mem) rfl (by decide) (fun V202 h202 => ?_)
  refine ends_binary h202 _ (by stage_mem) (by stage_mem) rfl (by decide) (fun V203 h203 => ?_)
  have k203 := agrees_keep5 h203 main_v199 main_v0 main_arg2 main_arg1 main_arg0 (by stage_mem) (by stage_mem) (by stage_mem) (by stage_mem) (by stage_mem)
  refine ends_unary k203 _ (by stage_mem) rfl (by decide) (fun V204 h204 => ?_)
  refine ends_unary h204 _ (by stage_mem) rfl (by decide) (fun V205 h205 => ?_)
  refine ends_unary h205 _ (by stage_mem) rfl (by decide) (fun V206 h206 => ?_)
  refine ends_reshape h206 _ (by stage_mem) rfl (by decide) (fun V207 h207 => ?_)
  refine ends_unary h207 _ (by stage_mem) rfl (by decide) (fun V208 h208 => ?_)
  refine ends_unary h208 _ (by stage_mem) rfl (by decide) (fun V209 h209 => ?_)
  refine ends_unary h209 _ (by stage_mem) rfl (by decide) (fun V210 h210 => ?_)
  refine ends_binary h210 _ (by stage_mem) (by stage_mem) rfl (by decide) (fun V211 h211 => ?_)
  refine ends_binary h211 _ (by stage_mem) (by stage_mem) rfl (by decide) (fun V212 h212 => ?_)
  have k212 := agrees_keep5 h212 main_v208 main_v0 main_arg2 main_arg1 main_arg0 (by stage_mem) (by stage_mem) (by stage_mem) (by stage_mem) (by stage_mem)
  refine ends_unary k212 _ (by stage_mem) rfl (by decide) (fun V213 h213 => ?_)
  refine ends_unary h213 _ (by stage_mem) rfl (by decide) (fun V214 h214 => ?_)
  refine ends_unary h214 _ (by stage_mem) rfl (by decide) (fun V215 h215 => ?_)
  refine ends_reshape h215 _ (by stage_mem) rfl (by decide) (fun V216 h216 => ?_)
  refine ends_unary h216 _ (by stage_mem) rfl (by decide) (fun V217 h217 => ?_)
  refine ends_unary h217 _ (by stage_mem) rfl (by decide) (fun V218 h218 => ?_)
  refine ends_unary h218 _ (by stage_mem) rfl (by decide) (fun V219 h219 => ?_)
  refine ends_binary h219 _ (by stage_mem) (by stage_mem) rfl (by decide) (fun V220 h220 => ?_)
  refine ends_binary h220 _ (by stage_mem) (by stage_mem) rfl (by decide) (fun V221 h221 => ?_)
  have k221 := agrees_keep5 h221 main_v217 main_v0 main_arg2 main_arg1 main_arg0 (by stage_mem) (by stage_mem) (by stage_mem) (by stage_mem) (by stage_mem)
  refine ends_unary k221 _ (by stage_mem) rfl (by decide) (fun V222 h222 => ?_)
  refine ends_unary h222 _ (by stage_mem) rfl (by decide) (fun V223 h223 => ?_)
  refine ends_unary h223 _ (by stage_mem) rfl (by decide) (fun V224 h224 => ?_)
  refine ends_reshape h224 _ (by stage_mem) rfl (by decide) (fun V225 h225 => ?_)
  refine ends_unary h225 _ (by stage_mem) rfl (by decide) (fun V226 h226 => ?_)
  refine ends_unary h226 _ (by stage_mem) rfl (by decide) (fun V227 h227 => ?_)
  refine ends_unary h227 _ (by stage_mem) rfl (by decide) (fun V228 h228 => ?_)
  refine ends_binary h228 _ (by stage_mem) (by stage_mem) rfl (by decide) (fun V229 h229 => ?_)
  refine ends_binary h229 _ (by stage_mem) (by stage_mem) rfl (by decide) (fun V230 h230 => ?_)
  have k230 := agrees_keep5 h230 main_v226 main_v0 main_arg2 main_arg1 main_arg0 (by stage_mem) (by stage_mem) (by stage_mem) (by stage_mem) (by stage_mem)
  refine ends_nullary k230 _ rfl (by decide) (fun V231 h231 => ?_)
  refine ends_binary h231 _ (by stage_mem) (by stage_mem) rfl (by decide) (fun V232 h232 => ?_)
  refine ends_unary h232 _ (by stage_mem) rfl (by decide) (fun V233 h233 => ?_)
  refine ends_unary h233 _ (by stage_mem) rfl (by decide) (fun V234 h234 => ?_)
  refine ends_binary h234 _ (by stage_mem) (by stage_mem) rfl (by decide) (fun V235 h235 => ?_)
  exact ends_nil ⟨(h235.read main_v230 _ (by stage_mem)).trans rfl,
    h235.read main_arg0 _ (by stage_mem), h235.read main_arg1 _ (by stage_mem), h235.read main_arg2 _ (by stage_mem)⟩

/-- Every weakly fair execution of the reference ends, without a fault, with its result at the composed term of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v230)
        = resTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨e, e0, e1, e2⟩ := ends_main (F := F) (launchContents m c)
      exact ⟨(h c main_v230).trans e, (h c main_arg0).trans e0, (h c main_arg1).trans e1, (h c main_arg2).trans e2⟩)
    (run_after m ρ)

end Cert.ReferenceIdeal.HandRun

end
-- ==== Proof.lean ====
/-
  The certificate of the max-plus convolution kernel against its reference.

  The kernel computes, for each batch element b, output channel co and position (h, w), the sum over the 32 input
  channels of the maximum over the 5 x 5 taps of weight + padded input, plus the bias of co; the reference computes
  the same quantity with the taps spread over a five-axis index and one sum over the input channel. The three
  frames: the kernel's body is run as a separation-logic triple at every grid point (its channel loop through its
  invariant) at the bit-level and at the ideal instance; the reference is a straight line of host operations
  followed one at a time. No ideal rewrite was applied, so the idealization claim is trivial. The value claim:
  both programs end with the same function of the arguments on the extended reals (Final.lean).
-/
import proofs.«130638_j10230612099335_2_alg».proof.Defs
import proofs.«130638_j10230612099335_2_alg».proof.Proof.Gen.Kernel
import proofs.«130638_j10230612099335_2_alg».proof.Proof.Gen.KernelIdeal
import proofs.«130638_j10230612099335_2_alg».proof.Proof.Gen.ReferenceIdeal
import proofs.«130638_j10230612099335_2_alg».proof.Proof.Gen.Pre_finite_inputs
import proofs.«130638_j10230612099335_2_alg».proof.Proof.BitsBody
import proofs.«130638_j10230612099335_2_alg».proof.Proof.IdealBody
import proofs.«130638_j10230612099335_2_alg».proof.Proof.Final
import proofs.«130638_j10230612099335_2_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Body.G m c, Cert.KernelIdeal.Body.value_run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
